-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S8x100000x64 : Shape := ⟨3, ![8, 100000, 64]⟩
abbrev S_ : Shape := ⟨0, ![]⟩

class Facts : Prop where
  bcast_S_S8x100000x64 : S_.BroadcastsInDim S8x100000x64 (![] : Fin 0 → Fin S8x100000x64.rank)
  reducesTo_S8x100000x64_S_d0_1_2 : S8x100000x64.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S8x100000x64 .f32) (main_arg2 : FVec F S8x100000x64 .f32) : IVec S_ 1 :=
  let main_v0 : FVec F S8x100000x64 .f32 := Host.absf main_arg1
  let main_cst : FVec F S_ .f32 := constant S_ .f32 0x7F800000#32
  let main_v1 : FVec F S8x100000x64 .f32 := broadcastInDim S8x100000x64 ![] bcast_S_S8x100000x64 main_cst
  let main_v2 : IVec S8x100000x64 1 := cmpf .olt main_v0 main_v1
  let main_c : IVec S_ 1 := constantI S_ 1 1#1
  let main_v3 : IVec S_ 1 := (fun x v => Host.reduce IntOp.andi x v reducesTo_S8x100000x64_S_d0_1_2 h_S_) main_v2 main_c
  let main_v4 : FVec F S8x100000x64 .f32 := Host.absf main_arg2
  let main_cst_0 : FVec F S_ .f32 := constant S_ .f32 0x7F800000#32
  let main_v5 : FVec F S8x100000x64 .f32 := broadcastInDim S8x100000x64 ![] bcast_S_S8x100000x64 main_cst_0
  let main_v6 : IVec S8x100000x64 1 := cmpf .olt main_v4 main_v5
  let main_c_1 : IVec S_ 1 := constantI S_ 1 1#1
  let main_v7 : IVec S_ 1 := (fun x v => Host.reduce IntOp.andi x v reducesTo_S8x100000x64_S_d0_1_2 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg0 main_v9
  let main_c_3 : IVec S_ 32 := constantI S_ 32 99999#32
  let main_v11 : IVec S4096 32 := broadcastInDim S4096 ![] bcast_S_S4096 main_c_3
  let main_v12 : IVec S4096 1 := cmpi .sle main_arg0 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096 : Shape := ⟨1, ![4096]⟩
abbrev S8x100000x64 : Shape := ⟨3, ![8, 100000, 64]⟩
abbrev S8x64x100000 : Shape := ⟨3, ![8, 64, 100000]⟩
abbrev S512x100000 : Shape := ⟨2, ![512, 100000]⟩
abbrev S8x2x64x4096 : Shape := ⟨4, ![8, 2, 64, 4096]⟩
abbrev S100000 : Shape := ⟨1, ![100000]⟩
abbrev S_ : Shape := ⟨0, ![]⟩
abbrev S1x100000 : Shape := ⟨2, ![1, 100000]⟩
abbrev S1x1x1x4096 : Shape := ⟨4, ![1, 1, 1, 4096]⟩
abbrev S16 : Shape := ⟨1, ![16]⟩
abbrev S8x4096x2x64 : Shape := ⟨4, ![8, 4096, 2, 64]⟩

abbrev nBuf : Table → Nat
  | .hbm => 9
  | .local .scVector .vmem => 4
  | _ => 0

abbrev bufTy : (tb : Table) → Fin (nBuf tb) → BufTy
  | .hbm, ⟨0, _⟩ => ⟨S4096, .i32⟩
  | .hbm, ⟨1, _⟩ => ⟨S8x100000x64, .f32⟩
  | .hbm, ⟨2, _⟩ => ⟨S8x100000x64, .f32⟩
  | .hbm, ⟨3, _⟩ => ⟨S8x64x100000, .f32⟩
  | .hbm, ⟨4, _⟩ => ⟨S512x100000, .f32⟩
  | .hbm, ⟨5, _⟩ => ⟨S8x64x100000, .f32⟩
  | .hbm, ⟨6, _⟩ => ⟨S512x100000, .f32⟩
  | .hbm, ⟨7, _⟩ => ⟨S8x2x64x4096, .f32⟩
  | .hbm, ⟨8, _⟩ => ⟨S8x4096x2x64, .f32⟩
  | .local .scVector .vmem, ⟨0, _⟩ => ⟨S4096, .i32⟩
  | .local .scVector .vmem, ⟨1, _⟩ => ⟨S100000, .f32⟩
  | .local .scVector .vmem, ⟨2, _⟩ => ⟨S4096, .f32⟩
  | .local .scVector .vmem, ⟨3, _⟩ => ⟨S4096, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_v3_scv : Ref sig .scVector := ⟨.hbm, 6, rfl⟩
abbrev main_arg0_scv : Ref sig .scVector := ⟨.hbm, 0, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_10 : BitVec 32 := 0#32
  ![v2.toNat, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_13 : BitVec 32 := 0#32
  let v35 : BitVec 1 := Scalar.cmpi .sgt v2 c0_i32_13
  let v36 : BitVec 32 := Scalar.extui v35
  let c0_i32_14 : BitVec 32 := 0#32
  let v37 : BitVec 1 := Scalar.cmpi .slt v2 c0_i32_14
  let v38 : BitVec 32 := Scalar.extui v37
  let v39 : BitVec 32 := Scalar.subi v36 v38
  let c64_i32_12 : BitVec 32 := 64#32
  let c0_i32_15 : BitVec 32 := 0#32
  let v40 : BitVec 1 := Scalar.cmpi .sgt c64_i32_12 c0_i32_15
  let v41 : BitVec 32 := Scalar.extui v40
  let c0_i32_16 : BitVec 32 := 0#32
  let v42 : BitVec 1 := Scalar.cmpi .slt c64_i32_12 c0_i32_16
  let v43 : BitVec 32 := Scalar.extui v42
  let v44 : BitVec 32 := Scalar.subi v41 v43
  let v45 : BitVec 1 := Scalar.cmpi .ne v39 v44
  let v46 : BitVec 32 := Scalar.remsi v2 c64_i32_12
  let c0_i32_17 : BitVec 32 := 0#32
  let v47 : BitVec 1 := Scalar.cmpi .ne v46 c0_i32_17
  let v48 : BitVec 1 := Scalar.andi v45 v47
  let v34 : BitVec 32 := Scalar.divsi v2 c64_i32_12
  let c1_i32_18 : BitVec 32 := 1#32
  let v49 : BitVec 32 := Scalar.subi v34 c1_i32_18
  let v50 : BitVec 32 := Scalar.select v48 v49 v34
  let c0_i32_25 : BitVec 32 := 0#32
  let c64_i32_19 : BitVec 32 := 64#32
  let c0_i32_20 : BitVec 32 := 0#32
  let v51 : BitVec 1 := Scalar.cmpi .eq c64_i32_19 c0_i32_20
  let c1_i32_21 : BitVec 32 := 1#32
  let v52 : BitVec 32 := Scalar.select v51 c1_i32_21 c64_i32_19
  let v53 : BitVec 32 := Scalar.remsi v2 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_26 : BitVec 32 := 0#32
  ![v50.toNat, 0, v60.toNat, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_29 : BitVec 32 := 0#32
  let v66 : BitVec 1 := Scalar.cmpi .sgt v2 c0_i32_29
  let v67 : BitVec 32 := Scalar.extui v66
  let c0_i32_30 : BitVec 32 := 0#32
  let v68 : BitVec 1 := Scalar.cmpi .slt v2 c0_i32_30
  let v69 : BitVec 32 := Scalar.extui v68
  let v70 : BitVec 32 := Scalar.subi v67 v69
  let c64_i32_28 : BitVec 32 := 64#32
  let c0_i32_31 : BitVec 32 := 0#32
  let v71 : BitVec 1 := Scalar.cmpi .sgt c64_i32_28 c0_i32_31
  let v72 : BitVec 32 := Scalar.extui v71
  let c0_i32_32 : BitVec 32 := 0#32
  let v73 : BitVec 1 := Scalar.cmpi .slt c64_i32_28 c0_i32_32
  let v74 : BitVec 32 := Scalar.extui v73
  let v75 : BitVec 32 := Scalar.subi v72 v74
  let v76 : BitVec 1 := Scalar.cmpi .ne v70 v75
  let v77 : BitVec 32 := Scalar.remsi v2 c64_i32_28
  let c0_i32_33 : BitVec 32 := 0#32
  let v78 : BitVec 1 := Scalar.cmpi .ne v77 c0_i32_33
  let v79 : BitVec 1 := Scalar.andi v76 v78
  let v65 : BitVec 32 := Scalar.divsi v2 c64_i32_28
  let c1_i32_34 : BitVec 32 := 1#32
  let v80 : BitVec 32 := Scalar.subi v65 c1_i32_34
  let v81 : BitVec 32 := Scalar.select v79 v80 v65
  let c1_i32_41 : BitVec 32 := 1#32
  let c64_i32_35 : BitVec 32 := 64#32
  let c0_i32_36 : BitVec 32 := 0#32
  let v82 : BitVec 1 := Scalar.cmpi .eq c64_i32_35 c0_i32_36
  let c1_i32_37 : BitVec 32 := 1#32
  let v83 : BitVec 32 := Scalar.select v82 c1_i32_37 c64_i32_35
  let v84 : BitVec 32 := Scalar.remsi v2 v83
  let c0_i32_39 : BitVec 32 := 0#32
  let v86 : BitVec 1 := Scalar.cmpi .slt v84 c0_i32_39
  let c0_i32_40 : BitVec 32 := 0#32
  let v87 : BitVec 1 := Scalar.cmpi .slt v83 c0_i32_40
  let v88 : BitVec 1 := Scalar.xori v86 v87
  let c0_i32_38 : BitVec 32 := 0#32
  let v85 : BitVec 1 := Scalar.cmpi .ne v84 c0_i32_38
  let v89 : BitVec 1 := Scalar.andi v88 v85
  let v90 : BitVec 32 := Scalar.addi v84 v83
  let v91 : BitVec 32 := Scalar.select v89 v90 v84
  let c0_i32_42 : BitVec 32 := 0#32
  ![v81.toNat, 1, v91.toNat, 0]
@[reducible] def k0_t1_loop : Scf.Loop 32 :=
  let c0_i32_45 : BitVec 32 := 0#32
  let c16_i32_46 : BitVec 32 := 16#32
  let v96 : BitVec 32 := Scalar.addi c0_i32_45 c16_i32_46
  let c1_i32_47 : BitVec 32 := 1#32
  ⟨c0_i32_45, v96, c1_i32_47⟩
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  let c1_i32_47 : BitVec 32 := 1#32
  let arg13 : BitVec 32 := Scf.iv c0_i32_45 c1_i32_47 k0_t1
  let v165 : BitVec 32 := Scalar.addi v2 arg13
  let c0_i32_88 : BitVec 32 := 0#32
  ![v165.toNat, 0]
def k0_off5 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  let c1_i32_47 : BitVec 32 := 1#32
  let arg13 : BitVec 32 := Scf.iv c0_i32_45 c1_i32_47 k0_t1
  let v165 : BitVec 32 := Scalar.addi v2 arg13
  let c0_i32_91 : BitVec 32 := 0#32
  let v175 : BitVec 1 := Scalar.cmpi .sgt v165 c0_i32_91
  let v176 : BitVec 32 := Scalar.extui v175
  let c0_i32_92 : BitVec 32 := 0#32
  let v177 : BitVec 1 := Scalar.cmpi .slt v165 c0_i32_92
  let v178 : BitVec 32 := Scalar.extui v177
  let v179 : BitVec 32 := Scalar.subi v176 v178
  let c64_i32_90 : BitVec 32 := 64#32
  let c0_i32_93 : BitVec 32 := 0#32
  let v180 : BitVec 1 := Scalar.cmpi .sgt c64_i32_90 c0_i32_93
  let v181 : BitVec 32 := Scalar.extui v180
  let c0_i32_94 : BitVec 32 := 0#32
  let v182 : BitVec 1 := Scalar.cmpi .slt c64_i32_90 c0_i32_94
  let v183 : BitVec 32 := Scalar.extui v182
  let v184 : BitVec 32 := Scalar.subi v181 v183
  let v185 : BitVec 1 := Scalar.cmpi .ne v179 v184
  let v186 : BitVec 32 := Scalar.remsi v165 c64_i32_90
  let c0_i32_95 : BitVec 32 := 0#32
  let v187 : BitVec 1 := Scalar.cmpi .ne v186 c0_i32_95
  let v188 : BitVec 1 := Scalar.andi v185 v187
  let v174 : BitVec 32 := Scalar.divsi v165 c64_i32_90
  let c1_i32_96 : BitVec 32 := 1#32
  let v189 : BitVec 32 := Scalar.subi v174 c1_i32_96
  let v190 : BitVec 32 := Scalar.select v188 v189 v174
  let c0_i32_103 : BitVec 32 := 0#32
  let c64_i32_97 : BitVec 32 := 64#32
  let c0_i32_98 : BitVec 32 := 0#32
  let v191 : BitVec 1 := Scalar.cmpi .eq c64_i32_97 c0_i32_98
  let c1_i32_99 : BitVec 32 := 1#32
  let v192 : BitVec 32 := Scalar.select v191 c1_i32_99 c64_i32_97
  let v193 : BitVec 32 := Scalar.remsi v165 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c0_i32_104 : BitVec 32 := 0#32
  ![v190.toNat, 0, v200.toNat, 0]
@[reducible] def k0_t2_loop : Scf.Loop 32 :=
  let c0_i32_107 : BitVec 32 := 0#32
  let c256_i32 : BitVec 32 := 256#32
  let v205 : BitVec 32 := Scalar.addi c0_i32_107 c256_i32
  let c1_i32_108 : BitVec 32 := 1#32
  ⟨c0_i32_107, v205, c1_i32_108⟩
def k0_off6 (k0_t2 : Fin k0_t2_loop.trips) : Fin 1 → Nat :=
  let c0_i32_107 : BitVec 32 := 0#32
  let c1_i32_108 : BitVec 32 := 1#32
  let arg14 : BitVec 32 := Scf.iv c0_i32_107 c1_i32_108 k0_t2
  let c16_i32_169 : BitVec 32 := 16#32
  let v312 : BitVec 32 := Scalar.muli arg14 c16_i32_169
  let v313 : Index := Scalar.indexCast v312
  ![v313.toNat]

def k0_chk1 (v314 : IVec S16 32) : Prop :=
  (∀ a x, ((![v314] : Fin 1 → IVec S16 32) a x).toNat < S100000.size a)
instance k0_chk1.dec : ∀ (v314 : IVec S16 32), Decidable (k0_chk1 v314) := fun v314 => decidable_of_iff' _ (Iff.of_eq (k0_chk1.eq_1 v314))
theorem k0_idx1_inb : ∀ (v314 : IVec S16 32) (k0_hw1 : k0_chk1 v314), ∀ a x, ((![v314] : Fin 1 → IVec S16 32) a x).toNat < S100000.size a := fun v314 k0_hw1 => k0_hw1
def k0_off7 (k0_t2 : Fin k0_t2_loop.trips) : Fin 1 → Nat :=
  let c0_i32_107 : BitVec 32 := 0#32
  let c1_i32_108 : BitVec 32 := 1#32
  let arg14 : BitVec 32 := Scf.iv c0_i32_107 c1_i32_108 k0_t2
  let c16_i32_169 : BitVec 32 := 16#32
  let v312 : BitVec 32 := Scalar.muli arg14 c16_i32_169
  let v316 : Index := Scalar.indexCast v312
  ![v316.toNat]
def k0_off8 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  let c1_i32_47 : BitVec 32 := 1#32
  let arg13 : BitVec 32 := Scf.iv c0_i32_45 c1_i32_47 k0_t1
  let v165 : BitVec 32 := Scalar.addi v2 arg13
  let c0_i32_131 : BitVec 32 := 0#32
  let v246 : BitVec 1 := Scalar.cmpi .sgt v165 c0_i32_131
  let v247 : BitVec 32 := Scalar.extui v246
  let c0_i32_132 : BitVec 32 := 0#32
  let v248 : BitVec 1 := Scalar.cmpi .slt v165 c0_i32_132
  let v249 : BitVec 32 := Scalar.extui v248
  let v250 : BitVec 32 := Scalar.subi v247 v249
  let c64_i32_130 : BitVec 32 := 64#32
  let c0_i32_133 : BitVec 32 := 0#32
  let v251 : BitVec 1 := Scalar.cmpi .sgt c64_i32_130 c0_i32_133
  let v252 : BitVec 32 := Scalar.extui v251
  let c0_i32_134 : BitVec 32 := 0#32
  let v253 : BitVec 1 := Scalar.cmpi .slt c64_i32_130 c0_i32_134
  let v254 : BitVec 32 := Scalar.extui v253
  let v255 : BitVec 32 := Scalar.subi v252 v254
  let v256 : BitVec 1 := Scalar.cmpi .ne v250 v255
  let v257 : BitVec 32 := Scalar.remsi v165 c64_i32_130
  let c0_i32_135 : BitVec 32 := 0#32
  let v258 : BitVec 1 := Scalar.cmpi .ne v257 c0_i32_135
  let v259 : BitVec 1 := Scalar.andi v256 v258
  let v245 : BitVec 32 := Scalar.divsi v165 c64_i32_130
  let c1_i32_136 : BitVec 32 := 1#32
  let v260 : BitVec 32 := Scalar.subi v245 c1_i32_136
  let v261 : BitVec 32 := Scalar.select v259 v260 v245
  let c1_i32_143 : BitVec 32 := 1#32
  let c64_i32_137 : BitVec 32 := 64#32
  let c0_i32_138 : BitVec 32 := 0#32
  let v262 : BitVec 1 := Scalar.cmpi .eq c64_i32_137 c0_i32_138
  let c1_i32_139 : BitVec 32 := 1#32
  let v263 : BitVec 32 := Scalar.select v262 c1_i32_139 c64_i32_137
  let v264 : BitVec 32 := Scalar.remsi v165 v263
  let c0_i32_141 : BitVec 32 := 0#32
  let v266 : BitVec 1 := Scalar.cmpi .slt v264 c0_i32_141
  let c0_i32_142 : BitVec 32 := 0#32
  let v267 : BitVec 1 := Scalar.cmpi .slt v263 c0_i32_142
  let v268 : BitVec 1 := Scalar.xori v266 v267
  let c0_i32_140 : BitVec 32 := 0#32
  let v265 : BitVec 1 := Scalar.cmpi .ne v264 c0_i32_140
  let v269 : BitVec 1 := Scalar.andi v268 v265
  let v270 : BitVec 32 := Scalar.addi v264 v263
  let v271 : BitVec 32 := Scalar.select v269 v270 v264
  let c0_i32_144 : BitVec 32 := 0#32
  ![v261.toNat, 1, v271.toNat, 0]
@[reducible] def k0_t3_loop : Scf.Loop 32 :=
  let c0_i32_147 : BitVec 32 := 0#32
  let c256_i32_148 : BitVec 32 := 256#32
  let v276 : BitVec 32 := Scalar.addi c0_i32_147 c256_i32_148
  let c1_i32_149 : BitVec 32 := 1#32
  ⟨c0_i32_147, v276, c1_i32_149⟩
def k0_off9 (k0_t3 : Fin k0_t3_loop.trips) : Fin 1 → Nat :=
  let c0_i32_147 : BitVec 32 := 0#32
  let c1_i32_149 : BitVec 32 := 1#32
  let arg14 : BitVec 32 := Scf.iv c0_i32_147 c1_i32_149 k0_t3
  let c16_i32_169 : BitVec 32 := 16#32
  let v312 : BitVec 32 := Scalar.muli arg14 c16_i32_169
  let v313 : Index := Scalar.indexCast v312
  ![v313.toNat]

def k0_chk2 (v316 : IVec S16 32) : Prop :=
  (∀ a x, ((![v316] : Fin 1 → IVec S16 32) a x).toNat < S100000.size a)
instance k0_chk2.dec : ∀ (v316 : IVec S16 32), Decidable (k0_chk2 v316) := fun v316 => decidable_of_iff' _ (Iff.of_eq (k0_chk2.eq_1 v316))
theorem k0_idx2_inb : ∀ (v316 : IVec S16 32) (k0_hw2 : k0_chk2 v316), ∀ a x, ((![v316] : Fin 1 → IVec S16 32) a x).toNat < S100000.size a := fun v316 k0_hw2 => k0_hw2
def k0_off10 (k0_t3 : Fin k0_t3_loop.trips) : Fin 1 → Nat :=
  let c0_i32_147 : BitVec 32 := 0#32
  let c1_i32_149 : BitVec 32 := 1#32
  let arg14 : BitVec 32 := Scf.iv c0_i32_147 c1_i32_149 k0_t3
  let c16_i32_169 : BitVec 32 := 16#32
  let v312 : BitVec 32 := Scalar.muli arg14 c16_i32_169
  let v320 : Index := Scalar.indexCast v312
  ![v320.toNat]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  let c1_i32_47 : BitVec 32 := 1#32
  let arg13 : BitVec 32 := Scf.iv c0_i32_45 c1_i32_47 k0_t1
  let v165 : BitVec 32 := Scalar.addi v2 arg13
  let c1_i32_85 : BitVec 32 := 1#32
  let v166 : BitVec 32 := Scalar.addi v165 c1_i32_85
  let c16_i32_86 : BitVec 32 := 16#32
  let v167 : BitVec 32 := Scalar.addi v2 c16_i32_86
  let c1_i32_87 : BitVec 32 := 1#32
  let v168 : BitVec 32 := Scalar.subi v167 c1_i32_87
  let v169 : BitVec 32 := Scalar.minsi v166 v168
  let c0_i32_151 : BitVec 32 := 0#32
  ![v169.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c16_i32_49 : BitVec 32 := 16#32
  let v97 : BitVec 32 := Scalar.addi v2 c16_i32_49
  let c1_i32_50 : BitVec 32 := 1#32
  let v98 : BitVec 32 := Scalar.subi v97 c1_i32_50
  let c0_i32_51 : BitVec 32 := 0#32
  ![v98.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x100000x64_S8x64x100000_0_2_1 : S8x100000x64.Transposes [0, 2, 1] S8x64x100000
  shapeCasts_S8x64x100000_S512x100000 : S8x64x100000.ShapeCasts S512x100000
  squeezes_S1x100000_S100000 : S1x100000.Squeezes S100000
  squeezes_S1x1x1x4096_S4096 : S1x1x1x4096.Squeezes S4096
  h_S16 : 0 < S16.numel
  h_S100000 : 0 < S100000.numel
  transposes_S8x2x64x4096_S8x4096x2x64_0_3_1_2 : S8x2x64x4096.Transposes [0, 3, 1, 2] S8x4096x2x64
  hcc0_scratch4 : 0 + S_.numel ≤ 4
  hcc0_scratch5 : 1 + S_.numel ≤ 4
  hcc0_scratch6 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x100000.size a ≤ S512x100000.size a
  k0_off2_inb : ∀ i : grid0.Coords, ∀ a, (k0_off2 i) a + S1x1x1x4096.size a ≤ S8x2x64x4096.size a
  k0_off3_inb : ∀ i : grid0.Coords, ∀ a, (k0_off3 i) a + S1x1x1x4096.size a ≤ S8x2x64x4096.size a
  k0_t1_ok : k0_t1_loop.OK
  k0_off4_inb : ∀ (i : grid0.Coords) (k0_t1 : Fin k0_t1_loop.trips), ∀ a, (k0_off4 i k0_t1) a + S1x100000.size a ≤ S512x100000.size a
  k0_off5_inb : ∀ (i : grid0.Coords) (k0_t1 : Fin k0_t1_loop.trips), ∀ a, (k0_off5 i k0_t1) a + S1x1x1x4096.size a ≤ S8x2x64x4096.size a
  k0_t2_ok : k0_t2_loop.OK
  k0_off6_inb : ∀ k0_t2 : Fin k0_t2_loop.trips, ∀ a, (k0_off6 k0_t2) a + S16.size a ≤ S4096.size a
  k0_off7_inb : ∀ k0_t2 : Fin k0_t2_loop.trips, ∀ a, (k0_off7 k0_t2) a + S16.size a ≤ S4096.size a
  k0_off8_inb : ∀ (i : grid0.Coords) (k0_t1 : Fin k0_t1_loop.trips), ∀ a, (k0_off8 i k0_t1) a + S1x1x1x4096.size a ≤ S8x2x64x4096.size a
  k0_t3_ok : k0_t3_loop.OK
  k0_off9_inb : ∀ k0_t3 : Fin k0_t3_loop.trips, ∀ a, (k0_off9 k0_t3) a + S16.size a ≤ S4096.size a
  k0_off10_inb : ∀ k0_t3 : Fin k0_t3_loop.trips, ∀ a, (k0_off10 k0_t3) a + S16.size a ≤ S4096.size a
  k0_off11_inb : ∀ (i : grid0.Coords) (k0_t1 : Fin k0_t1_loop.trips), ∀ a, (k0_off11 i k0_t1) a + S1x100000.size a ≤ S512x100000.size a
  k0_off12_inb : ∀ i : grid0.Coords, ∀ a, (k0_off12 i) a + S1x100000.size a ≤ S512x100000.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0

class Facts : Prop extends Facts₀ where

variable [Facts]
-- ==== ReferenceIdeal.lean ====
abbrev S4096 : Shape := ⟨1, ![4096]⟩
abbrev S8x100000x64 : Shape := ⟨3, ![8, 100000, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S8x4096x64 : Shape := ⟨3, ![8, 4096, 64]⟩
abbrev S8x4096x1x64 : Shape := ⟨4, ![8, 4096, 1, 64]⟩
abbrev S8x4096x2x64 : Shape := ⟨4, ![8, 4096, 2, 64]⟩

abbrev nBuf : Space → Nat
  | .hbm => 54
  | .vmem => 0
  | .smem => 0
  | _ => 0

abbrev bufTy : (tb : Table) → Fin (tcTables nBuf tb) → BufTy
  | .hbm, ⟨0, _⟩ => ⟨S4096, .i32⟩
  | .hbm, ⟨1, _⟩ => ⟨S8x100000x64, .f32⟩
  | .hbm, ⟨2, _⟩ => ⟨S8x100000x64, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S8x4096x64, .f32⟩
  | .hbm, ⟨22, _⟩ => ⟨S8x4096x64, .i1⟩
  | .hbm, ⟨23, _⟩ => ⟨S_, .f32⟩
  | .hbm, ⟨24, _⟩ => ⟨S8x4096x64, .f32⟩
  | .hbm, ⟨25, _⟩ => ⟨S8x4096x64, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S1x1, .i32⟩
  | .hbm, ⟨39, _⟩ => ⟨S4096x1, .i32⟩
  | .hbm, ⟨40, _⟩ => ⟨S4096x1, .i1⟩
  | .hbm, ⟨41, _⟩ => ⟨S4096x1, .i1⟩
  | .hbm, ⟨42, _⟩ => ⟨S_, .i1⟩
  | .hbm, ⟨43, _⟩ => ⟨S4096, .i1⟩
  | .hbm, ⟨44, _⟩ => ⟨S8x4096x64, .f32⟩
  | .hbm, ⟨45, _⟩ => ⟨S8x4096x64, .i1⟩
  | .hbm, ⟨46, _⟩ => ⟨S_, .f32⟩
  | .hbm, ⟨47, _⟩ => ⟨S8x4096x64, .f32⟩
  | .hbm, ⟨48, _⟩ => ⟨S8x4096x64, .f32⟩
  | .hbm, ⟨49, _⟩ => ⟨S8x4096x64, .f32⟩
  | .hbm, ⟨50, _⟩ => ⟨S8x4096x64, .f32⟩
  | .hbm, ⟨51, _⟩ => ⟨S8x4096x1x64, .f32⟩
  | .hbm, ⟨52, _⟩ => ⟨S8x4096x1x64, .f32⟩
  | .hbm, ⟨53, _⟩ => ⟨S8x4096x2x64, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S8x4096x64_1 : S4096.BroadcastsInDim S8x4096x64 (![1] : Fin 1 → Fin S8x4096x64.rank)
  bcast_S_S8x4096x64 : S_.BroadcastsInDim S8x4096x64 (![] : Fin 0 → Fin S8x4096x64.rank)
  bcast_S8x4096x64_S8x4096x1x64_0_1_3 : S8x4096x64.BroadcastsInDim S8x4096x1x64 (![0, 1, 3] : Fin 3 → Fin S8x4096x1x64.rank)
  concatenates_S8x4096x1x64_S8x4096x1x64_S8x4096x2x64_d2 : Shape.Concatenates [S8x4096x1x64, S8x4096x1x64] S8x4096x2x64 2
  gather_S8x100000x64_S4096x1_S8x4096x64_02_1_n_n_1_1_8164_wf : GatherDims.WF S8x100000x64 S4096x1 S8x4096x64 [0, 2] [1] [] [1] [] 1 ![8, 1, 64]

variable [Facts₀]

def gather_S8x100000x64_S4096x1_S8x4096x64_02_1_n_n_1_1_8164 : GatherDims S8x100000x64 S4096x1 S8x4096x64 where
  offsetDims := [0, 2]
  collapsedSliceDims := [1]
  operandBatchingDims := []
  startIndicesBatchingDims := []
  startIndexMap := [1]
  indexVectorDim := 1
  sliceSizes := ![8, 1, 64]
  wf := gather_S8x100000x64_S4096x1_S8x4096x64_02_1_n_n_1_1_8164_wf

class Facts : Prop extends Facts₀ where

variable [Facts]
-- ==== Proof.Spec.lean ====
/-
  What both programs compute, as one function of the argument arrays.

  A batch entry b selects the box idx[b]. For a model m, a coordinate d and a batch entry b the result holds, in
  slot 0, the box's minimum coordinate z[m, idx[b], d] and, in slot 1, its maximum coordinate
  z[m, idx[b], d] + exp(logdelta[m, idx[b], d]).

  Two layouts of the same numbers are stated: `result`, indexed (model, batch, slot, coordinate), and `staged`,
  indexed (model, slot, coordinate, batch) over tables already laid out one row per (model, coordinate) pair,
  row = model * 64 + coordinate.
-/
import Idealize.ShloMosaic.PureOps
import Idealize.ShloMosaic.Lib.ValueIdx

noncomputable section

namespace Cert.Spec

open Idealize.ShloMosaic Idealize.ShloMosaic.ValueIdx

abbrev S4096 : Shape := ⟨1, ![4096]⟩
abbrev S8x100000x64 : Shape := ⟨3, ![8, 100000, 64]⟩
abbrev S512x100000 : Shape := ⟨2, ![512, 100000]⟩
abbrev S8x2x64x4096 : Shape := ⟨4, ![8, 2, 64, 4096]⟩
abbrev S8x4096x2x64 : Shape := ⟨4, ![8, 4096, 2, 64]⟩

variable {F : FTy → Type} [FloatOps F]

/-- The box batch entry `b` selects: the index word read as a natural number (reduced into the table's range, which
    changes nothing for a word already in range). -/
def box (idx : IVec S4096 32) (b : Fin 4096) : Fin 100000 :=
  ⟨(idx (ix1 b)).toNat % 100000, Nat.mod_lt _ (by decide)⟩

theorem box_val_of_lt (idx : IVec S4096 32) (b : Fin 4096) (h : (idx (ix1 b)).toNat < 100000) :
    (box idx b).val = (idx (ix1 b)).toNat := Nat.mod_eq_of_lt h

/-- The table row of model `m` and coordinate `d`. -/
def tableRow (m : Fin 8) (d : Fin 64) : Fin 512 := ⟨m.val * 64 + d.val, by omega⟩

/-- Minimum and maximum coordinates, indexed (model, batch, slot, coordinate). -/
def result (idx : IVec S4096 32) (z ld : FVec F S8x100000x64 .f32) : FVec F S8x4096x2x64 .f32 := fun j =>
  let p : S8x100000x64.Idx := ix3 (n0 := 8) (n1 := 100000) (n2 := 64) ⟨(j 0).val, (j 0).isLt⟩ (box idx ⟨(j 1).val, (j 1).isLt⟩) ⟨(j 3).val, (j 3).isLt⟩
  if (j 2).val = 0 then z p else FloatOps.addf (z p) (FloatOps.exp (ld p))

/-- The same numbers over row-per-(model, coordinate) tables, indexed (model, slot, coordinate, batch). -/
def staged (idx : IVec S4096 32) (zT ldT : FVec F S512x100000 .f32) : FVec F S8x2x64x4096 .f32 := fun j =>
  let p : S512x100000.Idx := ix2 (n0 := 512) (n1 := 100000) (tableRow ⟨(j 0).val, (j 0).isLt⟩ ⟨(j 2).val, (j 2).isLt⟩) (box idx ⟨(j 3).val, (j 3).isLt⟩)
  if (j 1).val = 0 then zT p else FloatOps.addf (zT p) (FloatOps.exp (ldT p))

end Cert.Spec

end
-- ==== Proof.Kernel.Setup.lean ====
/-
  The set-up shared by the tile's proof and the launch: the program as the launch theorem sees it, the ghost state
  (the handshakes' rounds beside the transfers' counters), the arrays of a device, the staged tables, and what the
  one SparseCore call hands every tile and takes back.

  The call runs on 2 SparseCores x 16 tiles. Tile (c, i) has number w = 2 i + c and owns table rows 16 w .. 16 w + 15,
  where row r = 64 * model + coordinate. It reads the index list whole and rows of the two staged tables, and writes,
  for each of its rows r, the two output rows (model, slot 0, coordinate, ·) and (model, slot 1, coordinate, ·).
  So a tile is handed a read share of the index list and of each table, and the 32 output rows it writes outright;
  it hands back the same with the output rows at the specification.
-/
import proofs.«205357_g36507222016157_cont_8to1_b_501_45_alg».proof.Proof.Gen.Kernel
import proofs.«205357_g36507222016157_cont_8to1_b_501_45_alg».proof.Proof.Gen.Kernel.Skeleton
import proofs.«205357_g36507222016157_cont_8to1_b_501_45_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of a device -/

variable (m : (ℓ : Loc nD τ sig) → Buf (Elt F) ℓ) (ρ : Dev nD → PrngReg)

/-- The index list, the two tables as given, their transposes, the staged tables, the kernel's output, the result. -/
abbrev iLoc (d : Dev nD) : Loc nD τ sig := (SparseCore.T d).loc main_arg0
abbrev zLoc (d : Dev nD) : Loc nD τ sig := (SparseCore.T d).loc main_arg1
abbrev lLoc (d : Dev nD) : Loc nD τ sig := (SparseCore.T d).loc main_arg2
abbrev z0Loc (d : Dev nD) : Loc nD τ sig := (SparseCore.T d).loc main_v0
abbrev zTLoc (d : Dev nD) : Loc nD τ sig := (SparseCore.T d).loc main_v1
abbrev l0Loc (d : Dev nD) : Loc nD τ sig := (SparseCore.T d).loc main_v2
abbrev lTLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- A staged table: axes 1 and 2 exchanged, then the first two axes merged, one row per (model, coordinate). -/
def stage (x : FVec F S8x100000x64 .f32) : FVec F S512x100000 .f32 :=
  shapeCast S512x100000 (transpose S8x64x100000 [0, 2, 1] x transposes_S8x100000x64_S8x64x100000_0_2_1) shapeCasts_S8x64x100000_S512x100000

/-- The staged tables of device `d` and the index list, from the launch memory. -/
def zTv (d : Dev nD) : FVec F S512x100000 .f32 := stage (m (zLoc d))
def lTv (d : Dev nD) : FVec F S512x100000 .f32 := stage (m (lLoc d))
def idxv (d : Dev nD) : IVec S4096 32 := m (iLoc d)

variable [FloatOps F]

/-- What the kernel leaves in its output array: the specification over the staged tables. -/
def stagedv (d : Dev nD) : FVec F S8x2x64x4096 .f32 := Cert.Spec.staged (idxv m d) (zTv m d) (lTv m d)

/-! ## A tile's coordinates, number and output rows -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem bound_zero : grid0.bound 0 = 2 := rfl
omit [FloatOps F] in
theorem bound_one : grid0.bound 1 = 16 := rfl

/-- The tile's number: 2 * subcore + core; it owns table rows 16 * number .. 16 * number + 15. -/
def wid (L : grid0.Coords) : Fin 32 := ⟨(L 1).val * 2 + (L 0).val, by have h0 : (L 0).val < 2 := (L 0).isLt; have h1 : (L 1).val < 16 := (L 1).isLt; omega⟩

/-- The output rows trip `t` of tile `L` writes, as the program slices them: slot 0 and slot 1 of table row 16 w + t. -/
abbrev oZ (L : grid0.Coords) (t : Fin k0_t1_loop.trips) : Memref sig .scVector .hbm S4096 .f32 :=
  ((Memref.whole main_v4_scv : Memref sig .scVector .hbm S8x2x64x4096 .f32).slice (Rect.unit (s := S8x2x64x4096) (k0_off5 L t) S1x1x1x4096.size (k0_off5_inb L t)) (fun _ => rfl)).squeeze S4096 squeezes_S1x1x1x4096_S4096
abbrev oC (L : grid0.Coords) (t : Fin k0_t1_loop.trips) : Memref sig .scVector .hbm S4096 .f32 :=
  ((Memref.whole main_v4_scv : Memref sig .scVector .hbm S8x2x64x4096 .f32).slice (Rect.unit (s := S8x2x64x4096) (k0_off8 L t) S1x1x1x4096.size (k0_off8_inb L t)) (fun _ => rfl)).squeeze S4096 squeezes_S1x1x1x4096_S4096

/-- The output-row offsets in closed form: table row r = 32 * subcore + 16 * core + trip sits at model r / 64,
    coordinate r % 64. -/
theorem k0_off2_eq : ∀ i : grid0.Coords, k0_off2 i = ![(32 * (i 1).val + 16 * (i 0).val) / 64, 0, (32 * (i 1).val + 16 * (i 0).val) % 64, 0] := by decide +kernel
theorem k0_off3_eq : ∀ i : grid0.Coords, k0_off3 i = ![(32 * (i 1).val + 16 * (i 0).val) / 64, 1, (32 * (i 1).val + 16 * (i 0).val) % 64, 0] := by decide +kernel
theorem k0_off5_eq : ∀ (i : grid0.Coords) (t : Fin k0_t1_loop.trips), k0_off5 i t = ![(32 * (i 1).val + 16 * (i 0).val + t.val) / 64, 0, (32 * (i 1).val + 16 * (i 0).val + t.val) % 64, 0] := by decide +kernel
theorem k0_off8_eq : ∀ (i : grid0.Coords) (t : Fin k0_t1_loop.trips), k0_off8 i t = ![(32 * (i 1).val + 16 * (i 0).val + t.val) / 64, 1, (32 * (i 1).val + 16 * (i 0).val + t.val) % 64, 0] := by decide +kernel

/-! ## What the call hands a tile, and takes back -/

/-- Tile `L`'s read shares: the index list and the two staged tables, each whole, at the tile's own share. -/
abbrev iTok (d : Dev nD) (L : grid0.Coords) : sProp 𝕄 := iLoc d ↦{shareTok fullShare 32 (wid L)} m (iLoc d)
abbrev zTok (d : Dev nD) (L : grid0.Coords) : sProp 𝕄 := zTLoc d ↦{shareTok fullShare 32 (wid L)} zTv m d
abbrev lTok (d : Dev nD) (L : grid0.Coords) : sProp 𝕄 := lTLoc d ↦{shareTok fullShare 32 (wid L)} lTv m d

/-- Tile `L`'s 32 output rows, outright, all at the contents `f`. -/
def oRows (d : Dev nD) (L : grid0.Coords) (f : Buf (Elt F) (oLoc d)) : sProp 𝕄 :=
  iprop((bigSep Finset.univ fun t : Fin k0_t1_loop.trips => oLoc d ↦[(oZ L t).view.set]{fullShare} f)
    ∗ bigSep Finset.univ fun t : Fin k0_t1_loop.trips => oLoc d ↦[(oC L t).view.set]{fullShare} f)

/-- A tile's operands: its shares and its output rows at whatever the output array held at the call. -/
def tileGo (d : Dev nD) (L : grid0.Coords) (f : Buf (Elt F) (oLoc d)) : sProp 𝕄 :=
  iprop(iTok m d L ∗ zTok m d L ∗ lTok m d L ∗ oRows d L f)
/-- A tile's results: the same, the output rows at the specification. -/
def tileTd (d : Dev nD) (L : grid0.Coords) : sProp 𝕄 :=
  iprop(iTok m d L ∗ zTok m d L ∗ lTok m d L ∗ oRows d L (stagedv m d))

/-- The coordinates of the launch theorem's core `c` and subcore `i` of the one call. -/
def coordsK (c : Fin ((K (F := F)).nCore 0)) (i : Fin ((K (F := F)).nSub 0)) : grid0.Coords :=
  coordsV ⟨c.val, c.isLt⟩ ⟨i.val, i.isLt⟩

/-- The call's payloads: a SparseCore is handed its sixteen tiles' operands and hands back their results; the output
    array is taken at its launch contents. -/
def P : (K (F := F)).Pay (nD := nD) (Val := Elt F) (Name := ℕ) (U := UU) where
  st := fun q d c => match q with | 0 => bigSep Finset.univ fun i : Fin ((K (F := F)).nSub 0) => tileGo m d (coordsK c i) (m (oLoc d))
  dn := fun q d c => match q with | 0 => bigSep Finset.univ fun i : Fin ((K (F := F)).nSub 0) => tileTd m d (coordsK c i)
  go := fun q d c i => match q with | 0 => tileGo m d (coordsK c i) (m (oLoc d))
  td := fun q d c i => match q with | 0 => tileTd m d (coordsK c i)
  x := fun _ _ => iprop(emp)

instance P_storable : (P (F := F) m).IsStorable where
  st q d c := match q with | 0 => by unfold P tileGo oRows; dsimp only; infer_instance
  dn q d c := match q with | 0 => by unfold P tileTd oRows; dsimp only; infer_instance
  go q d c i := match q with | 0 => by unfold P tileGo oRows; dsimp only; infer_instance
  td q d c i := match q with | 0 => by unfold P tileTd oRows; dsimp only; infer_instance

/-- The thread of tile `L` on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What the proof asks of the launch memory: every index word names a box. -/
def PreOK : Prop := ∀ (d : Dev nD) (j : S4096.Idx), (idxv m d j).toNat < 100000

end Cert.Proof.Kernel

end
-- ==== Proof.Kernel.Rows.lean ====
/-
  The bookkeeping of a tile's output rows across the trips of its main loop.

  The loop has sixteen trips. Each trip starts the transfer that writes its own output row and waits for the
  transfer the trip before it started; before the loop a priming transfer to the first row is started, which the
  first trip waits for and which delivers nothing of use. So before trip t exactly one row is away with a pending
  transfer (row t - 1, or row 0 when t = 0), the rows j with j + 1 < t hold their final contents, and the rows j
  with max t 1 ≤ j still hold what they held at the launch. The three statements below say how these three groups of
  rows are regrouped before the loop, across one trip, and after the loop. They are generic in the row index sets:
  only the index sets of the groups change, so no disjointness of rows is needed.
-/
import proofs.«205357_g36507222016157_cont_8to1_b_501_45_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} (d : Dev nD)

local notation "𝕄" => MT nD τ sig (HIx 1) (Elt F) ℕ UU ℕ

theorem trips16 : k0_t1_loop.trips = 16 := by decide

/-- the trip whose fetch is pending before trip t (the last trip fetches its own row again) -/
def tr (t : Nat) : Fin k0_t1_loop.trips := ⟨min t 15, by rw [trips16]; omega⟩
/-- the trip whose sends are pending before trip t (before the first trip: the priming sends, to the first trip's rows) -/
def pr (t : Nat) : Fin k0_t1_loop.trips := ⟨min (t - 1) 15, by rw [trips16]; omega⟩
/-- the first trip -/
abbrev t0 : Fin k0_t1_loop.trips := ⟨0, by decide⟩

/-! ## The index sets of the groups -/

/-- A trip's number is below sixteen. -/
private theorem val_lt (j : Fin k0_t1_loop.trips) : j.val < 16 := lt_of_lt_of_eq j.isLt trips16

/-- No row is final before the first trip, nor before the second. -/
private theorem fin_empty (t : Nat) (ht : t ≤ 1) :
    (Finset.univ.filter fun j : Fin k0_t1_loop.trips => j.val + 1 < t) = ∅ := by
  ext j
  simp only [Finset.mem_filter, Finset.mem_univ, true_and, Finset.notMem_empty, iff_false]
  omega

/-- Before the first trip the untouched rows are all rows but the first. -/
private theorem unt_zero :
    (Finset.univ.filter fun j : Fin k0_t1_loop.trips => max 0 1 ≤ j.val) = Finset.univ.erase t0 := by
  ext j
  simp only [Finset.mem_filter, Finset.mem_univ, true_and, Finset.mem_erase, and_true, ne_eq, Fin.ext_iff]
  omega

/-- From the second trip on, the row that comes back joins the final rows. -/
private theorem fin_succ (k : Fin k0_t1_loop.trips) (hk : 1 ≤ k.val) :
    (Finset.univ.filter fun j : Fin k0_t1_loop.trips => j.val + 1 < k.val + 1)
      = insert (pr k.val) (Finset.univ.filter fun j : Fin k0_t1_loop.trips => j.val + 1 < k.val) := by
  have hk16 := val_lt k
  ext j
  simp only [Finset.mem_filter, Finset.mem_univ, true_and, Finset.mem_insert, Fin.ext_iff, pr]
  omega

private theorem pr_notMem_fin (k : Fin k0_t1_loop.trips) (hk : 1 ≤ k.val) :
    pr k.val ∉ (Finset.univ.filter fun j : Fin k0_t1_loop.trips => j.val + 1 < k.val) := by
  have hk16 := val_lt k
  simp only [Finset.mem_filter, Finset.mem_univ, true_and, pr]
  omega

/-- From the second trip on, the trip's own row leaves the untouched rows. -/
private theorem unt_succ (k : Fin k0_t1_loop.trips) (hk : 1 ≤ k.val) :
    (Finset.univ.filter fun j : Fin k0_t1_loop.trips => max k.val 1 ≤ j.val)
      = insert k (Finset.univ.filter fun j : Fin k0_t1_loop.trips => max (k.val + 1) 1 ≤ j.val) := by
  ext j
  simp only [Finset.mem_filter, Finset.mem_univ, true_and, Finset.mem_insert, Fin.ext_iff]
  omega

private theorem self_notMem_unt (k : Fin k0_t1_loop.trips) :
    k ∉ (Finset.univ.filter fun j : Fin k0_t1_loop.trips => max (k.val + 1) 1 ≤ j.val) := by
  simp only [Finset.mem_filter, Finset.mem_univ, true_and]
  omega

/-- In the first trip the untouched rows stay the same rows. -/
private theorem unt_first (k : Fin k0_t1_loop.trips) (hk : k.val = 0) :
    (Finset.univ.filter fun j : Fin k0_t1_loop.trips => max (k.val + 1) 1 ≤ j.val)
      = Finset.univ.filter fun j : Fin k0_t1_loop.trips => max k.val 1 ≤ j.val := by
  ext j
  simp only [Finset.mem_filter, Finset.mem_univ, true_and]
  omega

/-- In the first trip the row that comes back is the trip's own. -/
private theorem pr_first (k : Fin k0_t1_loop.trips) (hk : k.val = 0) : pr k.val = k := by
  apply Fin.ext
  simp only [pr]
  omega

/-- After the last trip the row that comes back completes the rows. -/
private theorem fin_last :
    (Finset.univ : Finset (Fin k0_t1_loop.trips))
      = insert (pr k0_t1_loop.trips) (Finset.univ.filter fun j : Fin k0_t1_loop.trips => j.val + 1 < k0_t1_loop.trips) := by
  have h16 := trips16
  ext j
  have hj := val_lt j
  simp only [Finset.mem_filter, Finset.mem_univ, true_and, Finset.mem_insert, Fin.ext_iff, pr, true_iff]
  omega

private theorem pr_notMem_last :
    pr k0_t1_loop.trips ∉ (Finset.univ.filter fun j : Fin k0_t1_loop.trips => j.val + 1 < k0_t1_loop.trips) := by
  have h16 := trips16
  simp only [Finset.mem_filter, Finset.mem_univ, true_and, pr]
  omega

/-- After the last trip no row is untouched. -/
private theorem unt_last :
    (Finset.univ.filter fun j : Fin k0_t1_loop.trips => max k0_t1_loop.trips 1 ≤ j.val) = ∅ := by
  have h16 := trips16
  ext j
  have hj := val_lt j
  simp only [Finset.mem_filter, Finset.mem_univ, true_and, Finset.notMem_empty, iff_false]
  omega

/-! ## The three regroupings -/

/-- before the loop: every row but the first, untouched, are the rows 'from trip 1 on'; no row is final yet -/
theorem rows_init (Sx : Fin k0_t1_loop.trips → Finset (Idx (oLoc d))) (g0 gs : Buf (Elt F) (oLoc d)) :
    (bigSep (Finset.univ.erase t0) fun j : Fin k0_t1_loop.trips => (oLoc d ↦[Sx j]{fullShare} g0 : sProp 𝕄))
      ⊢ iprop((bigSep (Finset.univ.filter fun j : Fin k0_t1_loop.trips => j.val + 1 < 0) fun j => oLoc d ↦[Sx j]{fullShare} gs)
        ∗ (bigSep (Finset.univ.filter fun j : Fin k0_t1_loop.trips => max 0 1 ≤ j.val) fun j => oLoc d ↦[Sx j]{fullShare} g0)) := by
  rw [fin_empty 0 (by omega), unt_zero, bigSep_empty]
  iintro H
  isplitr
  · iempintro
  · iexact H

/-- one trip -/
theorem rows_step (Sx : Fin k0_t1_loop.trips → Finset (Idx (oLoc d))) (g0 gs : Buf (Elt F) (oLoc d)) (k : Fin k0_t1_loop.trips) :
    iprop((∃ f, ⌜1 ≤ k.val → ∀ j ∈ Sx (pr k.val), f j = gs j⌝ ∗ oLoc d ↦[Sx (pr k.val)]{fullShare} f)
        ∗ (bigSep (Finset.univ.filter fun j : Fin k0_t1_loop.trips => j.val + 1 < k.val) fun j => oLoc d ↦[Sx j]{fullShare} gs)
        ∗ (bigSep (Finset.univ.filter fun j : Fin k0_t1_loop.trips => max k.val 1 ≤ j.val) fun j => oLoc d ↦[Sx j]{fullShare} g0))
      ⊢ (iprop((∃ f, oLoc d ↦[Sx k]{fullShare} f)
        ∗ (bigSep (Finset.univ.filter fun j : Fin k0_t1_loop.trips => j.val + 1 < k.val + 1) fun j => oLoc d ↦[Sx j]{fullShare} gs)
        ∗ (bigSep (Finset.univ.filter fun j : Fin k0_t1_loop.trips => max (k.val + 1) 1 ≤ j.val) fun j => oLoc d ↦[Sx j]{fullShare} g0)) : sProp 𝕄) := by
  by_cases hk : k.val = 0
  · -- the first trip: the priming transfer comes back, to the trip's own row; the two groups are unchanged
    rw [fin_empty k.val (by omega), fin_empty (k.val + 1) (by omega), unt_first k hk, pr_first k hk]
    iintro ⟨⟨%f, -, Hf⟩, HA, HB⟩
    isplitl [Hf]
    · iexists f; iexact Hf
    isplitl [HA]
    · iexact HA
    · iexact HB
  · -- a later trip: the row of the trip before comes back final; the trip's own row goes out
    have hk1 : 1 ≤ k.val := by omega
    rw [fin_succ k hk1, unt_succ k hk1, SparseCore.bigSep_insert' (pr_notMem_fin k hk1), SparseCore.bigSep_insert' (self_notMem_unt k)]
    iintro ⟨⟨%f, %hf, Hf⟩, HA, Hk, HB⟩
    have e : (oLoc d ↦[Sx (pr k.val)]{fullShare} f : sProp 𝕄) ⊢ oLoc d ↦[Sx (pr k.val)]{fullShare} gs :=
      SparseCore.ent (Entails.of_eq (pointsTo_congr (hf hk1)))
    isplitl [Hk]
    · iexists g0; iexact Hk
    isplitl [Hf HA]
    · isplitl [Hf]
      · iapply e; iexact Hf
      · iexact HA
    · iexact HB

/-- after the loop (t = 16): the last row comes back final; all sixteen rows hold the specification -/
theorem rows_final (Sx : Fin k0_t1_loop.trips → Finset (Idx (oLoc d))) (g0 gs : Buf (Elt F) (oLoc d)) :
    iprop((∃ f, ⌜∀ j ∈ Sx (pr k0_t1_loop.trips), f j = gs j⌝ ∗ oLoc d ↦[Sx (pr k0_t1_loop.trips)]{fullShare} f)
        ∗ (bigSep (Finset.univ.filter fun j : Fin k0_t1_loop.trips => j.val + 1 < k0_t1_loop.trips) fun j => oLoc d ↦[Sx j]{fullShare} gs)
        ∗ (bigSep (Finset.univ.filter fun j : Fin k0_t1_loop.trips => max k0_t1_loop.trips 1 ≤ j.val) fun j => oLoc d ↦[Sx j]{fullShare} g0))
      ⊢ (bigSep Finset.univ fun j : Fin k0_t1_loop.trips => (oLoc d ↦[Sx j]{fullShare} gs : sProp 𝕄)) := by
  conv_rhs => rw [fin_last, SparseCore.bigSep_insert' pr_notMem_last]
  iintro ⟨⟨%f, %hf, Hf⟩, HA, -⟩
  have e : (oLoc d ↦[Sx (pr k0_t1_loop.trips)]{fullShare} f : sProp 𝕄) ⊢ oLoc d ↦[Sx (pr k0_t1_loop.trips)]{fullShare} gs :=
    SparseCore.ent (Entails.of_eq (pointsTo_congr hf))
  isplitl [Hf]
  · iapply e; iexact Hf
  · iexact HA

end Cert.Proof.Kernel

end
-- ==== Proof.Kernel.Values.lean ====
/-
  What a transfer lands, read back as a plain function of the arrays.

  A tile (core c, subcore i) at trip t works on table row r = 32 i + 16 c + t. A fetch copies row r of a staged
  table — the one-row slice at (r, 0), its unit axis dropped — over the whole row buffer, so the buffer's entry n is
  the table at (r, n). A send copies a 4096-entry scratch whole over the output's row at (r / 64, slot, r % 64, 0) —
  a one-row slice with its three unit axes dropped —; the specification at (a, slot, c, b) reads table row
  64 a + c, which is r there since 64 (r / 64) + r % 64 = r, at the box of batch entry b. So a scratch holding the
  gathered row (slot 0), or the gathered row plus the exponential of the second table's (slot 1), makes the written
  output row the specification.
-/
import proofs.«205357_g36507222016157_cont_8to1_b_501_45_alg».proof.Proof.Kernel.Setup
import Idealize.ShloMosaic.Lib.Writes
import Idealize.ShloMosaic.Lib.ValueIdx
import Idealize.ShloMosaic.Lib.Pipeline.Value

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.ValueIdx

local notation "zTW" => (Memref.whole Cert.Kernel.main_v1_scv : Memref Cert.Kernel.sig Kind.scVector Space.hbm Cert.Kernel.S512x100000 EltTy.f32)
local notation "lTW" => (Memref.whole Cert.Kernel.main_v3_scv : Memref Cert.Kernel.sig Kind.scVector Space.hbm Cert.Kernel.S512x100000 EltTy.f32)
local notation "iW" => (Memref.whole Cert.Kernel.main_arg0_scv : Memref Cert.Kernel.sig Kind.scVector Space.hbm Cert.Kernel.S4096 EltTy.i32)
local notation "oW" => (Memref.whole Cert.Kernel.main_v4_scv : Memref Cert.Kernel.sig Kind.scVector Space.hbm Cert.Kernel.S8x2x64x4096 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S100000 EltTy.f32)
local notation "sZ" => (Memref.whole Cert.Kernel.cc0_scratch2 : Memref Cert.Kernel.sig Kind.scVector Space.vmem Cert.Kernel.S4096 EltTy.f32)
local notation "sC" => (Memref.whole Cert.Kernel.cc0_scratch3 : Memref Cert.Kernel.sig Kind.scVector Space.vmem Cert.Kernel.S4096 EltTy.f32)

variable {F : FTy → Type} (m : (ℓ : Loc nD τ sig) → Buf (Elt F) ℓ) (d : Dev nD) (L : grid0.Coords)

/-- table row number 32 (L 1) + 16 (L 0) + t -/
def rowNo (L : grid0.Coords) (t : Fin k0_t1_loop.trips) : Fin 512 :=
  ⟨32 * (L 1).val + 16 * (L 0).val + t.val, by
    have h0 : (L 0).val < 2 := (L 0).isLt
    have h1 : (L 1).val < 16 := (L 1).isLt
    have ht : t.val < 16 := lt_of_lt_of_eq t.isLt (by decide)
    omega⟩

/-- a table's row as the row buffer holds it -/
def rowv (tab : FVec F S512x100000 .f32) (r : Fin 512) : Buf (Elt F) ((thr d L).loc cc0_scratch1) :=
  fun n => tab (ix2 (n0 := 512) (n1 := 100000) r ⟨(n 0).val, (n 0).isLt⟩)

abbrev zRow (o : Fin 2 → Nat) (h : ∀ a, o a + S1x100000.size a ≤ S512x100000.size a) : Memref sig .scVector .hbm S100000 .f32 :=
  ((zTW).slice (Rect.unit (s := S512x100000) o S1x100000.size h) (fun _ => rfl)).squeeze S100000 squeezes_S1x100000_S100000
abbrev lRow (o : Fin 2 → Nat) (h : ∀ a, o a + S1x100000.size a ≤ S512x100000.size a) : Memref sig .scVector .hbm S100000 .f32 :=
  ((lTW).slice (Rect.unit (s := S512x100000) o S1x100000.size h) (fun _ => rfl)).squeeze S100000 squeezes_S1x100000_S100000

/-! ## Where a row's entries sit -/

/-- An entry matched with the shape that has one unit axis in front is that entry behind the coordinate 0. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- … and with three unit axes in front, behind three coordinates 0. -/
theorem reshapeEquiv_ix1_111a {a : ℕ} (h : (⟨1, ![a]⟩ : Shape).numel = (⟨4, ![1, 1, 1, a]⟩ : Shape).numel) (x : Fin a) :
    Shape.reshapeEquiv h (ix1 x)
      = ix4 (⟨0, Nat.one_pos⟩ : Fin 1) (⟨0, Nat.one_pos⟩ : Fin 1) (⟨0, Nat.one_pos⟩ : Fin 1) x :=
  Shape.reshapeEquiv_eq_of_rowMajor h (by
    rw [Shape.rowMajor_val_four, Shape.rowMajor_val_one]
    show ((0 * 1 + 0) * 1 + 0) * a + x.val = x.val
    simp only [Nat.zero_mul, Nat.zero_add, Nat.mul_one])

/-- the index list's copy lands the index list -/
theorem idx_lands (fI : Buf (Elt F) ((thr d L).loc cc0_scratch0)) :
    View.write (Elt F) (sI).view fI (ReadAs.same.apply (View.read (Elt F) (iW).view (m (iLoc d)))) Finset.univ
      = (idxv m d : Buf (Elt F) ((thr d L).loc cc0_scratch0)) :=
  View.write_whole_univ _ _ _

/-- A table's one-row slice at (r, 0) with its unit axis dropped places entry n at (r, n). -/
theorem row_emb (M : Memref sig .scVector .hbm S512x100000 .f32) (o : Fin 2 → Nat)
    (h : ∀ a, o a + S1x100000.size a ≤ S512x100000.size a) (r : Fin 512) (ho : o = ![r.val, 0]) (x : Fin 100000) :
    (Rect.unit (s := S512x100000) o S1x100000.size h).emb
        (Shape.reshapeEquiv squeezes_S1x100000_S100000.numel_eq (ix1 x))
      = ix2 (n0 := 512) (n1 := 100000) r x := by
  subst ho
  rw [reshapeEquiv_ix1_1a]
  funext a
  refine Fin.ext ?_
  rw [Rect.emb_apply]
  match a with
  | ⟨0, _⟩ => show r.val + 1 * 0 = r.val; omega
  | ⟨1, _⟩ => show 0 + 1 * x.val = x.val; omega

/-- a fetch lands the table's row, whatever the row buffer held -/
theorem fetch_z (tab : FVec F S512x100000 .f32) (o : Fin 2 → Nat) (h : ∀ a, o a + S1x100000.size a ≤ S512x100000.size a)
    (r : Fin 512) (ho : o = ![r.val, 0]) (prev : Buf (Elt F) ((thr d L).loc cc0_scratch1)) :
    View.write (Elt F) (sB).view prev (ReadAs.same.apply (View.read (Elt F) (zRow o h).view tab)) Finset.univ
      = rowv d L tab r := by
  refine (View.write_whole_univ _ _ _).trans ?_
  funext n
  obtain ⟨x, rfl⟩ : ∃ x : Fin 100000, n = ix1 x := ⟨n 0, eq_ix1 n⟩
  show tab ((Rect.unit (s := S512x100000) o S1x100000.size h).emb
      (Shape.reshapeEquiv squeezes_S1x100000_S100000.numel_eq (ix1 x))) = _
  rw [row_emb zTW o h r ho x]
  rfl

theorem fetch_l (tab : FVec F S512x100000 .f32) (o : Fin 2 → Nat) (h : ∀ a, o a + S1x100000.size a ≤ S512x100000.size a)
    (r : Fin 512) (ho : o = ![r.val, 0]) (prev : Buf (Elt F) ((thr d L).loc cc0_scratch1)) :
    View.write (Elt F) (sB).view prev (ReadAs.same.apply (View.read (Elt F) (lRow o h).view tab)) Finset.univ
      = rowv d L tab r := by
  refine (View.write_whole_univ _ _ _).trans ?_
  funext n
  obtain ⟨x, rfl⟩ : ∃ x : Fin 100000, n = ix1 x := ⟨n 0, eq_ix1 n⟩
  show tab ((Rect.unit (s := S512x100000) o S1x100000.size h).emb
      (Shape.reshapeEquiv squeezes_S1x100000_S100000.numel_eq (ix1 x))) = _
  rw [row_emb lTW o h r ho x]
  rfl

/-! ## Where an output row's entries sit, and what a send leaves there -/

/-- The output's one-row slice at (a, s, c, 0) with its three unit axes dropped places entry b at (a, s, c, b). -/
theorem out_emb (o : Fin 4 → Nat) (h : ∀ a, o a + S1x1x1x4096.size a ≤ S8x2x64x4096.size a)
    (a : Fin 8) (s : Fin 2) (c : Fin 64) (ho : o = ![a.val, s.val, c.val, 0]) (x : Fin 4096) :
    (Rect.unit (s := S8x2x64x4096) o S1x1x1x4096.size h).emb
        (Shape.reshapeEquiv squeezes_S1x1x1x4096_S4096.numel_eq (ix1 x))
      = ix4 (n0 := 8) (n1 := 2) (n2 := 64) (n3 := 4096) a s c x := by
  subst ho
  rw [reshapeEquiv_ix1_111a]
  funext b
  refine Fin.ext ?_
  rw [Rect.emb_apply]
  match b with
  | ⟨0, _⟩ => show a.val + 1 * 0 = a.val; omega
  | ⟨1, _⟩ => show s.val + 1 * 0 = s.val; omega
  | ⟨2, _⟩ => show c.val + 1 * 0 = c.val; omega
  | ⟨3, _⟩ => show 0 + 1 * x.val = x.val; omega

/-- The model and coordinate of a table row. -/
def rowModel (r : Fin 512) : Fin 8 := ⟨r.val / 64, by have := r.isLt; omega⟩
def rowCoord (r : Fin 512) : Fin 64 := ⟨r.val % 64, by omega⟩

/-- Row 64 a + c of a staged table is the row of model a and coordinate c. -/
theorem tableRow_row (r : Fin 512) : Cert.Spec.tableRow (rowModel r) (rowCoord r) = r :=
  Fin.ext (Nat.div_add_mod' r.val 64)

/-- What one whole-scratch write through a one-row view leaves at the row's entry b: the scratch's entry b. -/
theorem writes_whole_emb (M : Memref sig .scVector .hbm S4096 .f32) (f : M.view.ty.Contents (Elt F))
    (w : S4096.Idx → Elt F .f32) (y : S4096.Idx) :
    M.view.writes (Elt F) f [⟨Rect.whole S4096, w⟩] (M.view.emb y)
      = _root_.cast (congrArg (Elt F) M.view.elt_eq.symm) (w y) := by
  rw [View.writes_singleton]
  have he : (M.view.slice (Rect.whole S4096)).emb y = M.view.emb y := congrArg M.view.emb (Rect.emb_whole_apply S4096 y)
  rw [← he]
  exact View.write_emb_of_mem _ _ (Finset.mem_univ _)

variable [FloatOps F]

/-- a send of the gathered first row makes output row (r, slot 0) the specification -/
theorem send_z (k : Fin k0_t1_loop.trips) (fz : Buf (Elt F) (oLoc d)) (gz : Buf (Elt F) ((thr d L).loc cc0_scratch2))
    (hgz : ∀ b : S4096.Idx, gz b = zTv m d (ix2 (n0 := 512) (n1 := 100000) (rowNo L k) (Cert.Spec.box (idxv m d) ⟨(b 0).val, (b 0).isLt⟩))) :
    ∀ j ∈ (oZ L k).view.set, (oZ L k).view.writes (Elt F) fz [⟨Rect.whole S4096, ReadAs.same.apply (View.read (Elt F) (sZ).view gz)⟩] j = stagedv m d j := by
  intro j hj
  obtain ⟨y, rfl⟩ := View.exists_emb_of_mem_set _ hj
  obtain ⟨x, rfl⟩ : ∃ x : Fin 4096, y = ix1 x := ⟨y 0, eq_ix1 y⟩
  refine (writes_whole_emb (oZ L k) fz _ (ix1 x)).trans ?_
  have hr : (oZ L k).view.emb (ix1 x)
      = ix4 (n0 := 8) (n1 := 2) (n2 := 64) (n3 := 4096) (rowModel (rowNo L k)) ⟨0, by decide⟩ (rowCoord (rowNo L k)) x :=
    out_emb (k0_off5 L k) (k0_off5_inb L k) _ _ _ (k0_off5_eq L k) x
  rw [hr]
  show gz (ix1 x) = _
  rw [hgz]
  show _ = zTv m d (ix2 (n0 := 512) (n1 := 100000) (Cert.Spec.tableRow (rowModel (rowNo L k)) (rowCoord (rowNo L k))) (Cert.Spec.box (idxv m d) x))
  rw [tableRow_row]

/-- a send of the second row makes output row (r, slot 1) the specification -/
theorem send_c (k : Fin k0_t1_loop.trips) (fc : Buf (Elt F) (oLoc d)) (gc : Buf (Elt F) ((thr d L).loc cc0_scratch3))
    (hgc : ∀ b : S4096.Idx, gc b = FloatOps.addf (zTv m d (ix2 (n0 := 512) (n1 := 100000) (rowNo L k) (Cert.Spec.box (idxv m d) ⟨(b 0).val, (b 0).isLt⟩)))
                                 (FloatOps.exp (lTv m d (ix2 (n0 := 512) (n1 := 100000) (rowNo L k) (Cert.Spec.box (idxv m d) ⟨(b 0).val, (b 0).isLt⟩))))) :
    ∀ j ∈ (oC L k).view.set, (oC L k).view.writes (Elt F) fc [⟨Rect.whole S4096, ReadAs.same.apply (View.read (Elt F) (sC).view gc)⟩] j = stagedv m d j := by
  intro j hj
  obtain ⟨y, rfl⟩ := View.exists_emb_of_mem_set _ hj
  obtain ⟨x, rfl⟩ : ∃ x : Fin 4096, y = ix1 x := ⟨y 0, eq_ix1 y⟩
  refine (writes_whole_emb (oC L k) fc _ (ix1 x)).trans ?_
  have hr : (oC L k).view.emb (ix1 x)
      = ix4 (n0 := 8) (n1 := 2) (n2 := 64) (n3 := 4096) (rowModel (rowNo L k)) ⟨1, by decide⟩ (rowCoord (rowNo L k)) x :=
    out_emb (k0_off8 L k) (k0_off8_inb L k) _ _ _ (k0_off8_eq L k) x
  rw [hr]
  show gc (ix1 x) = _
  rw [hgc]
  show _ = FloatOps.addf
    (zTv m d (ix2 (n0 := 512) (n1 := 100000) (Cert.Spec.tableRow (rowModel (rowNo L k)) (rowCoord (rowNo L k))) (Cert.Spec.box (idxv m d) x)))
    (FloatOps.exp (lTv m d (ix2 (n0 := 512) (n1 := 100000) (Cert.Spec.tableRow (rowModel (rowNo L k)) (rowCoord (rowNo L k))) (Cert.Spec.box (idxv m d) x))))
  rw [tableRow_row]

end Cert.Proof.Kernel

end
-- ==== Proof.Kernel.Gather.lean ====
/-
  The two inner loops of a tile's task, one trip each.

  A tile holds the index list idx (4096 words), a fetched table row rv (100000 floats), the gathered row (4096
  floats) and the second output row (4096 floats). Both loops run over the 256 chunks of sixteen consecutive entries.

  The first loop, at trip k, reads the sixteen index words 16 k .. 16 k + 15, reads the table row at those sixteen
  positions, and writes the sixteen values at entries 16 k .. 16 k + 15 of the gathered row. Before trip k the first
  16 k entries of the gathered row are the table row read at the index list; after it the first 16 (k + 1) are: an
  entry below 16 k is not written by the trip and keeps its value, and entry 16 k + x takes the table row at the word
  idx[16 k + x], which is what the gathered row is to hold there.

  The second loop, at trip k, reads chunk k of the gathered row gz and of the index list, reads the table row at
  those sixteen positions, and writes gz + exp(table row there), lane by lane, at chunk k of the second output row:
  the same argument, with the sum in place of the bare value.

  Every index word is below 100000 (the hypothesis hidx), so each word names a position of the table row, and the
  box the specification selects for a batch entry (the word reduced into the table's range) is the word itself.
-/
import proofs.«205357_g36507222016157_cont_8to1_b_501_45_alg».proof.Proof.Kernel.Setup
import Idealize.ShloMosaic.Lib.SparseCore.Ops
import Idealize.ShloMosaic.Lib.Tactic
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

local notation "zTW" => (Memref.whole Cert.Kernel.main_v1_scv : Memref Cert.Kernel.sig Kind.scVector Space.hbm Cert.Kernel.S512x100000 EltTy.f32)
local notation "lTW" => (Memref.whole Cert.Kernel.main_v3_scv : Memref Cert.Kernel.sig Kind.scVector Space.hbm Cert.Kernel.S512x100000 EltTy.f32)
local notation "iW" => (Memref.whole Cert.Kernel.main_arg0_scv : Memref Cert.Kernel.sig Kind.scVector Space.hbm Cert.Kernel.S4096 EltTy.i32)
local notation "oW" => (Memref.whole Cert.Kernel.main_v4_scv : Memref Cert.Kernel.sig Kind.scVector Space.hbm Cert.Kernel.S8x2x64x4096 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S100000 EltTy.f32)
local notation "sZ" => (Memref.whole Cert.Kernel.cc0_scratch2 : Memref Cert.Kernel.sig Kind.scVector Space.vmem Cert.Kernel.S4096 EltTy.f32)
local notation "sC" => (Memref.whole Cert.Kernel.cc0_scratch3 : Memref Cert.Kernel.sig Kind.scVector Space.vmem Cert.Kernel.S4096 EltTy.f32)

variable (d : Dev nD) (L : grid0.Coords) [FloatOps F]

/-- a row buffer read at the index list: entry b is the row at idx[b] -/
def gath (idx : Buf (Elt F) ((thr d L).loc cc0_scratch0)) (rv : Buf (Elt F) ((thr d L).loc cc0_scratch1)) : Buf (Elt F) ((thr d L).loc cc0_scratch2) :=
  fun b => rv (ValueIdx.ix1 (n := 100000) (Cert.Spec.box idx ⟨(b 0).val, (b 0).isLt⟩))
/-- the second output row: the gathered first row plus the exponential of the gathered second row -/
def capv (gz : Buf (Elt F) ((thr d L).loc cc0_scratch2)) (idx : Buf (Elt F) ((thr d L).loc cc0_scratch0)) (rv : Buf (Elt F) ((thr d L).loc cc0_scratch1)) : Buf (Elt F) ((thr d L).loc cc0_scratch3) :=
  fun b => FloatOps.addf (gz b) (FloatOps.exp (gath d L idx rv b))

/-! ## A chunk of sixteen entries of a list of 4096 -/

omit [FloatOps F] in
/-- Entry `b` lies in the sixteen-entry chunk at offset `off` exactly when its position is one of the sixteen from `off`. -/
private theorem mem_chunk (off : Fin 1 → Nat) (inb : ∀ a, off a + S16.size a ≤ S4096.size a) (b : S4096.Idx) :
    b ∈ (Rect.unit (s := S4096) off S16.size inb).set ↔ off 0 ≤ (b 0).val ∧ (b 0).val < off 0 + 16 := by
  rw [Rect.mem_set_unit]
  constructor
  · intro h; exact h 0
  · intro h a
    obtain rfl : a = 0 := Subsingleton.elim _ _
    exact h

omit [FloatOps F] in
/-- An entry of the chunk is one of its sixteen lanes. -/
private theorem exists_lane (off : Fin 1 → Nat) (inb : ∀ a, off a + S16.size a ≤ S4096.size a) (b : S4096.Idx)
    (h : off 0 ≤ (b 0).val ∧ (b 0).val < off 0 + 16) : ∃ x : S16.Idx, (Rect.unit (s := S4096) off S16.size inb).emb x = b := by
  have hm := (mem_chunk off inb b).2 h
  rw [← Rect.map_emb_univ] at hm
  obtain ⟨x, -, hx⟩ := Finset.mem_map.1 hm
  exact ⟨x, hx⟩

omit [FloatOps F] in
/-- Lane `x` of the chunk at `off` sits at position `off + x`. -/
private theorem lane_val (off : Fin 1 → Nat) (inb : ∀ a, off a + S16.size a ≤ S4096.size a) (x : S16.Idx) :
    (((Rect.unit (s := S4096) off S16.size inb).emb x) 0).val = off 0 + (x 0).val := by
  rw [Rect.emb_apply]
  show off 0 + 1 * (x 0).val = _
  omega

omit [FloatOps F] in
/-- Lane `x` of two chunks starting at one position is one entry of the list. -/
private theorem idx_eq_lane (off6 off7 : Fin 1 → Nat) (inb6 : ∀ a, off6 a + S16.size a ≤ S4096.size a) (inb7 : ∀ a, off7 a + S16.size a ≤ S4096.size a)
    (hoff : off6 0 = off7 0) (x : S16.Idx) :
    (Rect.unit (s := S4096) off6 S16.size inb6).toLoadRect.idx x
      = ValueIdx.ix1 (n := 4096) ⟨((Rect.unit (s := S4096) off7 S16.size inb7).emb x 0).val, ((Rect.unit (s := S4096) off7 S16.size inb7).emb x 0).isLt⟩ := by
  funext a
  obtain rfl : a = 0 := Subsingleton.elim _ _
  apply Fin.ext
  show off6 0 + 1 * (x 0).val = off7 0 + 1 * (x 0).val
  rw [hoff]

omit [FloatOps F] in
/-- Lane `x` of two chunks starting at one position is one entry of the list (the second chunk's own lane). -/
private theorem idx_eq_emb (off9 off10 : Fin 1 → Nat) (inb9 : ∀ a, off9 a + S16.size a ≤ S4096.size a) (inb10 : ∀ a, off10 a + S16.size a ≤ S4096.size a)
    (hoff : off9 0 = off10 0) (x : S16.Idx) :
    (Rect.unit (s := S4096) off9 S16.size inb9).toLoadRect.idx x = (Rect.unit (s := S4096) off10 S16.size inb10).emb x := by
  funext a
  obtain rfl : a = 0 := Subsingleton.elim _ _
  apply Fin.ext
  show off9 0 + 1 * (x 0).val = off10 0 + 1 * (x 0).val
  rw [hoff]

/-- The row buffer read at the sixteen index words of the chunk at `off6`, at lane `x`, is the gathered row at the
    entry lane `x` of the chunk at `off7` names, the two chunks starting at one position. -/
private theorem gath_lane (idx : Buf (Elt F) ((thr d L).loc cc0_scratch0)) (rv : Buf (Elt F) ((thr d L).loc cc0_scratch1)) (hidx : ∀ j, (idx j).toNat < 100000)
    (off6 off7 : Fin 1 → Nat) (inb6 : ∀ a, off6 a + S16.size a ≤ S4096.size a) (inb7 : ∀ a, off7 a + S16.size a ≤ S4096.size a) (hoff : off6 0 = off7 0)
    (h : ∀ a x, ((![(sI).view.readAt (Elt F) (Rect.unit (s := S4096) off6 S16.size inb6).toLoadRect idx] : Fin 1 → IVec S16 32) a x).toNat < S100000.size a)
    (x : S16.Idx) :
    loadIdx (((sB).access (Rect.whole S100000)).read (Elt F) rv) ![(sI).view.readAt (Elt F) (Rect.unit (s := S4096) off6 S16.size inb6).toLoadRect idx] h x
      = gath d L idx rv ((Rect.unit (s := S4096) off7 S16.size inb7).emb x) := by
  unfold gath loadIdx
  refine (View.read_apply _ _).trans ((cast_eq _ _).trans (congrArg rv ?_))
  funext a
  apply Fin.ext
  obtain ⟨av, hav⟩ := a
  have h1 : av < 1 := hav
  obtain rfl : av = 0 := Nat.lt_one_iff.1 h1
  show 0 + 1 * (idx ((Rect.unit (s := S4096) off6 S16.size inb6).toLoadRect.idx x)).toNat
    = (idx (ValueIdx.ix1 (n := 4096) ⟨((Rect.unit (s := S4096) off7 S16.size inb7).emb x 0).val, ((Rect.unit (s := S4096) off7 S16.size inb7).emb x 0).isLt⟩)).toNat % 100000
  rw [Nat.mod_eq_of_lt (hidx _), idx_eq_lane off6 off7 inb6 inb7 hoff x]
  omega

/-! ## The first loop: the gathered row -/

/-- Before trip `k` of the first loop: the index list and the table row held, the gathered row done below entry 16 k. -/
def gatherInv (idx : Buf (Elt F) ((thr d L).loc cc0_scratch0)) (rv : Buf (Elt F) ((thr d L).loc cc0_scratch1)) (k : Nat) (_ : Unit) : sProp 𝕄 :=
  iprop(((sI).view.loc (thr d L) ↦{fullShare} idx) ∗ ((sB).view.loc (thr d L) ↦{fullShare} rv)
    ∗ ∃ g, ⌜∀ b : S4096.Idx, (b 0).val < 16 * k → g b = gath d L idx rv b⌝ ∗ (sZ).view.loc (thr d L) ↦{fullShare} g)

/-- One trip of the first loop: the first 16 k entries of the gathered row being the table row at the index list,
    after trip k the first 16 (k + 1) are. -/
theorem gather_trip (idx : Buf (Elt F) ((thr d L).loc cc0_scratch0)) (rv : Buf (Elt F) ((thr d L).loc cc0_scratch1)) (hidx : ∀ j, (idx j).toNat < 100000) (t : Fin k0_t1_loop.trips) (v165 : BitVec 32) (k : Fin k0_t2_loop.trips) (acc : Unit) :
    gatherInv d L idx rv k.val acc ⊢ wp frame (wpE (defs₀ (F := F)) 𝒱₀ (thr d L) none) Set.univ
      (k0_t2_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 t v165 k acc)
      (gatherInv d L idx rv (k.val + 1)) := by
  unfold gatherInv
  iintro ⟨Hi, Hb, %g, %hg, Hz⟩
  unfold k0_t2_body
  simp only [Prog.lift, Prog.bind_op, Prog.bind_ret, Prog.pure_eq_ret]
  -- the sixteen index words of chunk k
  sl_step
  -- each names a position of the table row
  have hchk : k0_chk1 ((sI).view.readAt (Elt F) (Rect.unit (s := S4096) (k0_off6 k) S16.size (k0_off6_inb k)).toLoadRect idx) := by
    intro a x
    obtain rfl : a = 0 := Subsingleton.elim _ _
    exact hidx _
  rw [wp_assume_of _ _ _ _ hchk]
  -- the table row at those sixteen positions
  iapply (SparseCore.wp_vectorLoadIdx 𝒱₀ (thr d L) none Set.univ (base := sB) (S := Finset.univ) (q := fullShare) (Finset.subset_univ _)) $$ Hb
  iintro Hb
  -- chunk k of the gathered row read (its value unused), then written; the return
  sl_step
  sl_step
  sl_step
  isplitl [Hi]; · iexact Hi
  isplitl [Hb]; · iexact Hb
  iexists _
  isplitr
  swap
  · iexact Hz
  -- the first 16 (k + 1) entries
  ipureintro
  intro b hb
  have hk7 : k0_off7 k 0 = 16 * k.val := by rw [k0_off7_eq]; rfl
  have hk6 : k0_off6 k 0 = 16 * k.val := by rw [k0_off6_eq]; rfl
  by_cases hlt : (b 0).val < 16 * k.val
  · -- an entry below the chunk: the store did not touch it
    have hn : b ∉ ((sZ).access (Rect.unit (s := S4096) (k0_off7 k) S16.size (k0_off7_inb k))).setOn Finset.univ := by
      intro hmem
      obtain ⟨x, -, hx⟩ := Finset.mem_map.1 hmem
      have hv := lane_val (k0_off7 k) (k0_off7_inb k) x
      have hx' : (Rect.unit (s := S4096) (k0_off7 k) S16.size (k0_off7_inb k)).emb x = b := hx
      rw [hx'] at hv
      omega
    rw [View.write_of_not_mem _ _ _ hn]
    exact hg b hlt
  · -- an entry of the chunk: the stored lane
    obtain ⟨x, rfl⟩ := exists_lane (k0_off7 k) (k0_off7_inb k) b ⟨by omega, by omega⟩
    refine (View.write_emb_of_mem (v := (sZ).access (Rect.unit (s := S4096) (k0_off7 k) S16.size (k0_off7_inb k))) g _ (Finset.mem_univ x)).trans ?_
    refine (cast_eq _ _).trans ?_
    exact gath_lane d L idx rv hidx (k0_off6 k) (k0_off7 k) (k0_off6_inb k) (k0_off7_inb k) (hk6.trans hk7.symm) _ x

/-! ## The second loop: the second output row -/

/-- Before trip `k` of the second loop: the index list, the table row and the gathered first row held, the second
    output row done below entry 16 k. -/
def capInv (q : PosShare TreeShare) (idx : Buf (Elt F) ((thr d L).loc cc0_scratch0)) (rv : Buf (Elt F) ((thr d L).loc cc0_scratch1)) (gz : Buf (Elt F) ((thr d L).loc cc0_scratch2)) (k : Nat) (_ : Unit) : sProp 𝕄 :=
  iprop(((sI).view.loc (thr d L) ↦{fullShare} idx) ∗ ((sB).view.loc (thr d L) ↦{fullShare} rv) ∗ ((sZ).view.loc (thr d L) ↦{q} gz)
    ∗ ∃ g, ⌜∀ b : S4096.Idx, (b 0).val < 16 * k → g b = capv d L gz idx rv b⌝ ∗ (sC).view.loc (thr d L) ↦{fullShare} g)

/-- One trip of the second loop: the first 16 k entries of the second output row being the gathered first row plus the
    exponential of the gathered second row, after trip k the first 16 (k + 1) are. -/
theorem cap_trip (q : PosShare TreeShare) (idx : Buf (Elt F) ((thr d L).loc cc0_scratch0)) (rv : Buf (Elt F) ((thr d L).loc cc0_scratch1)) (gz : Buf (Elt F) ((thr d L).loc cc0_scratch2)) (hidx : ∀ j, (idx j).toNat < 100000) (t : Fin k0_t1_loop.trips) (v165 : BitVec 32) (k : Fin k0_t3_loop.trips) (acc : Unit) :
    capInv d L q idx rv gz k.val acc ⊢ wp frame (wpE (defs₀ (F := F)) 𝒱₀ (thr d L) none) Set.univ
      (k0_t3_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 t v165 k acc)
      (capInv d L q idx rv gz (k.val + 1)) := by
  unfold capInv
  iintro ⟨Hi, Hb, Hz, %g, %hg, Hc⟩
  unfold k0_t3_body
  simp only [Prog.lift, Prog.bind_op, Prog.bind_ret, Prog.pure_eq_ret]
  -- chunk k of the gathered row and of the index list
  sl_step
  sl_step
  -- each word names a position of the table row
  have hchk : k0_chk2 ((sI).view.readAt (Elt F) (Rect.unit (s := S4096) (k0_off9 k) S16.size (k0_off9_inb k)).toLoadRect idx) := by
    intro a x
    obtain rfl : a = 0 := Subsingleton.elim _ _
    exact hidx _
  rw [wp_assume_of _ _ _ _ hchk]
  -- the table row at those sixteen positions
  iapply (SparseCore.wp_vectorLoadIdx 𝒱₀ (thr d L) none Set.univ (base := sB) (S := Finset.univ) (q := fullShare) (Finset.subset_univ _)) $$ Hb
  iintro Hb
  -- chunk k of the second output row read (its value unused), then written; the return
  sl_step
  sl_step
  sl_step
  isplitl [Hi]; · iexact Hi
  isplitl [Hb]; · iexact Hb
  isplitl [Hz]; · iexact Hz
  iexists _
  isplitr
  swap
  · iexact Hc
  -- the first 16 (k + 1) entries
  ipureintro
  intro b hb
  have hk9 : k0_off9 k 0 = 16 * k.val := by rw [k0_off9_eq]; rfl
  have hk10 : k0_off10 k 0 = 16 * k.val := by rw [k0_off10_eq]; rfl
  by_cases hlt : (b 0).val < 16 * k.val
  · -- an entry below the chunk: the store did not touch it
    have hn : b ∉ ((sC).access (Rect.unit (s := S4096) (k0_off10 k) S16.size (k0_off10_inb k))).setOn Finset.univ := by
      intro hmem
      obtain ⟨x, -, hx⟩ := Finset.mem_map.1 hmem
      have hv := lane_val (k0_off10 k) (k0_off10_inb k) x
      have hx' : (Rect.unit (s := S4096) (k0_off10 k) S16.size (k0_off10_inb k)).emb x = b := hx
      rw [hx'] at hv
      omega
    rw [View.write_of_not_mem _ _ _ hn]
    exact hg b hlt
  · -- an entry of the chunk: the stored lane, the gathered first row's lane plus the exponential of the gathered second row's
    obtain ⟨x, rfl⟩ := exists_lane (k0_off10 k) (k0_off10_inb k) b ⟨by omega, by omega⟩
    refine (View.write_emb_of_mem (v := (sC).access (Rect.unit (s := S4096) (k0_off10 k) S16.size (k0_off10_inb k))) g _ (Finset.mem_univ x)).trans ?_
    refine (cast_eq _ _).trans ?_
    have e1 : (sZ).view.readAt (Elt F) (Rect.unit (s := S4096) (k0_off9 k) S16.size (k0_off9_inb k)).toLoadRect gz x
        = gz ((Rect.unit (s := S4096) (k0_off10 k) S16.size (k0_off10_inb k)).emb x) := by
      show gz ((Rect.unit (s := S4096) (k0_off9 k) S16.size (k0_off9_inb k)).toLoadRect.idx x) = _
      rw [idx_eq_emb (k0_off9 k) (k0_off10 k) (k0_off9_inb k) (k0_off10_inb k) (hk9.trans hk10.symm) x]
    exact congrArg₂ (FloatOps.addf (F := F) (φ := .f32)) e1
      (congrArg (FloatOps.exp (F := F) (φ := .f32))
        (gath_lane d L idx rv hidx (k0_off9 k) (k0_off10 k) (k0_off9_inb k) (k0_off10_inb k) (hk9.trans hk10.symm) _ x))

end Cert.Proof.Kernel

end
-- ==== Proof.Kernel.TileBase.lean ====
/-
  A tile's task: what it owns, how its buffers are spelt, and what holds between the trips of its main loop.

  Tile (c, i), number w = 2 i + c, owns table rows 16 w .. 16 w + 15. It copies the index list into its scratch; then,
  for each of its rows r in turn: fetches row r of the first table into a row buffer, gathers it at the index list
  (entry b of the gathered row is the row at idx[b]), sends the gathered row to output row (r, slot 0), fetches row r
  of the second table into the same row buffer, gathers it too, adds its exponential to the first gathered row, and
  sends that to output row (r, slot 1). Fetches complete on one semaphore, the two kinds of send on two others, one
  transfer at a time on each: every transfer is waited for before its buffer is written again and before the next
  transfer on its semaphore starts. A send of the gathered row is still pending while the second gather reads that
  row: the tile keeps half of its share of the row for reading and lends the other half to the send.

  Between trips (the invariant): the fetch of the next row of the first table is pending; the two sends of the
  previous trip are pending (before the first trip: two priming sends, of whatever the scratch held, to the first
  trip's rows); the output rows of earlier trips hold the specification; the rows of later trips are untouched.
-/
import proofs.«205357_g36507222016157_cont_8to1_b_501_45_alg».proof.Proof.Kernel.Setup
import proofs.«205357_g36507222016157_cont_8to1_b_501_45_alg».proof.Proof.Kernel.Rows
import proofs.«205357_g36507222016157_cont_8to1_b_501_45_alg».proof.Proof.Kernel.Values
import proofs.«205357_g36507222016157_cont_8to1_b_501_45_alg».proof.Proof.Kernel.Gather

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.Kernel.main_v1_scv : Memref Cert.Kernel.sig Kind.scVector Space.hbm Cert.Kernel.S512x100000 EltTy.f32)
local notation "lTW" => (Memref.whole Cert.Kernel.main_v3_scv : Memref Cert.Kernel.sig Kind.scVector Space.hbm Cert.Kernel.S512x100000 EltTy.f32)
local notation "iW" => (Memref.whole Cert.Kernel.main_arg0_scv : Memref Cert.Kernel.sig Kind.scVector Space.hbm Cert.Kernel.S4096 EltTy.i32)
local notation "oW" => (Memref.whole Cert.Kernel.main_v4_scv : Memref Cert.Kernel.sig Kind.scVector Space.hbm Cert.Kernel.S8x2x64x4096 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S100000 EltTy.f32)
local notation "sZ" => (Memref.whole Cert.Kernel.cc0_scratch2 : Memref Cert.Kernel.sig Kind.scVector Space.vmem Cert.Kernel.S4096 EltTy.f32)
local notation "sC" => (Memref.whole Cert.Kernel.cc0_scratch3 : Memref Cert.Kernel.sig Kind.scVector Space.vmem Cert.Kernel.S4096 EltTy.f32)

section Tile

variable (d : Dev nD) (L : grid0.Coords)

/-- The tile's four semaphores: fetches, sends of slot 0, sends of slot 1, the index list's copy. -/
abbrev cFcell (d : Dev nD) (c : Fin τ.nSC) (i : Fin τ.nSub) : GSem nD τ sig := (V d c i, .dma cc0_scratch4.sem)
abbrev cZcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scratch6.sem)
abbrev cIcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cFcell d (cV L) (jV L)) 0 ∗ semVal (cZcell d (cV L) (jV L)) 0 ∗ semVal (cCcell d (cV L) (jV L)) 0 ∗ semVal (cIcell d (cV L) (jV L)) 0
          ∗ bigSep (((((ownCells (V d (cV L) (jV L))).erase (cFcell d (cV L) (jV L))).erase (cZcell d (cV L) (jV L))).erase (cCcell d (cV L) (jV L))).erase (cIcell d (cV L) (jV L)))
              fun g => semVal g 0) := by
  unfold SparseCore.Cfg.ownSems0
  rw [SparseCore.bigSep_erase' ((mem_ownCells (g := cFcell d (cV L) (jV L))).mpr ⟨rfl, by
      show (SemLoc.dma cc0_scratch4.sem : SemLoc sig).isScoped .scVector = true; decide⟩),
    SparseCore.bigSep_erase' (Finset.mem_erase.mpr ⟨by simp [cFcell, cZcell]; decide, (mem_ownCells (g := cZcell d (cV L) (jV L))).mpr ⟨rfl, by
      show (SemLoc.dma cc0_scratch5.sem : SemLoc sig).isScoped .scVector = true; decide⟩⟩),
    SparseCore.bigSep_erase' (Finset.mem_erase.mpr ⟨by simp [cZcell, cCcell]; decide, Finset.mem_erase.mpr ⟨by simp [cFcell, cCcell]; decide,
      (mem_ownCells (g := cCcell d (cV L) (jV L))).mpr ⟨rfl, by show (SemLoc.dma cc0_scratch6.sem : SemLoc sig).isScoped .scVector = true; decide⟩⟩⟩),
    SparseCore.bigSep_erase' (Finset.mem_erase.mpr ⟨by simp [cCcell, cIcell]; decide, Finset.mem_erase.mpr ⟨by simp [cZcell, cIcell]; decide, Finset.mem_erase.mpr ⟨by simp [cFcell, cIcell]; decide,
      (mem_ownCells (g := cIcell d (cV L) (jV L))).mpr ⟨rfl, by show (SemLoc.dma cc0_scoped0.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

omit [FloatOps F] in
/-- The arrays as the tile's memrefs address them are the device's arrays. -/
theorem pts_i (q : PosShare TreeShare) (f : Buf (Elt F) (iLoc d)) :
    ((iW).view.loc (thr d L) ↦{q} f : sProp 𝕄) = iLoc d ↦{q} f := by simp only [Memref.view_whole, View.set_whole]
omit [FloatOps F] in
theorem pts_zT (q : PosShare TreeShare) (f : Buf (Elt F) (zTLoc d)) :
    ((zTW).view.loc (thr d L) ↦{q} f : sProp 𝕄) = zTLoc d ↦{q} f := by simp only [Memref.view_whole, View.set_whole]
omit [FloatOps F] in
theorem pts_lT (q : PosShare TreeShare) (f : Buf (Elt F) (lTLoc d)) :
    ((lTW).view.loc (thr d L) ↦{q} f : sProp 𝕄) = lTLoc d ↦{q} f := by simp only [Memref.view_whole, View.set_whole]
omit [FloatOps F] in
theorem pts_oZ (t : Fin k0_t1_loop.trips) (f : Buf (Elt F) (oLoc d)) :
    ((oZ L t).view.loc (thr d L) ↦[(oZ L t).view.set]{fullShare} f : sProp 𝕄) = oLoc d ↦[(oZ L t).view.set]{fullShare} f := rfl
omit [FloatOps F] in
theorem pts_oC (t : Fin k0_t1_loop.trips) (f : Buf (Elt F) (oLoc d)) :
    ((oC L t).view.loc (thr d L) ↦[(oC L t).view.set]{fullShare} f : sProp 𝕄) = oLoc d ↦[(oC L t).view.set]{fullShare} f := rfl
omit [FloatOps F] in
theorem pts_sI (q : PosShare TreeShare) (f : Buf (Elt F) ((thr d L).loc cc0_scratch0)) :
    ((sI).view.loc (thr d L) ↦{q} f : sProp 𝕄) = (thr d L).loc cc0_scratch0 ↦{q} f := rfl
omit [FloatOps F] in
theorem pts_sB (q : PosShare TreeShare) (f : Buf (Elt F) ((thr d L).loc cc0_scratch1)) :
    ((sB).view.loc (thr d L) ↦{q} f : sProp 𝕄) = (thr d L).loc cc0_scratch1 ↦{q} f := rfl
omit [FloatOps F] in
theorem pts_sZ (q : PosShare TreeShare) (f : Buf (Elt F) ((thr d L).loc cc0_scratch2)) :
    ((sZ).view.loc (thr d L) ↦{q} f : sProp 𝕄) = (thr d L).loc cc0_scratch2 ↦{q} f := rfl
omit [FloatOps F] in
theorem pts_sC (q : PosShare TreeShare) (f : Buf (Elt F) ((thr d L).loc cc0_scratch3)) :
    ((sC).view.loc (thr d L) ↦{q} f : sProp 𝕄) = (thr d L).loc cc0_scratch3 ↦{q} f := rfl

omit [FloatOps F] in
theorem off2_first : ∀ i : grid0.Coords, k0_off2 i = k0_off5 i t0 := by decide +kernel
omit [FloatOps F] in
theorem off3_first : ∀ i : grid0.Coords, k0_off3 i = k0_off8 i t0 := by decide +kernel

/-- An output row as the program slices it, at any offsets. -/
abbrev outRow (o : Fin 4 → Nat) (h : ∀ a, o a + S1x1x1x4096.size a ≤ S8x2x64x4096.size a) : Memref sig .scVector .hbm S4096 .f32 :=
  ((oW).slice (Rect.unit (s := S8x2x64x4096) o S1x1x1x4096.size h) (fun _ => rfl)).squeeze S4096 squeezes_S1x1x1x4096_S4096

omit [FloatOps F] in
theorem outRow_congr (o1 o2 : Fin 4 → Nat) (h : o1 = o2) (h1 : ∀ a, o1 a + S1x1x1x4096.size a ≤ S8x2x64x4096.size a)
    (h2 : ∀ a, o2 a + S1x1x1x4096.size a ≤ S8x2x64x4096.size a) : outRow o1 h1 = outRow o2 h2 := by subst h; rfl

omit [FloatOps F] in
theorem pts_row_congr (o1 o2 : Fin 4 → Nat) (h : o1 = o2) (h1 : ∀ a, o1 a + S1x1x1x4096.size a ≤ S8x2x64x4096.size a)
    (h2 : ∀ a, o2 a + S1x1x1x4096.size a ≤ S8x2x64x4096.size a) (f : Buf (Elt F) (oLoc d)) :
    ((outRow o1 h1).view.loc (thr d L) ↦[(outRow o1 h1).view.set]{fullShare} f : sProp 𝕄)
      = (outRow o2 h2).view.loc (thr d L) ↦[(outRow o2 h2).view.set]{fullShare} f := by subst h; rfl
omit [FloatOps F] in
/-- The priming sends go to the first trip's rows. -/
theorem pts_oZ0 (f : Buf (Elt F) (oLoc d)) :
    ((outRow (k0_off2 L) (k0_off2_inb L)).view.loc (thr d L) ↦[(outRow (k0_off2 L) (k0_off2_inb L)).view.set]{fullShare} f : sProp 𝕄)
      = oLoc d ↦[(oZ L t0).view.set]{fullShare} f :=
  pts_row_congr d L _ _ (off2_first L) (k0_off2_inb L) (k0_off5_inb L t0) f
omit [FloatOps F] in
theorem pts_oC0 (f : Buf (Elt F) (oLoc d)) :
    ((outRow (k0_off3 L) (k0_off3_inb L)).view.loc (thr d L) ↦[(outRow (k0_off3 L) (k0_off3_inb L)).view.set]{fullShare} f : sProp 𝕄)
      = oLoc d ↦[(oC L t0).view.set]{fullShare} f :=
  pts_row_congr d L _ _ (off3_first L) (k0_off3_inb L) (k0_off8_inb L t0) f

abbrev idxB : Buf (Elt F) ((thr d L).loc cc0_scratch0) := idxv m d
abbrev tokQ (L : grid0.Coords) : PosShare TreeShare := shareTok fullShare 32 (wid L)

omit [FloatOps F] in
theorem tr_val (k : Fin k0_t1_loop.trips) : tr k.val = k := by
  apply Fin.ext; show min k.val 15 = k.val
  have := Nat.lt_of_lt_of_le k.isLt (le_of_eq trips16); omega
omit [FloatOps F] in
theorem pr_succ (k : Fin k0_t1_loop.trips) : pr (k.val + 1) = k := by
  apply Fin.ext; show min (k.val + 1 - 1) 15 = k.val
  have := Nat.lt_of_lt_of_le k.isLt (le_of_eq trips16); omega

/-- A fetch's delivery, in the invariant's words: the row buffer holds the table's row, and the lent row of the table
    comes back (spelt through any equal offsets). -/
theorem fetch_flight_z (q : PosShare TreeShare) (tab : FVec F S512x100000 .f32) (o o' : Fin 2 → Nat) (h) (h') (ho : o = o') (r : Fin 512) (hr : o' = ![r.val, 0])
    (prev : Buf (Elt F) ((thr d L).loc cc0_scratch1)) :
    (iprop(((sB).view.loc (thr d L) ↦{fullShare} View.write (Elt F) (sB).view prev (ReadAs.same.apply (View.read (Elt F) (zRow o h).view tab)) Finset.univ)
        ∗ (zTW).view.loc (thr d L) ↦[(zRow o h).view.set]{q} tab) : sProp 𝕄)
      ⊢ iprop(((sB).view.loc (thr d L) ↦{fullShare} rowv d L tab r) ∗ (zTW).view.loc (thr d L) ↦[(zRow o' h').view.set]{q} tab) := by
  subst ho; rw [fetch_z d L tab o h r hr prev]
omit [FloatOps F] in
theorem compl_z (q : PosShare TreeShare) (tab : Buf (Elt F) (zTLoc d)) (o o' : Fin 2 → Nat) (h) (h') (ho : o = o') :
    ((zTW).view.loc (thr d L) ↦[Finset.univ \ (zRow o h).view.set]{q} tab : sProp 𝕄)
      = (zTW).view.loc (thr d L) ↦[Finset.univ \ (zRow o' h').view.set]{q} tab := by subst ho; rfl

/-- A send's delivery, in the invariant's words: the output row at contents that are the specification on the row. -/
theorem send_flight_z (k : Fin k0_t1_loop.trips) (fz : Buf (Elt F) (oLoc d)) (g : Buf (Elt F) ((thr d L).loc cc0_scratch2))
    (hgz : ∀ b : S4096.Idx, g b = zTv m d (ValueIdx.ix2 (n0 := 512) (n1 := 100000) (rowNo L k) (Cert.Spec.box (idxv m d) ⟨(b 0).val, (b 0).isLt⟩)))
    (t : Nat) (ht : pr t = k) (q : PosShare TreeShare) :
    (iprop(((oZ L k).view.loc (thr d L) ↦[(oZ L k).view.set]{fullShare}
          (oZ L k).view.writes (Elt F) fz [⟨Rect.whole S4096, ReadAs.same.apply (View.read (Elt F) (sZ).view g)⟩])
        ∗ (sZ).view.loc (thr d L) ↦[(sZ).view.set]{q} g) : sProp 𝕄)
      ⊢ iprop((∃ f, ⌜1 ≤ t → ∀ j ∈ (oZ L (pr t)).view.set, f j = stagedv m d j⌝
            ∗ (oZ L (pr t)).view.loc (thr d L) ↦[(oZ L (pr t)).view.set]{fullShare} f)
          ∗ (sZ).view.loc (thr d L) ↦[(sZ).view.set]{q} g) := by
  subst ht
  iintro ⟨Ho, Hs⟩
  isplitl [Ho]
  · iexists _; isplitr
    · ipureintro; intro _; exact send_z m d L _ fz g hgz
    · iexact Ho
  · iexact Hs
theorem send_flight_c (k : Fin k0_t1_loop.trips) (fc : Buf (Elt F) (oLoc d)) (gc : Buf (Elt F) ((thr d L).loc cc0_scratch3))
    (hgc : ∀ b : S4096.Idx, gc b = FloatOps.addf (zTv m d (ValueIdx.ix2 (n0 := 512) (n1 := 100000) (rowNo L k) (Cert.Spec.box (idxv m d) ⟨(b 0).val, (b 0).isLt⟩)))
                                 (FloatOps.exp (lTv m d (ValueIdx.ix2 (n0 := 512) (n1 := 100000) (rowNo L k) (Cert.Spec.box (idxv m d) ⟨(b 0).val, (b 0).isLt⟩)))))
    (t : Nat) (ht : pr t = k) (q : PosShare TreeShare) :
    (iprop(((oC L k).view.loc (thr d L) ↦[(oC L k).view.set]{fullShare}
          (oC L k).view.writes (Elt F) fc [⟨Rect.whole S4096, ReadAs.same.apply (View.read (Elt F) (sC).view gc)⟩])
        ∗ (sC).view.loc (thr d L) ↦[(sC).view.set]{q} gc) : sProp 𝕄)
      ⊢ iprop((∃ f, ⌜1 ≤ t → ∀ j ∈ (oC L (pr t)).view.set, f j = stagedv m d j⌝
            ∗ (oC L (pr t)).view.loc (thr d L) ↦[(oC L (pr t)).view.set]{fullShare} f)
          ∗ (sC).view.loc (thr d L) ↦[(sC).view.set]{q} gc) := by
  subst ht
  iintro ⟨Ho, Hs⟩
  isplitl [Ho]
  · iexists _; isplitr
    · ipureintro; intro _; exact send_c m d L _ fc gc hgc
    · iexact Ho
  · iexact Hs

omit [FloatOps F] in
/-- The next row to fetch, as the loop computes it, is the row pending before the next trip. -/
theorem off11_next (k : Fin k0_t1_loop.trips) : k0_off11 L k = k0_off4 L (tr (k.val + 1)) := by
  rw [k0_off11_eq, k0_off4_eq]
  have hk : k.val < 16 := Nat.lt_of_lt_of_le k.isLt (le_of_eq trips16)
  have hv : (tr (k.val + 1)).val = min (k.val + 1) 15 := rfl
  have e : min (32 * (L 1).val + 16 * (L 0).val + k.val + 1) (32 * (L 1).val + 16 * (L 0).val + 15) = 32 * (L 1).val + 16 * (L 0).val + (tr (k.val + 1)).val := by
    rw [hv]; omega
  rw [e]

omit [FloatOps F] in
/-- The first fetch is the fetch pending before trip 0. -/
theorem off1_first : k0_off1 L = k0_off4 L (tr 0) := by
  rw [k0_off1_eq, k0_off4_eq]
  have hv : (tr 0).val = 0 := rfl
  rw [hv, Nat.add_zero]

/-- A priming send's delivery, in the invariant's words (nothing is claimed of what it wrote). -/
theorem prime_flight_z (X : Buf (Elt F) (oLoc d)) (q : PosShare TreeShare) (g : Buf (Elt F) ((thr d L).loc cc0_scratch2)) :
    (iprop(((outRow (k0_off2 L) (k0_off2_inb L)).view.loc (thr d L) ↦[(outRow (k0_off2 L) (k0_off2_inb L)).view.set]{fullShare} X)
        ∗ (sZ).view.loc (thr d L) ↦[(sZ).view.set]{q} g) : sProp 𝕄)
      ⊢ iprop((∃ f, ⌜1 ≤ 0 → ∀ j ∈ (oZ L (pr 0)).view.set, f j = stagedv m d j⌝
            ∗ (oZ L (pr 0)).view.loc (thr d L) ↦[(oZ L (pr 0)).view.set]{fullShare} f)
          ∗ (sZ).view.loc (thr d L) ↦[(sZ).view.set]{q} g) := by
  iintro ⟨Ho, Hs⟩
  isplitl [Ho]
  · iexists X; isplitr
    · ipureintro; intro h; exact absurd h (by decide)
    · iapply (Entails.of_eq (pts_oZ0 (F := F) d L X)); iexact Ho
  · iexact Hs
theorem prime_flight_c (X : Buf (Elt F) (oLoc d)) (q : PosShare TreeShare) (g : Buf (Elt F) ((thr d L).loc cc0_scratch3)) :
    (iprop(((outRow (k0_off3 L) (k0_off3_inb L)).view.loc (thr d L) ↦[(outRow (k0_off3 L) (k0_off3_inb L)).view.set]{fullShare} X)
        ∗ (sC).view.loc (thr d L) ↦[(sC).view.set]{q} g) : sProp 𝕄)
      ⊢ iprop((∃ f, ⌜1 ≤ 0 → ∀ j ∈ (oC L (pr 0)).view.set, f j = stagedv m d j⌝
            ∗ (oC L (pr 0)).view.loc (thr d L) ↦[(oC L (pr 0)).view.set]{fullShare} f)
          ∗ (sC).view.loc (thr d L) ↦[(sC).view.set]{q} g) := by
  iintro ⟨Ho, Hs⟩
  isplitl [Ho]
  · iexists X; isplitr
    · ipureintro; intro h; exact absurd h (by decide)
    · iapply (Entails.of_eq (pts_oC0 (F := F) d L X)); iexact Ho
  · iexact Hs

def tripInv (O : CellTallies nD τ sig (HIx 1)) (W : Waits sig (HIx 1)) (t : Nat) (_ : PUnit) : sProp 𝕄 :=
  iprop(Transfers.MayWaits (thr d L) (none : HIx 1) O
    ∗ ((sI).view.loc (thr d L) ↦{fullShare} idxB m d L)
    ∗ Transfers.Flight countersEmb (thr d L) (SemLoc.dma cc0_scratch4.sem) default 3200000
        iprop(((sB).view.loc (thr d L) ↦{fullShare} rowv d L (zTv m d) (rowNo L (tr t)))
          ∗ (zTW).view.loc (thr d L) ↦[(zRow (k0_off4 L (tr t)) (k0_off4_inb L (tr t))).view.set]{tokQ L} zTv m d)
    ∗ ((zTW).view.loc (thr d L) ↦[Finset.univ \ (zRow (k0_off4 L (tr t)) (k0_off4_inb L (tr t))).view.set]{tokQ L} zTv m d)
    ∗ ((lTW).view.loc (thr d L) ↦{tokQ L} lTv m d)
    ∗ (∃ gZ, ⌜1 ≤ t → gZ = gath d L (idxB m d L) (rowv d L (zTv m d) (rowNo L (pr t)))⌝
        ∗ Transfers.Flight countersEmb (thr d L) (SemLoc.dma cc0_scratch5.sem) default 131072
            iprop((∃ f, ⌜1 ≤ t → ∀ j ∈ (oZ L (pr t)).view.set, f j = stagedv m d j⌝
                ∗ (oZ L (pr t)).view.loc (thr d L) ↦[(oZ L (pr t)).view.set]{fullShare} f)
              ∗ (sZ).view.loc (thr d L) ↦[(sZ).view.set]{(fullShare : PosShare TreeShare).left} gZ)
        ∗ ((sZ).view.loc (thr d L) ↦[Finset.univ \ (sZ).view.set]{(fullShare : PosShare TreeShare).left} gZ)
        ∗ ((sZ).view.loc (thr d L) ↦{(fullShare : PosShare TreeShare).right} gZ))
    ∗ (∃ gC, Transfers.Flight countersEmb (thr d L) (SemLoc.dma cc0_scratch6.sem) default 131072
            iprop((∃ f, ⌜1 ≤ t → ∀ j ∈ (oC L (pr t)).view.set, f j = stagedv m d j⌝
                ∗ (oC L (pr t)).view.loc (thr d L) ↦[(oC L (pr t)).view.set]{fullShare} f)
              ∗ (sC).view.loc (thr d L) ↦[(sC).view.set]{fullShare} gC)
        ∗ ((sC).view.loc (thr d L) ↦[Finset.univ \ (sC).view.set]{fullShare} gC))
    ∗ (bigSep (Finset.univ.filter fun k : Fin k0_t1_loop.trips => k.val + 1 < t) fun k => oLoc d ↦[(oZ L k).view.set]{fullShare} stagedv m d)
    ∗ (bigSep (Finset.univ.filter fun k : Fin k0_t1_loop.trips => max t 1 ≤ k.val) fun k => oLoc d ↦[(oZ L k).view.set]{fullShare} m (oLoc d))
    ∗ (bigSep (Finset.univ.filter fun k : Fin k0_t1_loop.trips => k.val + 1 < t) fun k => oLoc d ↦[(oC L k).view.set]{fullShare} stagedv m d)
    ∗ (bigSep (Finset.univ.filter fun k : Fin k0_t1_loop.trips => max t 1 ≤ k.val) fun k => oLoc d ↦[(oC L k).view.set]{fullShare} m (oLoc d))
    ∗ ∃ W', ⌜∀ p ∈ W', p ∈ W ∨ p.2 = none⌝ ∗ owes (thr d L) O W')

end Tile

end Cert.Proof.Kernel

end
-- ==== Proof.Kernel.TileTrip.lean ====
/-
  One trip of a tile's main loop, from the invariant before it to the invariant after it: wait for the first table's
  row and for the previous slot-0 send, gather, start the second table's fetch and this trip's slot-0 send, wait for
  the fetch and for the previous slot-1 send, gather and add the exponential, start the next row's fetch and this
  trip's slot-1 send.
-/
import proofs.«205357_g36507222016157_cont_8to1_b_501_45_alg».proof.Proof.Kernel.TileBase

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.Kernel.main_v1_scv : Memref Cert.Kernel.sig Kind.scVector Space.hbm Cert.Kernel.S512x100000 EltTy.f32)
local notation "lTW" => (Memref.whole Cert.Kernel.main_v3_scv : Memref Cert.Kernel.sig Kind.scVector Space.hbm Cert.Kernel.S512x100000 EltTy.f32)
local notation "iW" => (Memref.whole Cert.Kernel.main_arg0_scv : Memref Cert.Kernel.sig Kind.scVector Space.hbm Cert.Kernel.S4096 EltTy.i32)
local notation "oW" => (Memref.whole Cert.Kernel.main_v4_scv : Memref Cert.Kernel.sig Kind.scVector Space.hbm Cert.Kernel.S8x2x64x4096 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S100000 EltTy.f32)
local notation "sZ" => (Memref.whole Cert.Kernel.cc0_scratch2 : Memref Cert.Kernel.sig Kind.scVector Space.vmem Cert.Kernel.S4096 EltTy.f32)
local notation "sC" => (Memref.whole Cert.Kernel.cc0_scratch3 : Memref Cert.Kernel.sig Kind.scVector Space.vmem Cert.Kernel.S4096 EltTy.f32)

section Tile

variable (d : Dev nD) (L : grid0.Coords)

variable [FloatOps F]

theorem trip_region (hpre : PreOK m) (O : CellTallies nD τ sig (HIx 1)) (W : Waits sig (HIx 1)) (v2 c64 v65 v70 v75 : BitVec 32)
    (k : Fin k0_t1_loop.trips) (acc : Unit) :
    tripInv m d L O W k.val acc ⊢ wp frame (wpE (defs₀ (F := F)) 𝒱₀ (thr d L) none) Set.univ
      (k0_t1_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 v2 c64 v65 v70 v75 k acc)
      (tripInv m d L O W (k.val + 1)) := by
  unfold tripInv
  iintro ⟨#Hmw, HsI, HfF, Hz, Hl, ⟨%gZ, %hgZ, HfZ, HsZl, HsZr⟩, ⟨%gC, HfC, HsCr⟩, HZd, HZt, HCd, HCt, %W', %hW', HO⟩
  have hidx : ∀ j, (idxB m d L j).toNat < 100000 := fun j => hpre d j
  unfold k0_t1_body
  sl_exec
  ihave HsZ := (pointsTo_share (PosShare.mem_left_op_right fullShare)).2 $$ [HsZl HsZr]
  · isplitl [HsZl] <;> iassumption
  sl_for (gatherInv d L (idxB m d L) (rowv d L (zTv m d) (rowNo L (tr k.val)))) $$ [HsI HfF_dst HsZ]
  case region => intro k2 acc2; exact gather_trip d L _ _ hidx k 0#32 k2 acc2
  · unfold gatherInv
    isplitl [HsI]; · iexact HsI
    isplitl [HfF_dst]; · iexact HfF_dst
    iexists gZ; isplitr
    · ipureintro; intro b hb; omega
    · iexact HsZ
  iintro %_ HI
  unfold gatherInv
  icases HI with ⟨HsI, HsB, %g, %hg, HsZ⟩
  ihave HsZ := (pointsTo_share (PosShare.mem_left_op_right fullShare)).1 $$ HsZ
  icases HsZ with ⟨HsZl, HsZr⟩
  have hg' : g = gath d L (idxB m d L) (rowv d L (zTv m d) (rowNo L (tr k.val))) := by
    funext b
    have hb : (b 0).val < 4096 := (b 0).isLt
    have h256 : Scf.trips k0_t2_loop.lb k0_t2_loop.ub k0_t2_loop.st = 256 := by decide
    exact hg b (by rw [h256]; omega)
  ihave HZ := (rows_step (F := F) d (fun j => (oZ L j).view.set) (m (oLoc d)) (stagedv m d) k) $$ [HfZ_dst HZd HZt]
  · isplitl [HfZ_dst]; · iexact HfZ_dst
    isplitl [HZd] <;> iassumption
  icases HZ with ⟨⟨%fz, HoZk⟩, HZd, HZt⟩
  ihave HoZk := (Entails.of_eq (pts_oZ (F := F) d L k _).symm) $$ HoZk
  sl_exec
  -- the slot-1 rows
  ihave HC := (rows_step (F := F) d (fun j => (oC L j).view.set) (m (oLoc d)) (stagedv m d) k) $$ [HfC_dst HCd HCt]
  · isplitl [HfC_dst]; · iexact HfC_dst
    isplitl [HCd] <;> iassumption
  icases HC with ⟨⟨%fc, HoCk⟩, HCd, HCt⟩
  ihave HoCk := (Entails.of_eq (pts_oC (F := F) d L k _).symm) $$ HoCk
  -- the row buffer holds the second table's row
  sl_unfold_run_names
  ihave HsB := (Entails.of_eq (congrArg (fun f => ((sB).view.loc (thr d L) ↦{fullShare} f : sProp 𝕄))
    (fetch_l (F := F) d L (lTv m d) (k0_off4 L k) (k0_off4_inb L k) (rowNo L k) (k0_off4_eq L k) (rowv d L (zTv m d) (rowNo L (tr k.val)))))) $$ HsB
  sl_for (capInv d L (fullShare : PosShare TreeShare).right (idxB m d L) (rowv d L (lTv m d) (rowNo L k)) g) $$ [HsI HsB HsZr HsCr]
  case region => intro k3 acc3; exact cap_trip d L _ _ _ _ hidx k _ k3 acc3
  · unfold capInv
    isplitl [HsI]; · iexact HsI
    isplitl [HsB]; · iexact HsB
    isplitl [HsZr]; · iexact HsZr
    iexists gC; isplitr
    · ipureintro; intro b hb; omega
    · iexact HsCr
  iintro %_ HI
  unfold capInv
  icases HI with ⟨HsI, HsB, HsZr, %gc, %hgc, HsC⟩
  sl_exec
  sl_unfold_run_names
  sl_step
  have h256' : Scf.trips k0_t3_loop.lb k0_t3_loop.ub k0_t3_loop.st = 256 := by decide
  have hgc' : gc = capv d L g (idxB m d L) (rowv d L (lTv m d) (rowNo L k)) := by
    funext b
    have hb : (b 0).val < 4096 := (b 0).isLt
    exact hgc b (by rw [h256']; omega)
  have hgz : ∀ b : S4096.Idx, g b = zTv m d (ValueIdx.ix2 (n0 := 512) (n1 := 100000) (rowNo L k) (Cert.Spec.box (idxv m d) ⟨(b 0).val, (b 0).isLt⟩)) := by
    intro b; rw [hg', tr_val]; rfl
  have hgcv : ∀ b : S4096.Idx, gc b = FloatOps.addf (zTv m d (ValueIdx.ix2 (n0 := 512) (n1 := 100000) (rowNo L k) (Cert.Spec.box (idxv m d) ⟨(b 0).val, (b 0).isLt⟩)))
      (FloatOps.exp (lTv m d (ValueIdx.ix2 (n0 := 512) (n1 := 100000) (rowNo L k) (Cert.Spec.box (idxv m d) ⟨(b 0).val, (b 0).isLt⟩)))) := by
    intro b; rw [hgc', hg', tr_val]; rfl
  ihave HfF := (Transfers.Flight_mono countersEmb (thr d L) (fetch_flight_z (F := F) d L (tokQ L) (zTv m d) (k0_off11 L k) (k0_off4 L (tr (k.val + 1))) (k0_off11_inb L k) (k0_off4_inb L (tr (k.val + 1)))
    (off11_next L k) (rowNo L (tr (k.val + 1))) (k0_off4_eq L _) (rowv d L (lTv m d) (rowNo L k)))) $$ HfF
  ihave Hz := (Entails.of_eq (compl_z (F := F) d L (tokQ L) (zTv m d) (k0_off11 L k) (k0_off4 L (tr (k.val + 1))) (k0_off11_inb L k) (k0_off4_inb L (tr (k.val + 1))) (off11_next L k))) $$ Hz
  ihave HfZ := (Transfers.Flight_mono countersEmb (thr d L) (send_flight_z (F := F) m d L k fz g hgz (k.val + 1) (pr_succ k) _)) $$ HfZ
  ihave HfC := (Transfers.Flight_mono countersEmb (thr d L) (send_flight_c (F := F) m d L k fc gc hgcv (k.val + 1) (pr_succ k) _)) $$ HfC
  isplitr; · iexact Hmw
  isplitl [HsI]; · iexact HsI
  isplitl [HfF]; · iexact HfF
  isplitl [Hz]; · iexact Hz
  isplitl [Hl]; · iexact Hl
  isplitl [HfZ HsZl HsZr]
  · iexists g; isplitr
    · ipureintro; intro _; rw [hg', tr_val, pr_succ]
    isplitl [HfZ]; · iexact HfZ
    isplitl [HsZl]; · iexact HsZl
    iexact HsZr
  isplitl [HfC HsC]
  · iexists gc
    isplitl [HfC]; · iexact HfC
    iexact HsC
  isplitl [HZd]; · iexact HZd
  isplitl [HZt]; · iexact HZt
  isplitl [HCd]; · iexact HCd
  isplitl [HCt]; · iexact HCt
  iexists (insert (SemLoc.dma cc0_scratch6.sem, (default : HIx 1)) (insert (SemLoc.dma cc0_scratch4.sem, (default : HIx 1))
    (insert (SemLoc.dma cc0_scratch5.sem, (default : HIx 1)) (insert (SemLoc.dma cc0_scratch4.sem, (default : HIx 1)) W'))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile

end Cert.Proof.Kernel

end
-- ==== Proof.Kernel.Tile.lean ====
/-
  A tile's whole task: the index list's copy, the first fetch and the two priming sends establish the invariant; the
  sixteen trips keep it; after them the last fetch and the last two sends are waited for, and every output row of the
  tile holds the specification. And the task in the words of the launch theorem.
-/
import proofs.«205357_g36507222016157_cont_8to1_b_501_45_alg».proof.Proof.Kernel.TileTrip

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.Kernel.main_v1_scv : Memref Cert.Kernel.sig Kind.scVector Space.hbm Cert.Kernel.S512x100000 EltTy.f32)
local notation "lTW" => (Memref.whole Cert.Kernel.main_v3_scv : Memref Cert.Kernel.sig Kind.scVector Space.hbm Cert.Kernel.S512x100000 EltTy.f32)
local notation "iW" => (Memref.whole Cert.Kernel.main_arg0_scv : Memref Cert.Kernel.sig Kind.scVector Space.hbm Cert.Kernel.S4096 EltTy.i32)
local notation "oW" => (Memref.whole Cert.Kernel.main_v4_scv : Memref Cert.Kernel.sig Kind.scVector Space.hbm Cert.Kernel.S8x2x64x4096 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S100000 EltTy.f32)
local notation "sZ" => (Memref.whole Cert.Kernel.cc0_scratch2 : Memref Cert.Kernel.sig Kind.scVector Space.vmem Cert.Kernel.S4096 EltTy.f32)
local notation "sC" => (Memref.whole Cert.Kernel.cc0_scratch3 : Memref Cert.Kernel.sig Kind.scVector Space.vmem Cert.Kernel.S4096 EltTy.f32)

section Tile

variable (d : Dev nD) (L : grid0.Coords)

variable [FloatOps F]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L zTW (Memref.isWhole_whole _) lTW (Memref.isWhole_whole _) iW (Memref.isWhole_whole _) oW (Memref.isWhole_whole _)
            sI (Memref.isWhole_whole _) sB (Memref.isWhole_whole _) sZ (Memref.isWhole_whole _) sC (Memref.isWhole_whole _) cc0_scratch4 cc0_scratch5 cc0_scratch6 cc0_scoped0)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileGo tileTd oRows
  iintro ⟨#Hlv, -, ⟨Hi, Hz, Hl, HoZ, HoC⟩, ⟨⟨%fI, HsI⟩, ⟨%fB, HsB⟩, ⟨%fZ, HsZ⟩, ⟨%fC, HsC⟩, Hbufs⟩, ⟨HsemF, HsemZ, HsemC, HsemI, Hsems⟩, HO⟩
  ihave Hmw := ((K (F := F)).mayWaits_none (thr := V d (cV L) (jV L)) hO) $$ Hlv
  ihave Hi := (Entails.of_eq (pts_i (F := F) d L _ _).symm) $$ Hi
  ihave Hz := (Entails.of_eq (pts_zT (F := F) d L _ _).symm) $$ Hz
  ihave Hl := (Entails.of_eq (pts_lT (F := F) d L _ _).symm) $$ Hl
  ihave HsI := (Entails.of_eq (pts_sI (F := F) d L _ _).symm) $$ HsI
  ihave HsB := (Entails.of_eq (pts_sB (F := F) d L _ _).symm) $$ HsB
  ihave HsZ := (Entails.of_eq (pts_sZ (F := F) d L _ _).symm) $$ HsZ
  ihave HsC := (Entails.of_eq (pts_sC (F := F) d L _ _).symm) $$ HsC
  ihave HsZ := (pointsTo_share (PosShare.mem_left_op_right fullShare)).1 $$ HsZ
  icases HsZ with ⟨HsZl, HsZr⟩
  ihave HoZ := (Entails.of_eq (SparseCore.bigSep_erase' (Finset.mem_univ (t0 : Fin k0_t1_loop.trips)))) $$ HoZ
  icases HoZ with ⟨HoZ0, HoZr⟩
  ihave HoC := (Entails.of_eq (SparseCore.bigSep_erase' (Finset.mem_univ (t0 : Fin k0_t1_loop.trips)))) $$ HoC
  icases HoC with ⟨HoC0, HoCr⟩
  ihave HoZ0 := (Entails.of_eq (pts_oZ0 (F := F) d L _).symm) $$ HoZ0
  ihave HoC0 := (Entails.of_eq (pts_oC0 (F := F) d L _).symm) $$ HoC0
  sl_exec
  sl_unfold_run_names
  -- what holds before the first trip
  ihave HsI := (Entails.of_eq (congrArg (fun f => ((sI).view.loc (thr d L) ↦{fullShare} f : sProp 𝕄)) (idx_lands (F := F) m d L fI))) $$ HsI
  ihave HsemF := (Transfers.Flight_mono countersEmb (thr d L) (fetch_flight_z (F := F) d L (tokQ L) (zTv m d) (k0_off1 L) (k0_off4 L (tr 0)) (k0_off1_inb L) (k0_off4_inb L (tr 0))
    (off1_first L) (rowNo L (tr 0)) (k0_off4_eq L _) fB)) $$ HsemF
  ihave Hz := (Entails.of_eq (compl_z (F := F) d L (tokQ L) (zTv m d) (k0_off1 L) (k0_off4 L (tr 0)) (k0_off1_inb L) (k0_off4_inb L (tr 0)) (off1_first L))) $$ Hz
  ihave HsemZ := (Transfers.Flight_mono countersEmb (thr d L) (prime_flight_z (F := F) m d L _ _ fZ)) $$ HsemZ
  ihave HsemC := (Transfers.Flight_mono countersEmb (thr d L) (prime_flight_c (F := F) m d L _ _ fC)) $$ HsemC
  ihave HZ := (rows_init (F := F) d (fun j => (oZ L j).view.set) (m (oLoc d)) (stagedv m d)) $$ HoZr
  icases HZ with ⟨HZd, HZt⟩
  ihave HC := (rows_init (F := F) d (fun j => (oC L j).view.set) (m (oLoc d)) (stagedv m d)) $$ HoCr
  icases HC with ⟨HCd, HCt⟩
  sl_for (tripInv m d L O W) $$ [Hmw HsI HsemF Hz Hl HsemZ HsZl HsZr HsemC HsC HZd HZt HCd HCt HO]
  case region => intro k acc; exact trip_region m d L hpre O W _ _ _ _ _ k acc
  · unfold tripInv
    isplitr; · iexact Hmw
    isplitl [HsI]; · iexact HsI
    isplitl [HsemF]; · iexact HsemF
    isplitl [Hz]; · iexact Hz
    isplitl [Hl]; · iexact Hl
    isplitl [HsemZ HsZl HsZr]
    · iexists fZ; isplitr
      · ipureintro; intro h; exact absurd h (by decide)
      isplitl [HsemZ]; · iexact HsemZ
      isplitl [HsZl]; · iexact HsZl
      iexact HsZr
    isplitl [HsemC HsC]
    · iexists fC
      isplitl [HsemC]; · iexact HsemC
      iexact HsC
    isplitl [HZd]; · iexact HZd
    isplitl [HZt]; · iexact HZt
    isplitl [HCd]; · iexact HCd
    isplitl [HCt]; · iexact HCt
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold tripInv
  icases HI with ⟨-, HsI, HfF, Hz, Hl, ⟨%gZ, %hgZ, HfZ, HsZl, HsZr⟩, ⟨%gC, HfC, HsCr⟩, HZd, HZt, HCd, HCt, %W', %hW', HO⟩
  sl_exec
  sl_step
  have h16 : 1 ≤ k0_t1_loop.trips := by rw [trips16]; decide
  -- the last trip's rows come back final: all of the tile's rows hold the specification
  ihave HZ := (rows_final (F := F) d (fun j => (oZ L j).view.set) (m (oLoc d)) (stagedv m d)) $$ [HfZ_dst HZd HZt]
  · isplitl [HfZ_dst]
    · icases HfZ_dst with ⟨%f, %hf, Hf⟩
      iexists f; isplitr
      · ipureintro; exact hf h16
      · iexact Hf
    isplitl [HZd] <;> iassumption
  ihave HC := (rows_final (F := F) d (fun j => (oC L j).view.set) (m (oLoc d)) (stagedv m d)) $$ [HfC_dst HCd HCt]
  · isplitl [HfC_dst]
    · icases HfC_dst with ⟨%f, %hf, Hf⟩
      iexists f; isplitr
      · ipureintro; exact hf h16
      · iexact Hf
    isplitl [HCd] <;> iassumption
  -- the gathered row's two halves
  ihave HsZ := (pointsTo_share (PosShare.mem_left_op_right fullShare)).2 $$ [HsZl HsZr]
  · isplitl [HsZl] <;> iassumption
  isplitl [Hi Hz Hl HZ HC]
  · isplitl [Hi]; · iapply (Entails.of_eq (pts_i (F := F) d L _ _)); iexact Hi
    isplitl [Hz]; · iapply (Entails.of_eq (pts_zT (F := F) d L _ _)); iexact Hz
    isplitl [Hl]; · iapply (Entails.of_eq (pts_lT (F := F) d L _ _)); iexact Hl
    isplitl [HZ]; · iexact HZ
    iexact HC
  isplitl [HsI HfF_dst HsZ HsCr Hbufs]
  · isplitl [HsI]; · iexists _; iexact HsI
    isplitl [HfF_dst]; · iexists _; iexact HfF_dst
    isplitl [HsZ]; · iexists _; iexact HsZ
    isplitl [HsCr]; · iexists _; iexact HsCr
    iexact Hbufs
  isplitl [HfF HfZ HfC HsemI Hsems]
  · isplitl [HfF]; · iexact HfF
    isplitl [HfZ]; · iexact HfZ
    isplitl [HfC]; · iexact HfC
    isplitl [HsemI]; · iexact HsemI
    iexact Hsems
  iexists (insert (SemLoc.dma cc0_scratch6.sem, (default : HIx 1)) (insert (SemLoc.dma cc0_scratch5.sem, (default : HIx 1))
    (insert (SemLoc.dma cc0_scratch4.sem, (default : HIx 1)) W')))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile

/-! ## The launch theorem's obligation -/

variable [FloatOps F]

theorem defs₀_vector (c : Fin τ.nSC) (s : Fin τ.nSub) :
    defs₀ (F := F) (.scVector c s) 0 ()
      = SparseCore.onTile hcore0 hsub0 (fun c s => cc0__sc_body (coordsV c s)
          zTW (Memref.isWhole_whole _) lTW (Memref.isWhole_whole _) iW (Memref.isWhole_whole _) oW (Memref.isWhole_whole _)
          sI (Memref.isWhole_whole _) sB (Memref.isWhole_whole _) sZ (Memref.isWhole_whole _) sC (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.Kernel

end
-- ==== Proof.Kernel.LaunchRows.lean ====
/-
  The launch, first part: how the arrays of a device are divided among the 32 tiles of the one SparseCore call.

  The output array is the disjoint union of 1024 rows, two per (SparseCore, tile, trip); the index list and the two staged
  tables go out as 32 read tokens each, token 2 i + c to tile (c, i). Hence the two SparseCores' operands, taken
  together, are the three arrays' tokens and the output array whole, and so are their results.
-/
import proofs.«205357_g36507222016157_cont_8to1_b_501_45_alg».proof.Proof.Kernel.Setup
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-! ## The output array, row by row

Trip `t` of tile `(c, i)` writes table row `r = 32 i + 16 c + t`, that is the two output rows `(r / 64, 0, r % 64, ·)`
and `(r / 64, 1, r % 64, ·)`. As `(c, i, t)` ranges over 2 x 16 x 16 the number `r` takes each value below 512 once, so
these 1024 rows are pairwise disjoint and cover the array. -/

theorem trips_eq : k0_t1_loop.trips = 16 := by decide

/-- A rectangle of one full row of the output array: the first three coordinates fixed. -/
theorem mem_unit4 (off : Fin 4 → ℕ) (inb : ∀ a, off a + S1x1x1x4096.size a ≤ S8x2x64x4096.size a) (j : S8x2x64x4096.Idx) (h3 : off 3 = 0) :
    j ∈ (Rect.unit (s := S8x2x64x4096) off S1x1x1x4096.size inb).set ↔ (j 0).val = off 0 ∧ (j 1).val = off 1 ∧ (j 2).val = off 2 := by
  rw [Rect.mem_set_unit]
  have h3' : (j 3).val < 4096 := (j 3).isLt
  have e0 : S1x1x1x4096.size 0 = 1 := rfl
  have e1 : S1x1x1x4096.size 1 = 1 := rfl
  have e2 : S1x1x1x4096.size 2 = 1 := rfl
  have e3 : S1x1x1x4096.size 3 = 4096 := rfl
  constructor
  · intro h
    have h0 := h 0; have h1 := h 1; have h2 := h 2
    rw [e0] at h0; rw [e1] at h1; rw [e2] at h2
    exact ⟨by omega, by omega, by omega⟩
  · rintro ⟨h0, h1, h2⟩ a
    match a with
    | 0 => rw [e0]; omega
    | 1 => rw [e1]; omega
    | 2 => rw [e2]; omega
    | 3 => rw [e3, h3]; omega

/-- The table row of trip `t` of tile `L`. -/
def rowOf (L : grid0.Coords) (t : Fin k0_t1_loop.trips) : ℕ := 32 * (L 1).val + 16 * (L 0).val + t.val

theorem mem_oZ (L : grid0.Coords) (t : Fin k0_t1_loop.trips) (j : S8x2x64x4096.Idx) :
    j ∈ (oZ L t).view.set ↔ (j 0).val = rowOf L t / 64 ∧ (j 1).val = 0 ∧ (j 2).val = rowOf L t % 64 := by
  show j ∈ (((Memref.whole main_v4_scv : Memref sig .scVector .hbm S8x2x64x4096 .f32).view.slice
      (Rect.unit (s := S8x2x64x4096) (k0_off5 L t) S1x1x1x4096.size (k0_off5_inb L t))).reshape S4096 squeezes_S1x1x1x4096_S4096.numel_eq).set ↔ _
  rw [View.set_reshape]
  show j ∈ ((View.whole (main_v4_scv : Ref sig .scVector)).slice (Rect.unit (s := S8x2x64x4096) (k0_off5 L t) S1x1x1x4096.size (k0_off5_inb L t))).set ↔ _
  rw [View.set_slice_whole, mem_unit4 _ _ _ (by rw [k0_off5_eq]; rfl), k0_off5_eq]
  rfl

theorem mem_oC (L : grid0.Coords) (t : Fin k0_t1_loop.trips) (j : S8x2x64x4096.Idx) :
    j ∈ (oC L t).view.set ↔ (j 0).val = rowOf L t / 64 ∧ (j 1).val = 1 ∧ (j 2).val = rowOf L t % 64 := by
  show j ∈ (((Memref.whole main_v4_scv : Memref sig .scVector .hbm S8x2x64x4096 .f32).view.slice
      (Rect.unit (s := S8x2x64x4096) (k0_off8 L t) S1x1x1x4096.size (k0_off8_inb L t))).reshape S4096 squeezes_S1x1x1x4096_S4096.numel_eq).set ↔ _
  rw [View.set_reshape]
  show j ∈ ((View.whole (main_v4_scv : Ref sig .scVector)).slice (Rect.unit (s := S8x2x64x4096) (k0_off8 L t) S1x1x1x4096.size (k0_off8_inb L t))).set ↔ _
  rw [View.set_slice_whole, mem_unit4 _ _ _ (by rw [k0_off8_eq]; rfl), k0_off8_eq]
  rfl

theorem rowOf_coordsK (c : Fin ((K (F := F)).nCore 0)) (i : Fin ((K (F := F)).nSub 0)) (t : Fin k0_t1_loop.trips) :
    rowOf (coordsK c i) t = 32 * i.val + 16 * c.val + t.val := rfl

/-- An output row's index: SparseCore, tile, trip, slot. -/
abbrev RowIx (F : FTy → Type) : Type := Fin ((K (F := F)).nCore 0) × Fin ((K (F := F)).nSub 0) × Fin k0_t1_loop.trips × Fin 2

/-- The output row, as a set of the array's indices. -/
def rowSet (p : RowIx F) : Finset S8x2x64x4096.Idx :=
  if p.2.2.2 = 0 then (oZ (coordsK p.1 p.2.1) p.2.2.1).view.set else (oC (coordsK p.1 p.2.1) p.2.2.1).view.set

theorem rowSet_zero (c : Fin ((K (F := F)).nCore 0)) (i : Fin ((K (F := F)).nSub 0)) (t : Fin k0_t1_loop.trips) :
    rowSet (F := F) (c, i, t, 0) = (oZ (coordsK c i) t).view.set := if_pos rfl
theorem rowSet_one (c : Fin ((K (F := F)).nCore 0)) (i : Fin ((K (F := F)).nSub 0)) (t : Fin k0_t1_loop.trips) :
    rowSet (F := F) (c, i, t, 1) = (oC (coordsK c i) t).view.set := if_neg (show ¬ ((1 : Fin 2) = 0) by decide)

theorem mem_rowSet (c : Fin ((K (F := F)).nCore 0)) (i : Fin ((K (F := F)).nSub 0)) (t : Fin k0_t1_loop.trips) (s : Fin 2) (j : S8x2x64x4096.Idx) :
    j ∈ rowSet (F := F) (c, i, t, s) ↔ (j 0).val = (32 * i.val + 16 * c.val + t.val) / 64 ∧ (j 1).val = s.val ∧ (j 2).val = (32 * i.val + 16 * c.val + t.val) % 64 := by
  match s with
  | 0 => rw [rowSet_zero, mem_oZ, rowOf_coordsK]; rfl
  | 1 => rw [rowSet_one, mem_oC, rowOf_coordsK]; rfl

theorem rowSet_disjoint : ∀ p ∈ (Finset.univ : Finset (RowIx F)), ∀ p' ∈ (Finset.univ : Finset (RowIx F)), p ≠ p' → Disjoint (rowSet p) (rowSet p') := by
  rintro ⟨c, i, t, s⟩ - ⟨c', i', t', s'⟩ - hne
  refine Finset.disjoint_left.mpr fun j h h' => hne ?_
  rw [mem_rowSet] at h h'
  obtain ⟨a0, a1, a2⟩ := h
  obtain ⟨b0, b1, b2⟩ := h'
  have hc : c.val < 2 := c.isLt
  have hc' : c'.val < 2 := c'.isLt
  have hi : i.val < 16 := i.isLt
  have hi' : i'.val < 16 := i'.isLt
  have ht : t.val < 16 := trips_eq ▸ t.isLt
  have ht' : t'.val < 16 := trips_eq ▸ t'.isLt
  have e1 : c = c' := Fin.ext (by omega)
  have e2 : i = i' := Fin.ext (by omega)
  have e3 : t = t' := Fin.ext (by omega)
  have e4 : s = s' := Fin.ext (by omega)
  rw [e1, e2, e3, e4]

theorem rowSet_cover : (Finset.univ : Finset (RowIx F)).biUnion rowSet = (Finset.univ : Finset S8x2x64x4096.Idx) := by
  ext j
  simp only [Finset.mem_biUnion, Finset.mem_univ, true_and, iff_true]
  have h0 : (j 0).val < 8 := (j 0).isLt
  have h1 : (j 1).val < 2 := (j 1).isLt
  have h2 : (j 2).val < 64 := (j 2).isLt
  refine ⟨(⟨((64 * (j 0).val + (j 2).val) / 16) % 2, by show _ < 2; omega⟩, ⟨(64 * (j 0).val + (j 2).val) / 32, by show _ < 16; omega⟩,
    ⟨(64 * (j 0).val + (j 2).val) % 16, by rw [trips_eq]; omega⟩, ⟨(j 1).val, h1⟩), ?_⟩
  rw [mem_rowSet]
  dsimp only
  omega

/-- The whole output array is its 1024 rows, grouped by SparseCore and tile as the call hands them out. -/
theorem oPts_rows (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => oRows d (coordsK c i) f := by
  rw [show (oLoc d ↦{fullShare} f : sProp 𝕄) = oLoc d ↦[(Finset.univ : Finset (RowIx F)).biUnion rowSet]{fullShare} f from by rw [rowSet_cover],
    pointsTo_biUnion Finset.univ (ℓ := oLoc d) rowSet rowSet_disjoint, bigSep_univ_prod]
  refine bigSep_congr fun c _ => ?_
  rw [bigSep_univ_prod]
  refine bigSep_congr fun i _ => ?_
  unfold oRows
  rw [bigSep_univ_prod, ← bigSep_sep']
  refine bigSep_congr fun t _ => ?_
  rw [bigSep_univ_two, rowSet_zero, rowSet_one]

/-! ## The read shares: 32 tokens, one per tile -/

/-- Tile `(c, i)` has number `2 i + c`: a bijection onto the 32 tokens. -/
def widEquiv : Fin ((K (F := F)).nCore 0) × Fin ((K (F := F)).nSub 0) ≃ Fin 32 where
  toFun p := wid (coordsK p.1 p.2)
  invFun w := (⟨w.val % 2, by show _ < 2; omega⟩, ⟨w.val / 2, by show _ < 16; have := w.isLt; omega⟩)
  left_inv p := by
    obtain ⟨c, i⟩ := p
    have hc : c.val < 2 := c.isLt
    have hw : (wid (coordsK c i)).val = i.val * 2 + c.val := rfl
    refine Prod.ext (Fin.ext ?_) (Fin.ext ?_)
    · show (wid (coordsK c i)).val % 2 = c.val; omega
    · show (wid (coordsK c i)).val / 2 = i.val; omega
  right_inv w := by
    refine Fin.ext ?_
    show (w.val / 2) * 2 + w.val % 2 = w.val
    omega

theorem toks_reindex (Ψ : Fin 32 → sProp 𝕄) :
    (bigSep Finset.univ fun c : Fin ((K (F := F)).nCore 0) => bigSep Finset.univ fun i : Fin ((K (F := F)).nSub 0) => Ψ (wid (coordsK c i)))
      = bigSep Finset.univ Ψ := by
  rw [bigSep_univ_equiv (widEquiv (F := F)) Ψ, bigSep_univ_prod]; rfl

/-- The 32 read tokens of an array. -/
abbrev TOK (ℓ : Loc nD τ sig) (g : Buf (Elt F) ℓ) : sProp 𝕄 := bigSep Finset.univ fun w : Fin 32 => ℓ ↦{shareTok fullShare 32 w} g

/-- What the two SparseCores' 32 tiles hold between them: every token of the index list and of the two staged tables,
    and the output array whole. -/
theorem tiles_eq (d : Dev nD) (f : Buf (Elt F) (oLoc d)) :
    (bigSep Finset.univ fun c : Fin ((K (F := F)).nCore 0) => bigSep Finset.univ fun i : Fin ((K (F := F)).nSub 0) => tileGo m d (coordsK c i) f)
      = iprop(TOK (iLoc d) (m (iLoc d)) ∗ TOK (zTLoc d) (zTv m d) ∗ TOK (lTLoc d) (lTv m d) ∗ oLoc d ↦{fullShare} f) := by
  unfold tileGo
  simp only [bigSep_sep']
  rw [toks_reindex (F := F) (fun w => iLoc d ↦{shareTok fullShare 32 w} m (iLoc d)),
    toks_reindex (F := F) (fun w => zTLoc d ↦{shareTok fullShare 32 w} zTv m d),
    toks_reindex (F := F) (fun w => lTLoc d ↦{shareTok fullShare 32 w} lTv m d), ← oPts_rows]

theorem tileTd_eq (d : Dev nD) (L : grid0.Coords) : tileTd m d L = tileGo m d L (stagedv m d) := rfl

/-- What the call takes and what it hands back, over the payloads. -/
theorem P_st (d : Dev nD) (c : Fin ((K (F := F)).nCore 0)) :
    (P m).st 0 d c = bigSep Finset.univ fun i : Fin ((K (F := F)).nSub 0) => tileGo m d (coordsK c i) (m (oLoc d)) := rfl
theorem P_dn (d : Dev nD) (c : Fin ((K (F := F)).nCore 0)) :
    (P m).dn 0 d c = bigSep Finset.univ fun i : Fin ((K (F := F)).nSub 0) => tileGo m d (coordsK c i) (stagedv m d) := rfl
theorem P_go (d : Dev nD) (c : Fin ((K (F := F)).nCore 0)) (i : Fin ((K (F := F)).nSub 0)) :
    (P m).go 0 d c i = tileGo m d (coordsK c i) (m (oLoc d)) := rfl
theorem P_td (d : Dev nD) (c : Fin ((K (F := F)).nCore 0)) (i : Fin ((K (F := F)).nSub 0)) :
    (P m).td 0 d c i = tileGo m d (coordsK c i) (stagedv m d) := rfl

theorem st0_eq (d : Dev nD) : (bigSep Finset.univ fun c : Fin ((K (F := F)).nCore 0) => (P m).st 0 d c)
    = iprop(TOK (iLoc d) (m (iLoc d)) ∗ TOK (zTLoc d) (zTv m d) ∗ TOK (lTLoc d) (lTv m d) ∗ oLoc d ↦{fullShare} m (oLoc d)) := by
  rw [← tiles_eq]; exact bigSep_congr fun c _ => P_st m d c
theorem dn0_eq (d : Dev nD) : (bigSep Finset.univ fun c : Fin ((K (F := F)).nCore 0) => (P m).dn 0 d c)
    = iprop(TOK (iLoc d) (m (iLoc d)) ∗ TOK (zTLoc d) (zTv m d) ∗ TOK (lTLoc d) (lTv m d) ∗ oLoc d ↦{fullShare} stagedv m d) := by
  rw [← tiles_eq]; exact bigSep_congr fun c _ => P_dn m d c

/-- A SparseCore's operands are its tiles', and its results theirs: nothing to split. -/
theorem vecSplit : (K (F := F)).VecSplit' (P m) 0 := by
  intro d c
  rw [P_st, P_dn, bigSep_congr fun i _ => P_go m d c i, bigSep_congr fun i _ => P_td m d c i]
  iintro H; imodintro
  isplitl [H]; · iexact H
  iintro H; iexact H

end Cert.Proof.Kernel

end
-- ==== Proof.Kernel.Launch.lean ====
/-
  The launch, second part: the launch element of the ghost state, @main on the TensorCore — the two tables staged by
  a transpose and a reshape each, the one SparseCore call over the shares and rows of the first part, the result
  transposed —, how the final memory reads the claim, and the program's run from the tile's obligation.
-/
import proofs.«205357_g36507222016157_cont_8to1_b_501_45_alg».proof.Proof.Kernel.Setup
import proofs.«205357_g36507222016157_cont_8to1_b_501_45_alg».proof.Proof.Kernel.LaunchRows
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element of the ghost state: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P (F := F) m).x q thr = iprop(emp) := rfl

theorem Px_all : (bigSep Finset.univ fun thr : Thread nD τ => bigSep Finset.univ fun q : Fin 1 => (P (F := F) m).x q thr) = (iprop(emp) : sProp 𝕄) := by
  rw [bigSep_congr fun thr _ => (bigSep_congr fun q _ => P_x m q thr).trans (bigSep_emp' _), bigSep_emp']

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [Px_all]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The five host operations: a table's axes exchanged, its first two axes merged, the same for the second table; after
    the call, the output array's last axis moved to second place. -/
abbrev opZ0 : HloOp τ sig (Elt F) :=
  StableHlo.unary main_arg1 main_v0 ((transpose S8x64x100000 [0, 2, 1] · transposes_S8x100000x64_S8x64x100000_0_2_1) : (⟨S8x100000x64, .f32⟩ : BufTy).Contents (Elt F) → (⟨S8x64x100000, .f32⟩ : BufTy).Contents (Elt F))
abbrev opZT : HloOp τ sig (Elt F) := StableHlo.reshape main_v0 main_v1 rfl shapeCasts_S8x64x100000_S512x100000
abbrev opL0 : HloOp τ sig (Elt F) :=
  StableHlo.unary main_arg2 main_v2 ((transpose S8x64x100000 [0, 2, 1] · transposes_S8x100000x64_S8x64x100000_0_2_1) : (⟨S8x100000x64, .f32⟩ : BufTy).Contents (Elt F) → (⟨S8x64x100000, .f32⟩ : BufTy).Contents (Elt F))
abbrev opLT : HloOp τ sig (Elt F) := StableHlo.reshape main_v2 main_v3 rfl shapeCasts_S8x64x100000_S512x100000
abbrev opR : HloOp τ sig (Elt F) :=
  StableHlo.unary main_v4 main_v5 ((transpose S8x4096x2x64 [0, 3, 1, 2] · transposes_S8x2x64x4096_S8x4096x2x64_0_3_1_2) : (⟨S8x2x64x4096, .f32⟩ : BufTy).Contents (Elt F) → (⟨S8x4096x2x64, .f32⟩ : BufTy).Contents (Elt F))

/-- The TensorCore's arrays, all unscoped. -/
abbrev S9 : Finset (DevRef τ sig) := {a0', a1', a2', v0', v1', v2', v3', v4', v5'}
/-- The two arrays of the last operation. -/
abbrev S2 : Finset (DevRef τ sig) := {v4', v5'}

omit [FloatOps F] in
theorem held_S9 (d : Dev nD) (W : Valuation τ sig (Elt F)) :
    (held (T d) S9 W : sProp 𝕄) = iprop((iLoc d ↦{fullShare} W a0') ∗ (zLoc d ↦{fullShare} W a1') ∗ (lLoc d ↦{fullShare} W a2') ∗ (z0Loc d ↦{fullShare} W v0')
      ∗ (zTLoc d ↦{fullShare} W v1') ∗ (l0Loc d ↦{fullShare} W v2') ∗ (lTLoc d ↦{fullShare} W v3') ∗ (oLoc d ↦{fullShare} W v4') ∗ rLoc d ↦{fullShare} W v5') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v4') ∗ rLoc d ↦{fullShare} W v5') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (zLoc d ↦{fullShare} W main_arg1) ∗ (lLoc d ↦{fullShare} W main_arg2) ∗ (z0Loc d ↦{fullShare} W main_v0)
      ∗ (zTLoc d ↦{fullShare} W main_v1) ∗ (l0Loc d ↦{fullShare} W main_v2) ∗ (lTLoc d ↦{fullShare} W main_v3) ∗ (oLoc d ↦{fullShare} W main_v4) ∗ rLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch valuation, and the valuation after the four operations before the call. -/
def V0 (d : Dev nD) : Valuation τ sig (Elt F) := fun b => m (d, b)
abbrev V1 (d : Dev nD) : Valuation τ sig (Elt F) := (opZ0 (F := F)).result (V0 m d)
abbrev V2 (d : Dev nD) : Valuation τ sig (Elt F) := (opZT (F := F)).result (V1 m d)
abbrev V3 (d : Dev nD) : Valuation τ sig (Elt F) := (opL0 (F := F)).result (V2 m d)
abbrev V4 (d : Dev nD) : Valuation τ sig (Elt F) := (opLT (F := F)).result (V3 m d)
/-- Before the last operation: the output array at what the call left. -/
def V5 (d : Dev nD) : Valuation τ sig (Elt F) := Function.update (V0 m d) v4' (stagedv m d)

theorem unscoped_held (d : Dev nD) : (unscopedBufs d (fun b => m ((SparseCore.T d).loc b)) : sProp 𝕄) = held (T d) S9 (V0 m d) := by
  rw [unscopedBufs_eq, held_S9]; rfl

/-- The transposed tables, which the call does not read. -/
def z0v (d : Dev nD) : FVec F S8x64x100000 .f32 := transpose S8x64x100000 [0, 2, 1] (m (zLoc d)) transposes_S8x100000x64_S8x64x100000_0_2_1
def l0v (d : Dev nD) : FVec F S8x64x100000 .f32 := transpose S8x64x100000 [0, 2, 1] (m (lLoc d)) transposes_S8x100000x64_S8x64x100000_0_2_1

theorem V4_a0 (d : Dev nD) : V4 m d a0' = m (iLoc d) := by
  unfold V4 V3 V2 V1
  rw [StableHlo.reshape_result_ne (r := main_arg0) (y := main_v3) (h := by decide), StableHlo.unary_result_ne (r := main_arg0) (y := main_v2) (h := by decide), StableHlo.reshape_result_ne (r := main_arg0) (y := main_v1) (h := by decide), StableHlo.unary_result_ne (r := main_arg0) (y := main_v0) (h := by decide)]; rfl
theorem V4_a1 (d : Dev nD) : V4 m d a1' = m (zLoc d) := by
  unfold V4 V3 V2 V1
  rw [StableHlo.reshape_result_ne (r := main_arg1) (y := main_v3) (h := by decide), StableHlo.unary_result_ne (r := main_arg1) (y := main_v2) (h := by decide), StableHlo.reshape_result_ne (r := main_arg1) (y := main_v1) (h := by decide), StableHlo.unary_result_ne (r := main_arg1) (y := main_v0) (h := by decide)]; rfl
theorem V4_a2 (d : Dev nD) : V4 m d a2' = m (lLoc d) := by
  unfold V4 V3 V2 V1
  rw [StableHlo.reshape_result_ne (r := main_arg2) (y := main_v3) (h := by decide), StableHlo.unary_result_ne (r := main_arg2) (y := main_v2) (h := by decide), StableHlo.reshape_result_ne (r := main_arg2) (y := main_v1) (h := by decide), StableHlo.unary_result_ne (r := main_arg2) (y := main_v0) (h := by decide)]; rfl
theorem V4_v4 (d : Dev nD) : V4 m d v4' = m (oLoc d) := by
  unfold V4 V3 V2 V1
  rw [StableHlo.reshape_result_ne (r := main_v4) (y := main_v3) (h := by decide), StableHlo.unary_result_ne (r := main_v4) (y := main_v2) (h := by decide), StableHlo.reshape_result_ne (r := main_v4) (y := main_v1) (h := by decide), StableHlo.unary_result_ne (r := main_v4) (y := main_v0) (h := by decide)]; rfl
theorem V4_v5 (d : Dev nD) : V4 m d v5' = m (rLoc d) := by
  unfold V4 V3 V2 V1
  rw [StableHlo.reshape_result_ne (r := main_v5) (y := main_v3) (h := by decide), StableHlo.unary_result_ne (r := main_v5) (y := main_v2) (h := by decide), StableHlo.reshape_result_ne (r := main_v5) (y := main_v1) (h := by decide), StableHlo.unary_result_ne (r := main_v5) (y := main_v0) (h := by decide)]; rfl
theorem V4_v0 (d : Dev nD) : V4 m d v0' = z0v m d := by
  unfold V4 V3 V2 V1
  rw [StableHlo.reshape_result_ne (r := main_v0) (y := main_v3) (h := by decide), StableHlo.unary_result_ne (r := main_v0) (y := main_v2) (h := by decide), StableHlo.reshape_result_ne (r := main_v0) (y := main_v1) (h := by decide), StableHlo.unary_result]; rfl
theorem V4_v1 (d : Dev nD) : V4 m d v1' = zTv m d := by
  unfold V4 V3 V2 V1
  rw [StableHlo.reshape_result_ne (r := main_v1) (y := main_v3) (h := by decide), StableHlo.unary_result_ne (r := main_v1) (y := main_v2) (h := by decide), StableHlo.reshape_result, StableHlo.unary_result]; rfl
theorem V4_v2 (d : Dev nD) : V4 m d v2' = l0v m d := by
  unfold V4 V3 V2 V1
  rw [StableHlo.reshape_result_ne (r := main_v2) (y := main_v3) (h := by decide), StableHlo.unary_result, StableHlo.reshape_result_ne (r := main_arg2) (y := main_v1) (h := by decide), StableHlo.unary_result_ne (r := main_arg2) (y := main_v0) (h := by decide)]; rfl
theorem V4_v3 (d : Dev nD) : V4 m d v3' = lTv m d := by
  unfold V4 V3 V2 V1
  rw [StableHlo.reshape_result, StableHlo.unary_result, StableHlo.reshape_result_ne (r := main_arg2) (y := main_v1) (h := by decide), StableHlo.unary_result_ne (r := main_arg2) (y := main_v0) (h := by decide)]; rfl

theorem held_V4 (d : Dev nD) :
    (held (T d) S9 (V4 m d) : sProp 𝕄) = iprop((iLoc d ↦{fullShare} m (iLoc d)) ∗ (zLoc d ↦{fullShare} m (zLoc d)) ∗ (lLoc d ↦{fullShare} m (lLoc d)) ∗ (z0Loc d ↦{fullShare} z0v m d)
      ∗ (zTLoc d ↦{fullShare} zTv m d) ∗ (l0Loc d ↦{fullShare} l0v m d) ∗ (lTLoc d ↦{fullShare} lTv m d) ∗ (oLoc d ↦{fullShare} m (oLoc d)) ∗ rLoc d ↦{fullShare} m (rLoc d)) := by
  rw [held_S9, V4_a0, V4_a1, V4_a2, V4_v0, V4_v1, V4_v2, V4_v3, V4_v4, V4_v5]

theorem V5_o (d : Dev nD) : V5 m d v4' = stagedv m d := Function.update_self _ _ _
theorem V5_r (d : Dev nD) : V5 m d v5' = m (rLoc d) := Function.update_of_ne (show v5' ≠ v4' by decide) _ _

theorem held_R (d : Dev nD) :
    (held (T d) S2 ((opR (F := F)).result (V5 m d)) : sProp 𝕄)
      = iprop((oLoc d ↦{fullShare} stagedv m d) ∗ rLoc d ↦{fullShare} transpose S8x4096x2x64 [0, 3, 1, 2] (stagedv m d) transposes_S8x2x64x4096_S8x4096x2x64_0_3_1_2) := by
  rw [held_S2, StableHlo.unary_result, StableHlo.unary_result_ne (r := main_v4) (y := main_v5) (h := by decide), V5_o]

theorem hZ0 : (opZ0 (F := F)).bufs ⊆ S9 := show ({a1', v0'} : Finset (DevRef τ sig)) ⊆ S9 by decide
theorem hZT : (opZT (F := F)).bufs ⊆ S9 := show ({v0', v1'} : Finset (DevRef τ sig)) ⊆ S9 by decide
theorem hL0 : (opL0 (F := F)).bufs ⊆ S9 := show ({a2', v2'} : Finset (DevRef τ sig)) ⊆ S9 by decide
theorem hLT : (opLT (F := F)).bufs ⊆ S9 := show ({v2', v3'} : Finset (DevRef τ sig)) ⊆ S9 by decide
theorem hR : (opR (F := F)).bufs ⊆ S2 := show ({v4', v5'} : Finset (DevRef τ sig)) ⊆ S2 by decide

/-- What @main leaves the claim: the result array at the transposed specification, the three arguments as launched. -/
abbrev FIN (d : Dev nD) : sProp 𝕄 :=
  iprop((rLoc d ↦{fullShare} transpose S8x4096x2x64 [0, 3, 1, 2] (stagedv m d) transposes_S8x2x64x4096_S8x4096x2x64_0_3_1_2)
    ∗ (iLoc d ↦{fullShare} m (iLoc d)) ∗ (zLoc d ↦{fullShare} m (zLoc d)) ∗ lLoc d ↦{fullShare} m (lLoc d))

/-- @main on device `d`'s TensorCore: the two tables staged; the call, handed every token of the index list and of the
    staged tables and the output array whole, which comes back at the specification; the result transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four operations before the call
  iapply (wp_hlo_within 𝒱 (SparseCore.T d) none Set.univ (op := opZ0) (S := S9) hZ0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opZT) (S := S9) hZT) $$ [Hb Hheld]
  · isplitl [Hb]; · iexact Hb
    iexact Hheld
  iintro ⟨Hb, Hheld⟩
  rw [wp_ret]; imodintro
  iapply (wp_hlo_within 𝒱 (SparseCore.T d) none Set.univ (op := opL0) (S := S9) hL0) $$ [Hb Hheld]
  · isplitl [Hb]; · iexact Hb
    iexact Hheld
  iintro ⟨Hb, Hheld⟩
  rw [wp_ret]; imodintro
  iapply (wp_hlo_within 𝒱 (SparseCore.T d) none Set.univ (op := opLT) (S := S9) hLT) $$ [Hb Hheld]
  · isplitl [Hb]; · iexact Hb
    iexact Hheld
  iintro ⟨Hb, Hheld⟩
  rw [wp_ret]; imodintro
  ihave Hh := (Entails.of_eq (held_V4 m d)) $$ Hheld
  icases Hh with ⟨Hi, Hz, Hl, -, HzT, -, HlT, Ho, Hr⟩
  -- the read shares: 32 tokens of each array read, the remainder of the index list kept aside
  ihave Hi' := (Transfers.pointsTo_toks_split fullShare 32) $$ Hi
  icases Hi' with ⟨Hir, Hit⟩
  ihave HzT' := (Transfers.pointsTo_toks_split fullShare 32) $$ HzT
  icases HzT' with ⟨-, Hzt⟩
  ihave HlT' := (Transfers.pointsTo_toks_split fullShare 32) $$ HlT
  icases HlT' with ⟨-, Hlt⟩
  -- the call
  iapply ((K (F := F)).wp_run (D (F := F)) 𝒱 (EH := EH) (P := P m) κ d 0) $$ [Hst Hit Hzt Hlt Ho Hb Hir Hz Hl Hr]
  isplitr; · iexact Hctx
  isplitl [Hst]; · iexact Hst
  isplitl [Hit Hzt Hlt Ho]
  · rw [st0_eq]
    isplitl [Hit]; · iexact Hit
    isplitl [Hzt]; · iexact Hzt
    isplitl [Hlt]; · iexact Hlt
    iexact Ho
  iintro ⟨Hst, Hdn⟩
  ihave Hdn' := (Entails.of_eq (dn0_eq m d)) $$ Hdn
  icases Hdn' with ⟨Hit, -, -, Ho⟩
  ihave Hi := (Transfers.pointsTo_toks_join fullShare 32) $$ [Hir Hit]
  · isplitl [Hir]; · iexact Hir
    iexact Hit
  -- the transpose after the call
  iapply (wp_hlo_within 𝒱 (SparseCore.T d) none Set.univ (op := opR) (S := S2) hR (V := V5 m d)) $$ [Hb Ho Hr]
  · isplitl [Hb]; · iexact Hb
    rw [held_S2, V5_o, V5_r]
    isplitl [Ho]; · iexact Ho
    iexact Hr
  iintro ⟨Hb, Hheld⟩
  ihave Hh := (Entails.of_eq (held_R m d)) $$ Hheld
  icases Hh with ⟨-, Hr⟩
  rw [wp_ret]; imodintro; imodintro
  isplitl [Hst]; · iexact Hst
  isplitl [Hr]; · iexact Hr
  isplitl [Hi]; · iexact Hi
  isplitl [Hz]; · iexact Hz
  iexact Hl

/-! ## The final memory -/

def fq (d : Dev nD) (s' : Phys nD τ sig (Elt F)) : Prop :=
  s'.mem.mem (rLoc d) = transpose S8x4096x2x64 [0, 3, 1, 2] (stagedv m d) transposes_S8x2x64x4096_S8x4096x2x64_0_3_1_2
    ∧ s'.mem.mem (iLoc d) = m (iLoc d) ∧ s'.mem.mem (zLoc d) = m (zLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hr, Hi, Hz, Hl⟩, HSI⟩
  ihave H := (persistent_entails_right (SI_pointsTo_agree (st := s') (ℓ := rLoc d) (I := Finset.univ) (q := fullShare)
      (f := transpose S8x4096x2x64 [0, 3, 1, 2] (stagedv m d) transposes_S8x2x64x4096_S8x4096x2x64_0_3_1_2))) $$ [HSI Hr]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := zLoc d) (I := Finset.univ) (q := fullShare) (f := m (zLoc d)))) $$ [HSI Hz]
  · isplitl [HSI] <;> iassumption
  icases H with ⟨%h3, HSI, -⟩
  ihave H := (SI_pointsTo_agree (st := s') (ℓ := lLoc d) (I := Finset.univ) (q := fullShare) (f := m (lLoc d))) $$ [HSI Hl]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- What the run leaves: the result array at the transposed specification over the staged tables, the three arguments unchanged. -/
def QC : PUnit × MemSt nD τ sig (Elt F) → Prop := fun r => ∀ c : Dev nD,
  r.2.mem (rLoc c) = transpose S8x4096x2x64 [0, 3, 1, 2] (stagedv m c) transposes_S8x2x64x4096_S8x4096x2x64_0_3_1_2
    ∧ r.2.mem (iLoc c) = m (iLoc c) ∧ r.2.mem (zLoc c) = m (zLoc c) ∧ r.2.mem (lLoc c) = m (lLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kernel

end
-- ==== Proof.KernelIdeal.Setup.lean ====
/-
  The set-up shared by the tile's proof and the launch: the program as the launch theorem sees it, the ghost state
  (the handshakes' rounds beside the transfers' counters), the arrays of a device, the staged tables, and what the
  one SparseCore call hands every tile and takes back.

  The call runs on 2 SparseCores x 16 tiles. Tile (c, i) has number w = 2 i + c and owns table rows 16 w .. 16 w + 15,
  where row r = 64 * model + coordinate. It reads the index list whole and rows of the two staged tables, and writes,
  for each of its rows r, the two output rows (model, slot 0, coordinate, ·) and (model, slot 1, coordinate, ·).
  So a tile is handed a read share of the index list and of each table, and the 32 output rows it writes outright;
  it hands back the same with the output rows at the specification.
-/
import proofs.«205357_g36507222016157_cont_8to1_b_501_45_alg».proof.Proof.Gen.KernelIdeal
import proofs.«205357_g36507222016157_cont_8to1_b_501_45_alg».proof.Proof.Gen.KernelIdeal.Skeleton
import proofs.«205357_g36507222016157_cont_8to1_b_501_45_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of a device -/

variable (m : (ℓ : Loc nD τ sig) → Buf (Elt F) ℓ) (ρ : Dev nD → PrngReg)

/-- The index list, the two tables as given, their transposes, the staged tables, the kernel's output, the result. -/
abbrev iLoc (d : Dev nD) : Loc nD τ sig := (SparseCore.T d).loc main_arg0
abbrev zLoc (d : Dev nD) : Loc nD τ sig := (SparseCore.T d).loc main_arg1
abbrev lLoc (d : Dev nD) : Loc nD τ sig := (SparseCore.T d).loc main_arg2
abbrev z0Loc (d : Dev nD) : Loc nD τ sig := (SparseCore.T d).loc main_v0
abbrev zTLoc (d : Dev nD) : Loc nD τ sig := (SparseCore.T d).loc main_v1
abbrev l0Loc (d : Dev nD) : Loc nD τ sig := (SparseCore.T d).loc main_v2
abbrev lTLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- A staged table: axes 1 and 2 exchanged, then the first two axes merged, one row per (model, coordinate). -/
def stage (x : FVec F S8x100000x64 .f32) : FVec F S512x100000 .f32 :=
  shapeCast S512x100000 (transpose S8x64x100000 [0, 2, 1] x transposes_S8x100000x64_S8x64x100000_0_2_1) shapeCasts_S8x64x100000_S512x100000

/-- The staged tables of device `d` and the index list, from the launch memory. -/
def zTv (d : Dev nD) : FVec F S512x100000 .f32 := stage (m (zLoc d))
def lTv (d : Dev nD) : FVec F S512x100000 .f32 := stage (m (lLoc d))
def idxv (d : Dev nD) : IVec S4096 32 := m (iLoc d)

variable [FloatOps F]

/-- What the kernel leaves in its output array: the specification over the staged tables. -/
def stagedv (d : Dev nD) : FVec F S8x2x64x4096 .f32 := Cert.Spec.staged (idxv m d) (zTv m d) (lTv m d)

/-! ## A tile's coordinates, number and output rows -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem bound_zero : grid0.bound 0 = 2 := rfl
omit [FloatOps F] in
theorem bound_one : grid0.bound 1 = 16 := rfl

/-- The tile's number: 2 * subcore + core; it owns table rows 16 * number .. 16 * number + 15. -/
def wid (L : grid0.Coords) : Fin 32 := ⟨(L 1).val * 2 + (L 0).val, by have h0 : (L 0).val < 2 := (L 0).isLt; have h1 : (L 1).val < 16 := (L 1).isLt; omega⟩

/-- The output rows trip `t` of tile `L` writes, as the program slices them: slot 0 and slot 1 of table row 16 w + t. -/
abbrev oZ (L : grid0.Coords) (t : Fin k0_t1_loop.trips) : Memref sig .scVector .hbm S4096 .f32 :=
  ((Memref.whole main_v4_scv : Memref sig .scVector .hbm S8x2x64x4096 .f32).slice (Rect.unit (s := S8x2x64x4096) (k0_off5 L t) S1x1x1x4096.size (k0_off5_inb L t)) (fun _ => rfl)).squeeze S4096 squeezes_S1x1x1x4096_S4096
abbrev oC (L : grid0.Coords) (t : Fin k0_t1_loop.trips) : Memref sig .scVector .hbm S4096 .f32 :=
  ((Memref.whole main_v4_scv : Memref sig .scVector .hbm S8x2x64x4096 .f32).slice (Rect.unit (s := S8x2x64x4096) (k0_off8 L t) S1x1x1x4096.size (k0_off8_inb L t)) (fun _ => rfl)).squeeze S4096 squeezes_S1x1x1x4096_S4096

/-- The output-row offsets in closed form: table row r = 32 * subcore + 16 * core + trip sits at model r / 64,
    coordinate r % 64. -/
theorem k0_off2_eq : ∀ i : grid0.Coords, k0_off2 i = ![(32 * (i 1).val + 16 * (i 0).val) / 64, 0, (32 * (i 1).val + 16 * (i 0).val) % 64, 0] := by decide +kernel
theorem k0_off3_eq : ∀ i : grid0.Coords, k0_off3 i = ![(32 * (i 1).val + 16 * (i 0).val) / 64, 1, (32 * (i 1).val + 16 * (i 0).val) % 64, 0] := by decide +kernel
theorem k0_off5_eq : ∀ (i : grid0.Coords) (t : Fin k0_t1_loop.trips), k0_off5 i t = ![(32 * (i 1).val + 16 * (i 0).val + t.val) / 64, 0, (32 * (i 1).val + 16 * (i 0).val + t.val) % 64, 0] := by decide +kernel
theorem k0_off8_eq : ∀ (i : grid0.Coords) (t : Fin k0_t1_loop.trips), k0_off8 i t = ![(32 * (i 1).val + 16 * (i 0).val + t.val) / 64, 1, (32 * (i 1).val + 16 * (i 0).val + t.val) % 64, 0] := by decide +kernel

/-! ## What the call hands a tile, and takes back -/

/-- Tile `L`'s read shares: the index list and the two staged tables, each whole, at the tile's own share. -/
abbrev iTok (d : Dev nD) (L : grid0.Coords) : sProp 𝕄 := iLoc d ↦{shareTok fullShare 32 (wid L)} m (iLoc d)
abbrev zTok (d : Dev nD) (L : grid0.Coords) : sProp 𝕄 := zTLoc d ↦{shareTok fullShare 32 (wid L)} zTv m d
abbrev lTok (d : Dev nD) (L : grid0.Coords) : sProp 𝕄 := lTLoc d ↦{shareTok fullShare 32 (wid L)} lTv m d

/-- Tile `L`'s 32 output rows, outright, all at the contents `f`. -/
def oRows (d : Dev nD) (L : grid0.Coords) (f : Buf (Elt F) (oLoc d)) : sProp 𝕄 :=
  iprop((bigSep Finset.univ fun t : Fin k0_t1_loop.trips => oLoc d ↦[(oZ L t).view.set]{fullShare} f)
    ∗ bigSep Finset.univ fun t : Fin k0_t1_loop.trips => oLoc d ↦[(oC L t).view.set]{fullShare} f)

/-- A tile's operands: its shares and its output rows at whatever the output array held at the call. -/
def tileGo (d : Dev nD) (L : grid0.Coords) (f : Buf (Elt F) (oLoc d)) : sProp 𝕄 :=
  iprop(iTok m d L ∗ zTok m d L ∗ lTok m d L ∗ oRows d L f)
/-- A tile's results: the same, the output rows at the specification. -/
def tileTd (d : Dev nD) (L : grid0.Coords) : sProp 𝕄 :=
  iprop(iTok m d L ∗ zTok m d L ∗ lTok m d L ∗ oRows d L (stagedv m d))

/-- The coordinates of the launch theorem's core `c` and subcore `i` of the one call. -/
def coordsK (c : Fin ((K (F := F)).nCore 0)) (i : Fin ((K (F := F)).nSub 0)) : grid0.Coords :=
  coordsV ⟨c.val, c.isLt⟩ ⟨i.val, i.isLt⟩

/-- The call's payloads: a SparseCore is handed its sixteen tiles' operands and hands back their results; the output
    array is taken at its launch contents. -/
def P : (K (F := F)).Pay (nD := nD) (Val := Elt F) (Name := ℕ) (U := UU) where
  st := fun q d c => match q with | 0 => bigSep Finset.univ fun i : Fin ((K (F := F)).nSub 0) => tileGo m d (coordsK c i) (m (oLoc d))
  dn := fun q d c => match q with | 0 => bigSep Finset.univ fun i : Fin ((K (F := F)).nSub 0) => tileTd m d (coordsK c i)
  go := fun q d c i => match q with | 0 => tileGo m d (coordsK c i) (m (oLoc d))
  td := fun q d c i => match q with | 0 => tileTd m d (coordsK c i)
  x := fun _ _ => iprop(emp)

instance P_storable : (P (F := F) m).IsStorable where
  st q d c := match q with | 0 => by unfold P tileGo oRows; dsimp only; infer_instance
  dn q d c := match q with | 0 => by unfold P tileTd oRows; dsimp only; infer_instance
  go q d c i := match q with | 0 => by unfold P tileGo oRows; dsimp only; infer_instance
  td q d c i := match q with | 0 => by unfold P tileTd oRows; dsimp only; infer_instance

/-- The thread of tile `L` on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What the proof asks of the launch memory: every index word names a box. -/
def PreOK : Prop := ∀ (d : Dev nD) (j : S4096.Idx), (idxv m d j).toNat < 100000

end Cert.Proof.KernelIdeal

end
-- ==== Proof.KernelIdeal.Rows.lean ====
/-
  The bookkeeping of a tile's output rows across the trips of its main loop.

  The loop has sixteen trips. Each trip starts the transfer that writes its own output row and waits for the
  transfer the trip before it started; before the loop a priming transfer to the first row is started, which the
  first trip waits for and which delivers nothing of use. So before trip t exactly one row is away with a pending
  transfer (row t - 1, or row 0 when t = 0), the rows j with j + 1 < t hold their final contents, and the rows j
  with max t 1 ≤ j still hold what they held at the launch. The three statements below say how these three groups of
  rows are regrouped before the loop, across one trip, and after the loop. They are generic in the row index sets:
  only the index sets of the groups change, so no disjointness of rows is needed.
-/
import proofs.«205357_g36507222016157_cont_8to1_b_501_45_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} (d : Dev nD)

local notation "𝕄" => MT nD τ sig (HIx 1) (Elt F) ℕ UU ℕ

theorem trips16 : k0_t1_loop.trips = 16 := by decide

/-- the trip whose fetch is pending before trip t (the last trip fetches its own row again) -/
def tr (t : Nat) : Fin k0_t1_loop.trips := ⟨min t 15, by rw [trips16]; omega⟩
/-- the trip whose sends are pending before trip t (before the first trip: the priming sends, to the first trip's rows) -/
def pr (t : Nat) : Fin k0_t1_loop.trips := ⟨min (t - 1) 15, by rw [trips16]; omega⟩
/-- the first trip -/
abbrev t0 : Fin k0_t1_loop.trips := ⟨0, by decide⟩

/-! ## The index sets of the groups -/

/-- A trip's number is below sixteen. -/
private theorem val_lt (j : Fin k0_t1_loop.trips) : j.val < 16 := lt_of_lt_of_eq j.isLt trips16

/-- No row is final before the first trip, nor before the second. -/
private theorem fin_empty (t : Nat) (ht : t ≤ 1) :
    (Finset.univ.filter fun j : Fin k0_t1_loop.trips => j.val + 1 < t) = ∅ := by
  ext j
  simp only [Finset.mem_filter, Finset.mem_univ, true_and, Finset.notMem_empty, iff_false]
  omega

/-- Before the first trip the untouched rows are all rows but the first. -/
private theorem unt_zero :
    (Finset.univ.filter fun j : Fin k0_t1_loop.trips => max 0 1 ≤ j.val) = Finset.univ.erase t0 := by
  ext j
  simp only [Finset.mem_filter, Finset.mem_univ, true_and, Finset.mem_erase, and_true, ne_eq, Fin.ext_iff]
  omega

/-- From the second trip on, the row that comes back joins the final rows. -/
private theorem fin_succ (k : Fin k0_t1_loop.trips) (hk : 1 ≤ k.val) :
    (Finset.univ.filter fun j : Fin k0_t1_loop.trips => j.val + 1 < k.val + 1)
      = insert (pr k.val) (Finset.univ.filter fun j : Fin k0_t1_loop.trips => j.val + 1 < k.val) := by
  have hk16 := val_lt k
  ext j
  simp only [Finset.mem_filter, Finset.mem_univ, true_and, Finset.mem_insert, Fin.ext_iff, pr]
  omega

private theorem pr_notMem_fin (k : Fin k0_t1_loop.trips) (hk : 1 ≤ k.val) :
    pr k.val ∉ (Finset.univ.filter fun j : Fin k0_t1_loop.trips => j.val + 1 < k.val) := by
  have hk16 := val_lt k
  simp only [Finset.mem_filter, Finset.mem_univ, true_and, pr]
  omega

/-- From the second trip on, the trip's own row leaves the untouched rows. -/
private theorem unt_succ (k : Fin k0_t1_loop.trips) (hk : 1 ≤ k.val) :
    (Finset.univ.filter fun j : Fin k0_t1_loop.trips => max k.val 1 ≤ j.val)
      = insert k (Finset.univ.filter fun j : Fin k0_t1_loop.trips => max (k.val + 1) 1 ≤ j.val) := by
  ext j
  simp only [Finset.mem_filter, Finset.mem_univ, true_and, Finset.mem_insert, Fin.ext_iff]
  omega

private theorem self_notMem_unt (k : Fin k0_t1_loop.trips) :
    k ∉ (Finset.univ.filter fun j : Fin k0_t1_loop.trips => max (k.val + 1) 1 ≤ j.val) := by
  simp only [Finset.mem_filter, Finset.mem_univ, true_and]
  omega

/-- In the first trip the untouched rows stay the same rows. -/
private theorem unt_first (k : Fin k0_t1_loop.trips) (hk : k.val = 0) :
    (Finset.univ.filter fun j : Fin k0_t1_loop.trips => max (k.val + 1) 1 ≤ j.val)
      = Finset.univ.filter fun j : Fin k0_t1_loop.trips => max k.val 1 ≤ j.val := by
  ext j
  simp only [Finset.mem_filter, Finset.mem_univ, true_and]
  omega

/-- In the first trip the row that comes back is the trip's own. -/
private theorem pr_first (k : Fin k0_t1_loop.trips) (hk : k.val = 0) : pr k.val = k := by
  apply Fin.ext
  simp only [pr]
  omega

/-- After the last trip the row that comes back completes the rows. -/
private theorem fin_last :
    (Finset.univ : Finset (Fin k0_t1_loop.trips))
      = insert (pr k0_t1_loop.trips) (Finset.univ.filter fun j : Fin k0_t1_loop.trips => j.val + 1 < k0_t1_loop.trips) := by
  have h16 := trips16
  ext j
  have hj := val_lt j
  simp only [Finset.mem_filter, Finset.mem_univ, true_and, Finset.mem_insert, Fin.ext_iff, pr, true_iff]
  omega

private theorem pr_notMem_last :
    pr k0_t1_loop.trips ∉ (Finset.univ.filter fun j : Fin k0_t1_loop.trips => j.val + 1 < k0_t1_loop.trips) := by
  have h16 := trips16
  simp only [Finset.mem_filter, Finset.mem_univ, true_and, pr]
  omega

/-- After the last trip no row is untouched. -/
private theorem unt_last :
    (Finset.univ.filter fun j : Fin k0_t1_loop.trips => max k0_t1_loop.trips 1 ≤ j.val) = ∅ := by
  have h16 := trips16
  ext j
  have hj := val_lt j
  simp only [Finset.mem_filter, Finset.mem_univ, true_and, Finset.notMem_empty, iff_false]
  omega

/-! ## The three regroupings -/

/-- before the loop: every row but the first, untouched, are the rows 'from trip 1 on'; no row is final yet -/
theorem rows_init (Sx : Fin k0_t1_loop.trips → Finset (Idx (oLoc d))) (g0 gs : Buf (Elt F) (oLoc d)) :
    (bigSep (Finset.univ.erase t0) fun j : Fin k0_t1_loop.trips => (oLoc d ↦[Sx j]{fullShare} g0 : sProp 𝕄))
      ⊢ iprop((bigSep (Finset.univ.filter fun j : Fin k0_t1_loop.trips => j.val + 1 < 0) fun j => oLoc d ↦[Sx j]{fullShare} gs)
        ∗ (bigSep (Finset.univ.filter fun j : Fin k0_t1_loop.trips => max 0 1 ≤ j.val) fun j => oLoc d ↦[Sx j]{fullShare} g0)) := by
  rw [fin_empty 0 (by omega), unt_zero, bigSep_empty]
  iintro H
  isplitr
  · iempintro
  · iexact H

/-- one trip -/
theorem rows_step (Sx : Fin k0_t1_loop.trips → Finset (Idx (oLoc d))) (g0 gs : Buf (Elt F) (oLoc d)) (k : Fin k0_t1_loop.trips) :
    iprop((∃ f, ⌜1 ≤ k.val → ∀ j ∈ Sx (pr k.val), f j = gs j⌝ ∗ oLoc d ↦[Sx (pr k.val)]{fullShare} f)
        ∗ (bigSep (Finset.univ.filter fun j : Fin k0_t1_loop.trips => j.val + 1 < k.val) fun j => oLoc d ↦[Sx j]{fullShare} gs)
        ∗ (bigSep (Finset.univ.filter fun j : Fin k0_t1_loop.trips => max k.val 1 ≤ j.val) fun j => oLoc d ↦[Sx j]{fullShare} g0))
      ⊢ (iprop((∃ f, oLoc d ↦[Sx k]{fullShare} f)
        ∗ (bigSep (Finset.univ.filter fun j : Fin k0_t1_loop.trips => j.val + 1 < k.val + 1) fun j => oLoc d ↦[Sx j]{fullShare} gs)
        ∗ (bigSep (Finset.univ.filter fun j : Fin k0_t1_loop.trips => max (k.val + 1) 1 ≤ j.val) fun j => oLoc d ↦[Sx j]{fullShare} g0)) : sProp 𝕄) := by
  by_cases hk : k.val = 0
  · -- the first trip: the priming transfer comes back, to the trip's own row; the two groups are unchanged
    rw [fin_empty k.val (by omega), fin_empty (k.val + 1) (by omega), unt_first k hk, pr_first k hk]
    iintro ⟨⟨%f, -, Hf⟩, HA, HB⟩
    isplitl [Hf]
    · iexists f; iexact Hf
    isplitl [HA]
    · iexact HA
    · iexact HB
  · -- a later trip: the row of the trip before comes back final; the trip's own row goes out
    have hk1 : 1 ≤ k.val := by omega
    rw [fin_succ k hk1, unt_succ k hk1, SparseCore.bigSep_insert' (pr_notMem_fin k hk1), SparseCore.bigSep_insert' (self_notMem_unt k)]
    iintro ⟨⟨%f, %hf, Hf⟩, HA, Hk, HB⟩
    have e : (oLoc d ↦[Sx (pr k.val)]{fullShare} f : sProp 𝕄) ⊢ oLoc d ↦[Sx (pr k.val)]{fullShare} gs :=
      SparseCore.ent (Entails.of_eq (pointsTo_congr (hf hk1)))
    isplitl [Hk]
    · iexists g0; iexact Hk
    isplitl [Hf HA]
    · isplitl [Hf]
      · iapply e; iexact Hf
      · iexact HA
    · iexact HB

/-- after the loop (t = 16): the last row comes back final; all sixteen rows hold the specification -/
theorem rows_final (Sx : Fin k0_t1_loop.trips → Finset (Idx (oLoc d))) (g0 gs : Buf (Elt F) (oLoc d)) :
    iprop((∃ f, ⌜∀ j ∈ Sx (pr k0_t1_loop.trips), f j = gs j⌝ ∗ oLoc d ↦[Sx (pr k0_t1_loop.trips)]{fullShare} f)
        ∗ (bigSep (Finset.univ.filter fun j : Fin k0_t1_loop.trips => j.val + 1 < k0_t1_loop.trips) fun j => oLoc d ↦[Sx j]{fullShare} gs)
        ∗ (bigSep (Finset.univ.filter fun j : Fin k0_t1_loop.trips => max k0_t1_loop.trips 1 ≤ j.val) fun j => oLoc d ↦[Sx j]{fullShare} g0))
      ⊢ (bigSep Finset.univ fun j : Fin k0_t1_loop.trips => (oLoc d ↦[Sx j]{fullShare} gs : sProp 𝕄)) := by
  conv_rhs => rw [fin_last, SparseCore.bigSep_insert' pr_notMem_last]
  iintro ⟨⟨%f, %hf, Hf⟩, HA, -⟩
  have e : (oLoc d ↦[Sx (pr k0_t1_loop.trips)]{fullShare} f : sProp 𝕄) ⊢ oLoc d ↦[Sx (pr k0_t1_loop.trips)]{fullShare} gs :=
    SparseCore.ent (Entails.of_eq (pointsTo_congr hf))
  isplitl [Hf]
  · iapply e; iexact Hf
  · iexact HA

end Cert.Proof.KernelIdeal

end
-- ==== Proof.KernelIdeal.Values.lean ====
/-
  What a transfer lands, read back as a plain function of the arrays.

  A tile (core c, subcore i) at trip t works on table row r = 32 i + 16 c + t. A fetch copies row r of a staged
  table — the one-row slice at (r, 0), its unit axis dropped — over the whole row buffer, so the buffer's entry n is
  the table at (r, n). A send copies a 4096-entry scratch whole over the output's row at (r / 64, slot, r % 64, 0) —
  a one-row slice with its three unit axes dropped —; the specification at (a, slot, c, b) reads table row
  64 a + c, which is r there since 64 (r / 64) + r % 64 = r, at the box of batch entry b. So a scratch holding the
  gathered row (slot 0), or the gathered row plus the exponential of the second table's (slot 1), makes the written
  output row the specification.
-/
import proofs.«205357_g36507222016157_cont_8to1_b_501_45_alg».proof.Proof.KernelIdeal.Setup
import Idealize.ShloMosaic.Lib.Writes
import Idealize.ShloMosaic.Lib.ValueIdx
import Idealize.ShloMosaic.Lib.Pipeline.Value

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.ValueIdx

local notation "zTW" => (Memref.whole Cert.KernelIdeal.main_v1_scv : Memref Cert.KernelIdeal.sig Kind.scVector Space.hbm Cert.KernelIdeal.S512x100000 EltTy.f32)
local notation "lTW" => (Memref.whole Cert.KernelIdeal.main_v3_scv : Memref Cert.KernelIdeal.sig Kind.scVector Space.hbm Cert.KernelIdeal.S512x100000 EltTy.f32)
local notation "iW" => (Memref.whole Cert.KernelIdeal.main_arg0_scv : Memref Cert.KernelIdeal.sig Kind.scVector Space.hbm Cert.KernelIdeal.S4096 EltTy.i32)
local notation "oW" => (Memref.whole Cert.KernelIdeal.main_v4_scv : Memref Cert.KernelIdeal.sig Kind.scVector Space.hbm Cert.KernelIdeal.S8x2x64x4096 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S100000 EltTy.f32)
local notation "sZ" => (Memref.whole Cert.KernelIdeal.cc0_scratch2 : Memref Cert.KernelIdeal.sig Kind.scVector Space.vmem Cert.KernelIdeal.S4096 EltTy.f32)
local notation "sC" => (Memref.whole Cert.KernelIdeal.cc0_scratch3 : Memref Cert.KernelIdeal.sig Kind.scVector Space.vmem Cert.KernelIdeal.S4096 EltTy.f32)

variable {F : FTy → Type} (m : (ℓ : Loc nD τ sig) → Buf (Elt F) ℓ) (d : Dev nD) (L : grid0.Coords)

/-- table row number 32 (L 1) + 16 (L 0) + t -/
def rowNo (L : grid0.Coords) (t : Fin k0_t1_loop.trips) : Fin 512 :=
  ⟨32 * (L 1).val + 16 * (L 0).val + t.val, by
    have h0 : (L 0).val < 2 := (L 0).isLt
    have h1 : (L 1).val < 16 := (L 1).isLt
    have ht : t.val < 16 := lt_of_lt_of_eq t.isLt (by decide)
    omega⟩

/-- a table's row as the row buffer holds it -/
def rowv (tab : FVec F S512x100000 .f32) (r : Fin 512) : Buf (Elt F) ((thr d L).loc cc0_scratch1) :=
  fun n => tab (ix2 (n0 := 512) (n1 := 100000) r ⟨(n 0).val, (n 0).isLt⟩)

abbrev zRow (o : Fin 2 → Nat) (h : ∀ a, o a + S1x100000.size a ≤ S512x100000.size a) : Memref sig .scVector .hbm S100000 .f32 :=
  ((zTW).slice (Rect.unit (s := S512x100000) o S1x100000.size h) (fun _ => rfl)).squeeze S100000 squeezes_S1x100000_S100000
abbrev lRow (o : Fin 2 → Nat) (h : ∀ a, o a + S1x100000.size a ≤ S512x100000.size a) : Memref sig .scVector .hbm S100000 .f32 :=
  ((lTW).slice (Rect.unit (s := S512x100000) o S1x100000.size h) (fun _ => rfl)).squeeze S100000 squeezes_S1x100000_S100000

/-! ## Where a row's entries sit -/

/-- An entry matched with the shape that has one unit axis in front is that entry behind the coordinate 0. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- … and with three unit axes in front, behind three coordinates 0. -/
theorem reshapeEquiv_ix1_111a {a : ℕ} (h : (⟨1, ![a]⟩ : Shape).numel = (⟨4, ![1, 1, 1, a]⟩ : Shape).numel) (x : Fin a) :
    Shape.reshapeEquiv h (ix1 x)
      = ix4 (⟨0, Nat.one_pos⟩ : Fin 1) (⟨0, Nat.one_pos⟩ : Fin 1) (⟨0, Nat.one_pos⟩ : Fin 1) x :=
  Shape.reshapeEquiv_eq_of_rowMajor h (by
    rw [Shape.rowMajor_val_four, Shape.rowMajor_val_one]
    show ((0 * 1 + 0) * 1 + 0) * a + x.val = x.val
    simp only [Nat.zero_mul, Nat.zero_add, Nat.mul_one])

/-- the index list's copy lands the index list -/
theorem idx_lands (fI : Buf (Elt F) ((thr d L).loc cc0_scratch0)) :
    View.write (Elt F) (sI).view fI (ReadAs.same.apply (View.read (Elt F) (iW).view (m (iLoc d)))) Finset.univ
      = (idxv m d : Buf (Elt F) ((thr d L).loc cc0_scratch0)) :=
  View.write_whole_univ _ _ _

/-- A table's one-row slice at (r, 0) with its unit axis dropped places entry n at (r, n). -/
theorem row_emb (M : Memref sig .scVector .hbm S512x100000 .f32) (o : Fin 2 → Nat)
    (h : ∀ a, o a + S1x100000.size a ≤ S512x100000.size a) (r : Fin 512) (ho : o = ![r.val, 0]) (x : Fin 100000) :
    (Rect.unit (s := S512x100000) o S1x100000.size h).emb
        (Shape.reshapeEquiv squeezes_S1x100000_S100000.numel_eq (ix1 x))
      = ix2 (n0 := 512) (n1 := 100000) r x := by
  subst ho
  rw [reshapeEquiv_ix1_1a]
  funext a
  refine Fin.ext ?_
  rw [Rect.emb_apply]
  match a with
  | ⟨0, _⟩ => show r.val + 1 * 0 = r.val; omega
  | ⟨1, _⟩ => show 0 + 1 * x.val = x.val; omega

/-- a fetch lands the table's row, whatever the row buffer held -/
theorem fetch_z (tab : FVec F S512x100000 .f32) (o : Fin 2 → Nat) (h : ∀ a, o a + S1x100000.size a ≤ S512x100000.size a)
    (r : Fin 512) (ho : o = ![r.val, 0]) (prev : Buf (Elt F) ((thr d L).loc cc0_scratch1)) :
    View.write (Elt F) (sB).view prev (ReadAs.same.apply (View.read (Elt F) (zRow o h).view tab)) Finset.univ
      = rowv d L tab r := by
  refine (View.write_whole_univ _ _ _).trans ?_
  funext n
  obtain ⟨x, rfl⟩ : ∃ x : Fin 100000, n = ix1 x := ⟨n 0, eq_ix1 n⟩
  show tab ((Rect.unit (s := S512x100000) o S1x100000.size h).emb
      (Shape.reshapeEquiv squeezes_S1x100000_S100000.numel_eq (ix1 x))) = _
  rw [row_emb zTW o h r ho x]
  rfl

theorem fetch_l (tab : FVec F S512x100000 .f32) (o : Fin 2 → Nat) (h : ∀ a, o a + S1x100000.size a ≤ S512x100000.size a)
    (r : Fin 512) (ho : o = ![r.val, 0]) (prev : Buf (Elt F) ((thr d L).loc cc0_scratch1)) :
    View.write (Elt F) (sB).view prev (ReadAs.same.apply (View.read (Elt F) (lRow o h).view tab)) Finset.univ
      = rowv d L tab r := by
  refine (View.write_whole_univ _ _ _).trans ?_
  funext n
  obtain ⟨x, rfl⟩ : ∃ x : Fin 100000, n = ix1 x := ⟨n 0, eq_ix1 n⟩
  show tab ((Rect.unit (s := S512x100000) o S1x100000.size h).emb
      (Shape.reshapeEquiv squeezes_S1x100000_S100000.numel_eq (ix1 x))) = _
  rw [row_emb lTW o h r ho x]
  rfl

/-! ## Where an output row's entries sit, and what a send leaves there -/

/-- The output's one-row slice at (a, s, c, 0) with its three unit axes dropped places entry b at (a, s, c, b). -/
theorem out_emb (o : Fin 4 → Nat) (h : ∀ a, o a + S1x1x1x4096.size a ≤ S8x2x64x4096.size a)
    (a : Fin 8) (s : Fin 2) (c : Fin 64) (ho : o = ![a.val, s.val, c.val, 0]) (x : Fin 4096) :
    (Rect.unit (s := S8x2x64x4096) o S1x1x1x4096.size h).emb
        (Shape.reshapeEquiv squeezes_S1x1x1x4096_S4096.numel_eq (ix1 x))
      = ix4 (n0 := 8) (n1 := 2) (n2 := 64) (n3 := 4096) a s c x := by
  subst ho
  rw [reshapeEquiv_ix1_111a]
  funext b
  refine Fin.ext ?_
  rw [Rect.emb_apply]
  match b with
  | ⟨0, _⟩ => show a.val + 1 * 0 = a.val; omega
  | ⟨1, _⟩ => show s.val + 1 * 0 = s.val; omega
  | ⟨2, _⟩ => show c.val + 1 * 0 = c.val; omega
  | ⟨3, _⟩ => show 0 + 1 * x.val = x.val; omega

/-- The model and coordinate of a table row. -/
def rowModel (r : Fin 512) : Fin 8 := ⟨r.val / 64, by have := r.isLt; omega⟩
def rowCoord (r : Fin 512) : Fin 64 := ⟨r.val % 64, by omega⟩

/-- Row 64 a + c of a staged table is the row of model a and coordinate c. -/
theorem tableRow_row (r : Fin 512) : Cert.Spec.tableRow (rowModel r) (rowCoord r) = r :=
  Fin.ext (Nat.div_add_mod' r.val 64)

/-- What one whole-scratch write through a one-row view leaves at the row's entry b: the scratch's entry b. -/
theorem writes_whole_emb (M : Memref sig .scVector .hbm S4096 .f32) (f : M.view.ty.Contents (Elt F))
    (w : S4096.Idx → Elt F .f32) (y : S4096.Idx) :
    M.view.writes (Elt F) f [⟨Rect.whole S4096, w⟩] (M.view.emb y)
      = _root_.cast (congrArg (Elt F) M.view.elt_eq.symm) (w y) := by
  rw [View.writes_singleton]
  have he : (M.view.slice (Rect.whole S4096)).emb y = M.view.emb y := congrArg M.view.emb (Rect.emb_whole_apply S4096 y)
  rw [← he]
  exact View.write_emb_of_mem _ _ (Finset.mem_univ _)

variable [FloatOps F]

/-- a send of the gathered first row makes output row (r, slot 0) the specification -/
theorem send_z (k : Fin k0_t1_loop.trips) (fz : Buf (Elt F) (oLoc d)) (gz : Buf (Elt F) ((thr d L).loc cc0_scratch2))
    (hgz : ∀ b : S4096.Idx, gz b = zTv m d (ix2 (n0 := 512) (n1 := 100000) (rowNo L k) (Cert.Spec.box (idxv m d) ⟨(b 0).val, (b 0).isLt⟩))) :
    ∀ j ∈ (oZ L k).view.set, (oZ L k).view.writes (Elt F) fz [⟨Rect.whole S4096, ReadAs.same.apply (View.read (Elt F) (sZ).view gz)⟩] j = stagedv m d j := by
  intro j hj
  obtain ⟨y, rfl⟩ := View.exists_emb_of_mem_set _ hj
  obtain ⟨x, rfl⟩ : ∃ x : Fin 4096, y = ix1 x := ⟨y 0, eq_ix1 y⟩
  refine (writes_whole_emb (oZ L k) fz _ (ix1 x)).trans ?_
  have hr : (oZ L k).view.emb (ix1 x)
      = ix4 (n0 := 8) (n1 := 2) (n2 := 64) (n3 := 4096) (rowModel (rowNo L k)) ⟨0, by decide⟩ (rowCoord (rowNo L k)) x :=
    out_emb (k0_off5 L k) (k0_off5_inb L k) _ _ _ (k0_off5_eq L k) x
  rw [hr]
  show gz (ix1 x) = _
  rw [hgz]
  show _ = zTv m d (ix2 (n0 := 512) (n1 := 100000) (Cert.Spec.tableRow (rowModel (rowNo L k)) (rowCoord (rowNo L k))) (Cert.Spec.box (idxv m d) x))
  rw [tableRow_row]

/-- a send of the second row makes output row (r, slot 1) the specification -/
theorem send_c (k : Fin k0_t1_loop.trips) (fc : Buf (Elt F) (oLoc d)) (gc : Buf (Elt F) ((thr d L).loc cc0_scratch3))
    (hgc : ∀ b : S4096.Idx, gc b = FloatOps.addf (zTv m d (ix2 (n0 := 512) (n1 := 100000) (rowNo L k) (Cert.Spec.box (idxv m d) ⟨(b 0).val, (b 0).isLt⟩)))
                                 (FloatOps.exp (lTv m d (ix2 (n0 := 512) (n1 := 100000) (rowNo L k) (Cert.Spec.box (idxv m d) ⟨(b 0).val, (b 0).isLt⟩))))) :
    ∀ j ∈ (oC L k).view.set, (oC L k).view.writes (Elt F) fc [⟨Rect.whole S4096, ReadAs.same.apply (View.read (Elt F) (sC).view gc)⟩] j = stagedv m d j := by
  intro j hj
  obtain ⟨y, rfl⟩ := View.exists_emb_of_mem_set _ hj
  obtain ⟨x, rfl⟩ : ∃ x : Fin 4096, y = ix1 x := ⟨y 0, eq_ix1 y⟩
  refine (writes_whole_emb (oC L k) fc _ (ix1 x)).trans ?_
  have hr : (oC L k).view.emb (ix1 x)
      = ix4 (n0 := 8) (n1 := 2) (n2 := 64) (n3 := 4096) (rowModel (rowNo L k)) ⟨1, by decide⟩ (rowCoord (rowNo L k)) x :=
    out_emb (k0_off8 L k) (k0_off8_inb L k) _ _ _ (k0_off8_eq L k) x
  rw [hr]
  show gc (ix1 x) = _
  rw [hgc]
  show _ = FloatOps.addf
    (zTv m d (ix2 (n0 := 512) (n1 := 100000) (Cert.Spec.tableRow (rowModel (rowNo L k)) (rowCoord (rowNo L k))) (Cert.Spec.box (idxv m d) x)))
    (FloatOps.exp (lTv m d (ix2 (n0 := 512) (n1 := 100000) (Cert.Spec.tableRow (rowModel (rowNo L k)) (rowCoord (rowNo L k))) (Cert.Spec.box (idxv m d) x))))
  rw [tableRow_row]

end Cert.Proof.KernelIdeal

end
-- ==== Proof.KernelIdeal.Gather.lean ====
/-
  The two inner loops of a tile's task, one trip each.

  A tile holds the index list idx (4096 words), a fetched table row rv (100000 floats), the gathered row (4096
  floats) and the second output row (4096 floats). Both loops run over the 256 chunks of sixteen consecutive entries.

  The first loop, at trip k, reads the sixteen index words 16 k .. 16 k + 15, reads the table row at those sixteen
  positions, and writes the sixteen values at entries 16 k .. 16 k + 15 of the gathered row. Before trip k the first
  16 k entries of the gathered row are the table row read at the index list; after it the first 16 (k + 1) are: an
  entry below 16 k is not written by the trip and keeps its value, and entry 16 k + x takes the table row at the word
  idx[16 k + x], which is what the gathered row is to hold there.

  The second loop, at trip k, reads chunk k of the gathered row gz and of the index list, reads the table row at
  those sixteen positions, and writes gz + exp(table row there), lane by lane, at chunk k of the second output row:
  the same argument, with the sum in place of the bare value.

  Every index word is below 100000 (the hypothesis hidx), so each word names a position of the table row, and the
  box the specification selects for a batch entry (the word reduced into the table's range) is the word itself.
-/
import proofs.«205357_g36507222016157_cont_8to1_b_501_45_alg».proof.Proof.KernelIdeal.Setup
import Idealize.ShloMosaic.Lib.SparseCore.Ops
import Idealize.ShloMosaic.Lib.Tactic
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

local notation "zTW" => (Memref.whole Cert.KernelIdeal.main_v1_scv : Memref Cert.KernelIdeal.sig Kind.scVector Space.hbm Cert.KernelIdeal.S512x100000 EltTy.f32)
local notation "lTW" => (Memref.whole Cert.KernelIdeal.main_v3_scv : Memref Cert.KernelIdeal.sig Kind.scVector Space.hbm Cert.KernelIdeal.S512x100000 EltTy.f32)
local notation "iW" => (Memref.whole Cert.KernelIdeal.main_arg0_scv : Memref Cert.KernelIdeal.sig Kind.scVector Space.hbm Cert.KernelIdeal.S4096 EltTy.i32)
local notation "oW" => (Memref.whole Cert.KernelIdeal.main_v4_scv : Memref Cert.KernelIdeal.sig Kind.scVector Space.hbm Cert.KernelIdeal.S8x2x64x4096 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S100000 EltTy.f32)
local notation "sZ" => (Memref.whole Cert.KernelIdeal.cc0_scratch2 : Memref Cert.KernelIdeal.sig Kind.scVector Space.vmem Cert.KernelIdeal.S4096 EltTy.f32)
local notation "sC" => (Memref.whole Cert.KernelIdeal.cc0_scratch3 : Memref Cert.KernelIdeal.sig Kind.scVector Space.vmem Cert.KernelIdeal.S4096 EltTy.f32)

variable (d : Dev nD) (L : grid0.Coords) [FloatOps F]

/-- a row buffer read at the index list: entry b is the row at idx[b] -/
def gath (idx : Buf (Elt F) ((thr d L).loc cc0_scratch0)) (rv : Buf (Elt F) ((thr d L).loc cc0_scratch1)) : Buf (Elt F) ((thr d L).loc cc0_scratch2) :=
  fun b => rv (ValueIdx.ix1 (n := 100000) (Cert.Spec.box idx ⟨(b 0).val, (b 0).isLt⟩))
/-- the second output row: the gathered first row plus the exponential of the gathered second row -/
def capv (gz : Buf (Elt F) ((thr d L).loc cc0_scratch2)) (idx : Buf (Elt F) ((thr d L).loc cc0_scratch0)) (rv : Buf (Elt F) ((thr d L).loc cc0_scratch1)) : Buf (Elt F) ((thr d L).loc cc0_scratch3) :=
  fun b => FloatOps.addf (gz b) (FloatOps.exp (gath d L idx rv b))

/-! ## A chunk of sixteen entries of a list of 4096 -/

omit [FloatOps F] in
/-- Entry `b` lies in the sixteen-entry chunk at offset `off` exactly when its position is one of the sixteen from `off`. -/
private theorem mem_chunk (off : Fin 1 → Nat) (inb : ∀ a, off a + S16.size a ≤ S4096.size a) (b : S4096.Idx) :
    b ∈ (Rect.unit (s := S4096) off S16.size inb).set ↔ off 0 ≤ (b 0).val ∧ (b 0).val < off 0 + 16 := by
  rw [Rect.mem_set_unit]
  constructor
  · intro h; exact h 0
  · intro h a
    obtain rfl : a = 0 := Subsingleton.elim _ _
    exact h

omit [FloatOps F] in
/-- An entry of the chunk is one of its sixteen lanes. -/
private theorem exists_lane (off : Fin 1 → Nat) (inb : ∀ a, off a + S16.size a ≤ S4096.size a) (b : S4096.Idx)
    (h : off 0 ≤ (b 0).val ∧ (b 0).val < off 0 + 16) : ∃ x : S16.Idx, (Rect.unit (s := S4096) off S16.size inb).emb x = b := by
  have hm := (mem_chunk off inb b).2 h
  rw [← Rect.map_emb_univ] at hm
  obtain ⟨x, -, hx⟩ := Finset.mem_map.1 hm
  exact ⟨x, hx⟩

omit [FloatOps F] in
/-- Lane `x` of the chunk at `off` sits at position `off + x`. -/
private theorem lane_val (off : Fin 1 → Nat) (inb : ∀ a, off a + S16.size a ≤ S4096.size a) (x : S16.Idx) :
    (((Rect.unit (s := S4096) off S16.size inb).emb x) 0).val = off 0 + (x 0).val := by
  rw [Rect.emb_apply]
  show off 0 + 1 * (x 0).val = _
  omega

omit [FloatOps F] in
/-- Lane `x` of two chunks starting at one position is one entry of the list. -/
private theorem idx_eq_lane (off6 off7 : Fin 1 → Nat) (inb6 : ∀ a, off6 a + S16.size a ≤ S4096.size a) (inb7 : ∀ a, off7 a + S16.size a ≤ S4096.size a)
    (hoff : off6 0 = off7 0) (x : S16.Idx) :
    (Rect.unit (s := S4096) off6 S16.size inb6).toLoadRect.idx x
      = ValueIdx.ix1 (n := 4096) ⟨((Rect.unit (s := S4096) off7 S16.size inb7).emb x 0).val, ((Rect.unit (s := S4096) off7 S16.size inb7).emb x 0).isLt⟩ := by
  funext a
  obtain rfl : a = 0 := Subsingleton.elim _ _
  apply Fin.ext
  show off6 0 + 1 * (x 0).val = off7 0 + 1 * (x 0).val
  rw [hoff]

omit [FloatOps F] in
/-- Lane `x` of two chunks starting at one position is one entry of the list (the second chunk's own lane). -/
private theorem idx_eq_emb (off9 off10 : Fin 1 → Nat) (inb9 : ∀ a, off9 a + S16.size a ≤ S4096.size a) (inb10 : ∀ a, off10 a + S16.size a ≤ S4096.size a)
    (hoff : off9 0 = off10 0) (x : S16.Idx) :
    (Rect.unit (s := S4096) off9 S16.size inb9).toLoadRect.idx x = (Rect.unit (s := S4096) off10 S16.size inb10).emb x := by
  funext a
  obtain rfl : a = 0 := Subsingleton.elim _ _
  apply Fin.ext
  show off9 0 + 1 * (x 0).val = off10 0 + 1 * (x 0).val
  rw [hoff]

/-- The row buffer read at the sixteen index words of the chunk at `off6`, at lane `x`, is the gathered row at the
    entry lane `x` of the chunk at `off7` names, the two chunks starting at one position. -/
private theorem gath_lane (idx : Buf (Elt F) ((thr d L).loc cc0_scratch0)) (rv : Buf (Elt F) ((thr d L).loc cc0_scratch1)) (hidx : ∀ j, (idx j).toNat < 100000)
    (off6 off7 : Fin 1 → Nat) (inb6 : ∀ a, off6 a + S16.size a ≤ S4096.size a) (inb7 : ∀ a, off7 a + S16.size a ≤ S4096.size a) (hoff : off6 0 = off7 0)
    (h : ∀ a x, ((![(sI).view.readAt (Elt F) (Rect.unit (s := S4096) off6 S16.size inb6).toLoadRect idx] : Fin 1 → IVec S16 32) a x).toNat < S100000.size a)
    (x : S16.Idx) :
    loadIdx (((sB).access (Rect.whole S100000)).read (Elt F) rv) ![(sI).view.readAt (Elt F) (Rect.unit (s := S4096) off6 S16.size inb6).toLoadRect idx] h x
      = gath d L idx rv ((Rect.unit (s := S4096) off7 S16.size inb7).emb x) := by
  unfold gath loadIdx
  refine (View.read_apply _ _).trans ((cast_eq _ _).trans (congrArg rv ?_))
  funext a
  apply Fin.ext
  obtain ⟨av, hav⟩ := a
  have h1 : av < 1 := hav
  obtain rfl : av = 0 := Nat.lt_one_iff.1 h1
  show 0 + 1 * (idx ((Rect.unit (s := S4096) off6 S16.size inb6).toLoadRect.idx x)).toNat
    = (idx (ValueIdx.ix1 (n := 4096) ⟨((Rect.unit (s := S4096) off7 S16.size inb7).emb x 0).val, ((Rect.unit (s := S4096) off7 S16.size inb7).emb x 0).isLt⟩)).toNat % 100000
  rw [Nat.mod_eq_of_lt (hidx _), idx_eq_lane off6 off7 inb6 inb7 hoff x]
  omega

/-! ## The first loop: the gathered row -/

/-- Before trip `k` of the first loop: the index list and the table row held, the gathered row done below entry 16 k. -/
def gatherInv (idx : Buf (Elt F) ((thr d L).loc cc0_scratch0)) (rv : Buf (Elt F) ((thr d L).loc cc0_scratch1)) (k : Nat) (_ : Unit) : sProp 𝕄 :=
  iprop(((sI).view.loc (thr d L) ↦{fullShare} idx) ∗ ((sB).view.loc (thr d L) ↦{fullShare} rv)
    ∗ ∃ g, ⌜∀ b : S4096.Idx, (b 0).val < 16 * k → g b = gath d L idx rv b⌝ ∗ (sZ).view.loc (thr d L) ↦{fullShare} g)

/-- One trip of the first loop: the first 16 k entries of the gathered row being the table row at the index list,
    after trip k the first 16 (k + 1) are. -/
theorem gather_trip (idx : Buf (Elt F) ((thr d L).loc cc0_scratch0)) (rv : Buf (Elt F) ((thr d L).loc cc0_scratch1)) (hidx : ∀ j, (idx j).toNat < 100000) (t : Fin k0_t1_loop.trips) (v165 : BitVec 32) (k : Fin k0_t2_loop.trips) (acc : Unit) :
    gatherInv d L idx rv k.val acc ⊢ wp frame (wpE (defs₀ (F := F)) 𝒱₀ (thr d L) none) Set.univ
      (k0_t2_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 t v165 k acc)
      (gatherInv d L idx rv (k.val + 1)) := by
  unfold gatherInv
  iintro ⟨Hi, Hb, %g, %hg, Hz⟩
  unfold k0_t2_body
  simp only [Prog.lift, Prog.bind_op, Prog.bind_ret, Prog.pure_eq_ret]
  -- the sixteen index words of chunk k
  sl_step
  -- each names a position of the table row
  have hchk : k0_chk1 ((sI).view.readAt (Elt F) (Rect.unit (s := S4096) (k0_off6 k) S16.size (k0_off6_inb k)).toLoadRect idx) := by
    intro a x
    obtain rfl : a = 0 := Subsingleton.elim _ _
    exact hidx _
  rw [wp_assume_of _ _ _ _ hchk]
  -- the table row at those sixteen positions
  iapply (SparseCore.wp_vectorLoadIdx 𝒱₀ (thr d L) none Set.univ (base := sB) (S := Finset.univ) (q := fullShare) (Finset.subset_univ _)) $$ Hb
  iintro Hb
  -- chunk k of the gathered row read (its value unused), then written; the return
  sl_step
  sl_step
  sl_step
  isplitl [Hi]; · iexact Hi
  isplitl [Hb]; · iexact Hb
  iexists _
  isplitr
  swap
  · iexact Hz
  -- the first 16 (k + 1) entries
  ipureintro
  intro b hb
  have hk7 : k0_off7 k 0 = 16 * k.val := by rw [k0_off7_eq]; rfl
  have hk6 : k0_off6 k 0 = 16 * k.val := by rw [k0_off6_eq]; rfl
  by_cases hlt : (b 0).val < 16 * k.val
  · -- an entry below the chunk: the store did not touch it
    have hn : b ∉ ((sZ).access (Rect.unit (s := S4096) (k0_off7 k) S16.size (k0_off7_inb k))).setOn Finset.univ := by
      intro hmem
      obtain ⟨x, -, hx⟩ := Finset.mem_map.1 hmem
      have hv := lane_val (k0_off7 k) (k0_off7_inb k) x
      have hx' : (Rect.unit (s := S4096) (k0_off7 k) S16.size (k0_off7_inb k)).emb x = b := hx
      rw [hx'] at hv
      omega
    rw [View.write_of_not_mem _ _ _ hn]
    exact hg b hlt
  · -- an entry of the chunk: the stored lane
    obtain ⟨x, rfl⟩ := exists_lane (k0_off7 k) (k0_off7_inb k) b ⟨by omega, by omega⟩
    refine (View.write_emb_of_mem (v := (sZ).access (Rect.unit (s := S4096) (k0_off7 k) S16.size (k0_off7_inb k))) g _ (Finset.mem_univ x)).trans ?_
    refine (cast_eq _ _).trans ?_
    exact gath_lane d L idx rv hidx (k0_off6 k) (k0_off7 k) (k0_off6_inb k) (k0_off7_inb k) (hk6.trans hk7.symm) _ x

/-! ## The second loop: the second output row -/

/-- Before trip `k` of the second loop: the index list, the table row and the gathered first row held, the second
    output row done below entry 16 k. -/
def capInv (q : PosShare TreeShare) (idx : Buf (Elt F) ((thr d L).loc cc0_scratch0)) (rv : Buf (Elt F) ((thr d L).loc cc0_scratch1)) (gz : Buf (Elt F) ((thr d L).loc cc0_scratch2)) (k : Nat) (_ : Unit) : sProp 𝕄 :=
  iprop(((sI).view.loc (thr d L) ↦{fullShare} idx) ∗ ((sB).view.loc (thr d L) ↦{fullShare} rv) ∗ ((sZ).view.loc (thr d L) ↦{q} gz)
    ∗ ∃ g, ⌜∀ b : S4096.Idx, (b 0).val < 16 * k → g b = capv d L gz idx rv b⌝ ∗ (sC).view.loc (thr d L) ↦{fullShare} g)

/-- One trip of the second loop: the first 16 k entries of the second output row being the gathered first row plus the
    exponential of the gathered second row, after trip k the first 16 (k + 1) are. -/
theorem cap_trip (q : PosShare TreeShare) (idx : Buf (Elt F) ((thr d L).loc cc0_scratch0)) (rv : Buf (Elt F) ((thr d L).loc cc0_scratch1)) (gz : Buf (Elt F) ((thr d L).loc cc0_scratch2)) (hidx : ∀ j, (idx j).toNat < 100000) (t : Fin k0_t1_loop.trips) (v165 : BitVec 32) (k : Fin k0_t3_loop.trips) (acc : Unit) :
    capInv d L q idx rv gz k.val acc ⊢ wp frame (wpE (defs₀ (F := F)) 𝒱₀ (thr d L) none) Set.univ
      (k0_t3_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 t v165 k acc)
      (capInv d L q idx rv gz (k.val + 1)) := by
  unfold capInv
  iintro ⟨Hi, Hb, Hz, %g, %hg, Hc⟩
  unfold k0_t3_body
  simp only [Prog.lift, Prog.bind_op, Prog.bind_ret, Prog.pure_eq_ret]
  -- chunk k of the gathered row and of the index list
  sl_step
  sl_step
  -- each word names a position of the table row
  have hchk : k0_chk2 ((sI).view.readAt (Elt F) (Rect.unit (s := S4096) (k0_off9 k) S16.size (k0_off9_inb k)).toLoadRect idx) := by
    intro a x
    obtain rfl : a = 0 := Subsingleton.elim _ _
    exact hidx _
  rw [wp_assume_of _ _ _ _ hchk]
  -- the table row at those sixteen positions
  iapply (SparseCore.wp_vectorLoadIdx 𝒱₀ (thr d L) none Set.univ (base := sB) (S := Finset.univ) (q := fullShare) (Finset.subset_univ _)) $$ Hb
  iintro Hb
  -- chunk k of the second output row read (its value unused), then written; the return
  sl_step
  sl_step
  sl_step
  isplitl [Hi]; · iexact Hi
  isplitl [Hb]; · iexact Hb
  isplitl [Hz]; · iexact Hz
  iexists _
  isplitr
  swap
  · iexact Hc
  -- the first 16 (k + 1) entries
  ipureintro
  intro b hb
  have hk9 : k0_off9 k 0 = 16 * k.val := by rw [k0_off9_eq]; rfl
  have hk10 : k0_off10 k 0 = 16 * k.val := by rw [k0_off10_eq]; rfl
  by_cases hlt : (b 0).val < 16 * k.val
  · -- an entry below the chunk: the store did not touch it
    have hn : b ∉ ((sC).access (Rect.unit (s := S4096) (k0_off10 k) S16.size (k0_off10_inb k))).setOn Finset.univ := by
      intro hmem
      obtain ⟨x, -, hx⟩ := Finset.mem_map.1 hmem
      have hv := lane_val (k0_off10 k) (k0_off10_inb k) x
      have hx' : (Rect.unit (s := S4096) (k0_off10 k) S16.size (k0_off10_inb k)).emb x = b := hx
      rw [hx'] at hv
      omega
    rw [View.write_of_not_mem _ _ _ hn]
    exact hg b hlt
  · -- an entry of the chunk: the stored lane, the gathered first row's lane plus the exponential of the gathered second row's
    obtain ⟨x, rfl⟩ := exists_lane (k0_off10 k) (k0_off10_inb k) b ⟨by omega, by omega⟩
    refine (View.write_emb_of_mem (v := (sC).access (Rect.unit (s := S4096) (k0_off10 k) S16.size (k0_off10_inb k))) g _ (Finset.mem_univ x)).trans ?_
    refine (cast_eq _ _).trans ?_
    have e1 : (sZ).view.readAt (Elt F) (Rect.unit (s := S4096) (k0_off9 k) S16.size (k0_off9_inb k)).toLoadRect gz x
        = gz ((Rect.unit (s := S4096) (k0_off10 k) S16.size (k0_off10_inb k)).emb x) := by
      show gz ((Rect.unit (s := S4096) (k0_off9 k) S16.size (k0_off9_inb k)).toLoadRect.idx x) = _
      rw [idx_eq_emb (k0_off9 k) (k0_off10 k) (k0_off9_inb k) (k0_off10_inb k) (hk9.trans hk10.symm) x]
    exact congrArg₂ (FloatOps.addf (F := F) (φ := .f32)) e1
      (congrArg (FloatOps.exp (F := F) (φ := .f32))
        (gath_lane d L idx rv hidx (k0_off9 k) (k0_off10 k) (k0_off9_inb k) (k0_off10_inb k) (hk9.trans hk10.symm) _ x))

end Cert.Proof.KernelIdeal

end
-- ==== Proof.KernelIdeal.TileBase.lean ====
/-
  A tile's task: what it owns, how its buffers are spelt, and what holds between the trips of its main loop.

  Tile (c, i), number w = 2 i + c, owns table rows 16 w .. 16 w + 15. It copies the index list into its scratch; then,
  for each of its rows r in turn: fetches row r of the first table into a row buffer, gathers it at the index list
  (entry b of the gathered row is the row at idx[b]), sends the gathered row to output row (r, slot 0), fetches row r
  of the second table into the same row buffer, gathers it too, adds its exponential to the first gathered row, and
  sends that to output row (r, slot 1). Fetches complete on one semaphore, the two kinds of send on two others, one
  transfer at a time on each: every transfer is waited for before its buffer is written again and before the next
  transfer on its semaphore starts. A send of the gathered row is still pending while the second gather reads that
  row: the tile keeps half of its share of the row for reading and lends the other half to the send.

  Between trips (the invariant): the fetch of the next row of the first table is pending; the two sends of the
  previous trip are pending (before the first trip: two priming sends, of whatever the scratch held, to the first
  trip's rows); the output rows of earlier trips hold the specification; the rows of later trips are untouched.
-/
import proofs.«205357_g36507222016157_cont_8to1_b_501_45_alg».proof.Proof.KernelIdeal.Setup
import proofs.«205357_g36507222016157_cont_8to1_b_501_45_alg».proof.Proof.KernelIdeal.Rows
import proofs.«205357_g36507222016157_cont_8to1_b_501_45_alg».proof.Proof.KernelIdeal.Values
import proofs.«205357_g36507222016157_cont_8to1_b_501_45_alg».proof.Proof.KernelIdeal.Gather

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.KernelIdeal.main_v1_scv : Memref Cert.KernelIdeal.sig Kind.scVector Space.hbm Cert.KernelIdeal.S512x100000 EltTy.f32)
local notation "lTW" => (Memref.whole Cert.KernelIdeal.main_v3_scv : Memref Cert.KernelIdeal.sig Kind.scVector Space.hbm Cert.KernelIdeal.S512x100000 EltTy.f32)
local notation "iW" => (Memref.whole Cert.KernelIdeal.main_arg0_scv : Memref Cert.KernelIdeal.sig Kind.scVector Space.hbm Cert.KernelIdeal.S4096 EltTy.i32)
local notation "oW" => (Memref.whole Cert.KernelIdeal.main_v4_scv : Memref Cert.KernelIdeal.sig Kind.scVector Space.hbm Cert.KernelIdeal.S8x2x64x4096 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S100000 EltTy.f32)
local notation "sZ" => (Memref.whole Cert.KernelIdeal.cc0_scratch2 : Memref Cert.KernelIdeal.sig Kind.scVector Space.vmem Cert.KernelIdeal.S4096 EltTy.f32)
local notation "sC" => (Memref.whole Cert.KernelIdeal.cc0_scratch3 : Memref Cert.KernelIdeal.sig Kind.scVector Space.vmem Cert.KernelIdeal.S4096 EltTy.f32)

section Tile

variable (d : Dev nD) (L : grid0.Coords)

/-- The tile's four semaphores: fetches, sends of slot 0, sends of slot 1, the index list's copy. -/
abbrev cFcell (d : Dev nD) (c : Fin τ.nSC) (i : Fin τ.nSub) : GSem nD τ sig := (V d c i, .dma cc0_scratch4.sem)
abbrev cZcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scratch6.sem)
abbrev cIcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cFcell d (cV L) (jV L)) 0 ∗ semVal (cZcell d (cV L) (jV L)) 0 ∗ semVal (cCcell d (cV L) (jV L)) 0 ∗ semVal (cIcell d (cV L) (jV L)) 0
          ∗ bigSep (((((ownCells (V d (cV L) (jV L))).erase (cFcell d (cV L) (jV L))).erase (cZcell d (cV L) (jV L))).erase (cCcell d (cV L) (jV L))).erase (cIcell d (cV L) (jV L)))
              fun g => semVal g 0) := by
  unfold SparseCore.Cfg.ownSems0
  rw [SparseCore.bigSep_erase' ((mem_ownCells (g := cFcell d (cV L) (jV L))).mpr ⟨rfl, by
      show (SemLoc.dma cc0_scratch4.sem : SemLoc sig).isScoped .scVector = true; decide⟩),
    SparseCore.bigSep_erase' (Finset.mem_erase.mpr ⟨by simp [cFcell, cZcell]; decide, (mem_ownCells (g := cZcell d (cV L) (jV L))).mpr ⟨rfl, by
      show (SemLoc.dma cc0_scratch5.sem : SemLoc sig).isScoped .scVector = true; decide⟩⟩),
    SparseCore.bigSep_erase' (Finset.mem_erase.mpr ⟨by simp [cZcell, cCcell]; decide, Finset.mem_erase.mpr ⟨by simp [cFcell, cCcell]; decide,
      (mem_ownCells (g := cCcell d (cV L) (jV L))).mpr ⟨rfl, by show (SemLoc.dma cc0_scratch6.sem : SemLoc sig).isScoped .scVector = true; decide⟩⟩⟩),
    SparseCore.bigSep_erase' (Finset.mem_erase.mpr ⟨by simp [cCcell, cIcell]; decide, Finset.mem_erase.mpr ⟨by simp [cZcell, cIcell]; decide, Finset.mem_erase.mpr ⟨by simp [cFcell, cIcell]; decide,
      (mem_ownCells (g := cIcell d (cV L) (jV L))).mpr ⟨rfl, by show (SemLoc.dma cc0_scoped0.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

omit [FloatOps F] in
/-- The arrays as the tile's memrefs address them are the device's arrays. -/
theorem pts_i (q : PosShare TreeShare) (f : Buf (Elt F) (iLoc d)) :
    ((iW).view.loc (thr d L) ↦{q} f : sProp 𝕄) = iLoc d ↦{q} f := by simp only [Memref.view_whole, View.set_whole]
omit [FloatOps F] in
theorem pts_zT (q : PosShare TreeShare) (f : Buf (Elt F) (zTLoc d)) :
    ((zTW).view.loc (thr d L) ↦{q} f : sProp 𝕄) = zTLoc d ↦{q} f := by simp only [Memref.view_whole, View.set_whole]
omit [FloatOps F] in
theorem pts_lT (q : PosShare TreeShare) (f : Buf (Elt F) (lTLoc d)) :
    ((lTW).view.loc (thr d L) ↦{q} f : sProp 𝕄) = lTLoc d ↦{q} f := by simp only [Memref.view_whole, View.set_whole]
omit [FloatOps F] in
theorem pts_oZ (t : Fin k0_t1_loop.trips) (f : Buf (Elt F) (oLoc d)) :
    ((oZ L t).view.loc (thr d L) ↦[(oZ L t).view.set]{fullShare} f : sProp 𝕄) = oLoc d ↦[(oZ L t).view.set]{fullShare} f := rfl
omit [FloatOps F] in
theorem pts_oC (t : Fin k0_t1_loop.trips) (f : Buf (Elt F) (oLoc d)) :
    ((oC L t).view.loc (thr d L) ↦[(oC L t).view.set]{fullShare} f : sProp 𝕄) = oLoc d ↦[(oC L t).view.set]{fullShare} f := rfl
omit [FloatOps F] in
theorem pts_sI (q : PosShare TreeShare) (f : Buf (Elt F) ((thr d L).loc cc0_scratch0)) :
    ((sI).view.loc (thr d L) ↦{q} f : sProp 𝕄) = (thr d L).loc cc0_scratch0 ↦{q} f := rfl
omit [FloatOps F] in
theorem pts_sB (q : PosShare TreeShare) (f : Buf (Elt F) ((thr d L).loc cc0_scratch1)) :
    ((sB).view.loc (thr d L) ↦{q} f : sProp 𝕄) = (thr d L).loc cc0_scratch1 ↦{q} f := rfl
omit [FloatOps F] in
theorem pts_sZ (q : PosShare TreeShare) (f : Buf (Elt F) ((thr d L).loc cc0_scratch2)) :
    ((sZ).view.loc (thr d L) ↦{q} f : sProp 𝕄) = (thr d L).loc cc0_scratch2 ↦{q} f := rfl
omit [FloatOps F] in
theorem pts_sC (q : PosShare TreeShare) (f : Buf (Elt F) ((thr d L).loc cc0_scratch3)) :
    ((sC).view.loc (thr d L) ↦{q} f : sProp 𝕄) = (thr d L).loc cc0_scratch3 ↦{q} f := rfl

omit [FloatOps F] in
theorem off2_first : ∀ i : grid0.Coords, k0_off2 i = k0_off5 i t0 := by decide +kernel
omit [FloatOps F] in
theorem off3_first : ∀ i : grid0.Coords, k0_off3 i = k0_off8 i t0 := by decide +kernel

/-- An output row as the program slices it, at any offsets. -/
abbrev outRow (o : Fin 4 → Nat) (h : ∀ a, o a + S1x1x1x4096.size a ≤ S8x2x64x4096.size a) : Memref sig .scVector .hbm S4096 .f32 :=
  ((oW).slice (Rect.unit (s := S8x2x64x4096) o S1x1x1x4096.size h) (fun _ => rfl)).squeeze S4096 squeezes_S1x1x1x4096_S4096

omit [FloatOps F] in
theorem outRow_congr (o1 o2 : Fin 4 → Nat) (h : o1 = o2) (h1 : ∀ a, o1 a + S1x1x1x4096.size a ≤ S8x2x64x4096.size a)
    (h2 : ∀ a, o2 a + S1x1x1x4096.size a ≤ S8x2x64x4096.size a) : outRow o1 h1 = outRow o2 h2 := by subst h; rfl

omit [FloatOps F] in
theorem pts_row_congr (o1 o2 : Fin 4 → Nat) (h : o1 = o2) (h1 : ∀ a, o1 a + S1x1x1x4096.size a ≤ S8x2x64x4096.size a)
    (h2 : ∀ a, o2 a + S1x1x1x4096.size a ≤ S8x2x64x4096.size a) (f : Buf (Elt F) (oLoc d)) :
    ((outRow o1 h1).view.loc (thr d L) ↦[(outRow o1 h1).view.set]{fullShare} f : sProp 𝕄)
      = (outRow o2 h2).view.loc (thr d L) ↦[(outRow o2 h2).view.set]{fullShare} f := by subst h; rfl
omit [FloatOps F] in
/-- The priming sends go to the first trip's rows. -/
theorem pts_oZ0 (f : Buf (Elt F) (oLoc d)) :
    ((outRow (k0_off2 L) (k0_off2_inb L)).view.loc (thr d L) ↦[(outRow (k0_off2 L) (k0_off2_inb L)).view.set]{fullShare} f : sProp 𝕄)
      = oLoc d ↦[(oZ L t0).view.set]{fullShare} f :=
  pts_row_congr d L _ _ (off2_first L) (k0_off2_inb L) (k0_off5_inb L t0) f
omit [FloatOps F] in
theorem pts_oC0 (f : Buf (Elt F) (oLoc d)) :
    ((outRow (k0_off3 L) (k0_off3_inb L)).view.loc (thr d L) ↦[(outRow (k0_off3 L) (k0_off3_inb L)).view.set]{fullShare} f : sProp 𝕄)
      = oLoc d ↦[(oC L t0).view.set]{fullShare} f :=
  pts_row_congr d L _ _ (off3_first L) (k0_off3_inb L) (k0_off8_inb L t0) f

abbrev idxB : Buf (Elt F) ((thr d L).loc cc0_scratch0) := idxv m d
abbrev tokQ (L : grid0.Coords) : PosShare TreeShare := shareTok fullShare 32 (wid L)

omit [FloatOps F] in
theorem tr_val (k : Fin k0_t1_loop.trips) : tr k.val = k := by
  apply Fin.ext; show min k.val 15 = k.val
  have := Nat.lt_of_lt_of_le k.isLt (le_of_eq trips16); omega
omit [FloatOps F] in
theorem pr_succ (k : Fin k0_t1_loop.trips) : pr (k.val + 1) = k := by
  apply Fin.ext; show min (k.val + 1 - 1) 15 = k.val
  have := Nat.lt_of_lt_of_le k.isLt (le_of_eq trips16); omega

/-- A fetch's delivery, in the invariant's words: the row buffer holds the table's row, and the lent row of the table
    comes back (spelt through any equal offsets). -/
theorem fetch_flight_z (q : PosShare TreeShare) (tab : FVec F S512x100000 .f32) (o o' : Fin 2 → Nat) (h) (h') (ho : o = o') (r : Fin 512) (hr : o' = ![r.val, 0])
    (prev : Buf (Elt F) ((thr d L).loc cc0_scratch1)) :
    (iprop(((sB).view.loc (thr d L) ↦{fullShare} View.write (Elt F) (sB).view prev (ReadAs.same.apply (View.read (Elt F) (zRow o h).view tab)) Finset.univ)
        ∗ (zTW).view.loc (thr d L) ↦[(zRow o h).view.set]{q} tab) : sProp 𝕄)
      ⊢ iprop(((sB).view.loc (thr d L) ↦{fullShare} rowv d L tab r) ∗ (zTW).view.loc (thr d L) ↦[(zRow o' h').view.set]{q} tab) := by
  subst ho; rw [fetch_z d L tab o h r hr prev]
omit [FloatOps F] in
theorem compl_z (q : PosShare TreeShare) (tab : Buf (Elt F) (zTLoc d)) (o o' : Fin 2 → Nat) (h) (h') (ho : o = o') :
    ((zTW).view.loc (thr d L) ↦[Finset.univ \ (zRow o h).view.set]{q} tab : sProp 𝕄)
      = (zTW).view.loc (thr d L) ↦[Finset.univ \ (zRow o' h').view.set]{q} tab := by subst ho; rfl

/-- A send's delivery, in the invariant's words: the output row at contents that are the specification on the row. -/
theorem send_flight_z (k : Fin k0_t1_loop.trips) (fz : Buf (Elt F) (oLoc d)) (g : Buf (Elt F) ((thr d L).loc cc0_scratch2))
    (hgz : ∀ b : S4096.Idx, g b = zTv m d (ValueIdx.ix2 (n0 := 512) (n1 := 100000) (rowNo L k) (Cert.Spec.box (idxv m d) ⟨(b 0).val, (b 0).isLt⟩)))
    (t : Nat) (ht : pr t = k) (q : PosShare TreeShare) :
    (iprop(((oZ L k).view.loc (thr d L) ↦[(oZ L k).view.set]{fullShare}
          (oZ L k).view.writes (Elt F) fz [⟨Rect.whole S4096, ReadAs.same.apply (View.read (Elt F) (sZ).view g)⟩])
        ∗ (sZ).view.loc (thr d L) ↦[(sZ).view.set]{q} g) : sProp 𝕄)
      ⊢ iprop((∃ f, ⌜1 ≤ t → ∀ j ∈ (oZ L (pr t)).view.set, f j = stagedv m d j⌝
            ∗ (oZ L (pr t)).view.loc (thr d L) ↦[(oZ L (pr t)).view.set]{fullShare} f)
          ∗ (sZ).view.loc (thr d L) ↦[(sZ).view.set]{q} g) := by
  subst ht
  iintro ⟨Ho, Hs⟩
  isplitl [Ho]
  · iexists _; isplitr
    · ipureintro; intro _; exact send_z m d L _ fz g hgz
    · iexact Ho
  · iexact Hs
theorem send_flight_c (k : Fin k0_t1_loop.trips) (fc : Buf (Elt F) (oLoc d)) (gc : Buf (Elt F) ((thr d L).loc cc0_scratch3))
    (hgc : ∀ b : S4096.Idx, gc b = FloatOps.addf (zTv m d (ValueIdx.ix2 (n0 := 512) (n1 := 100000) (rowNo L k) (Cert.Spec.box (idxv m d) ⟨(b 0).val, (b 0).isLt⟩)))
                                 (FloatOps.exp (lTv m d (ValueIdx.ix2 (n0 := 512) (n1 := 100000) (rowNo L k) (Cert.Spec.box (idxv m d) ⟨(b 0).val, (b 0).isLt⟩)))))
    (t : Nat) (ht : pr t = k) (q : PosShare TreeShare) :
    (iprop(((oC L k).view.loc (thr d L) ↦[(oC L k).view.set]{fullShare}
          (oC L k).view.writes (Elt F) fc [⟨Rect.whole S4096, ReadAs.same.apply (View.read (Elt F) (sC).view gc)⟩])
        ∗ (sC).view.loc (thr d L) ↦[(sC).view.set]{q} gc) : sProp 𝕄)
      ⊢ iprop((∃ f, ⌜1 ≤ t → ∀ j ∈ (oC L (pr t)).view.set, f j = stagedv m d j⌝
            ∗ (oC L (pr t)).view.loc (thr d L) ↦[(oC L (pr t)).view.set]{fullShare} f)
          ∗ (sC).view.loc (thr d L) ↦[(sC).view.set]{q} gc) := by
  subst ht
  iintro ⟨Ho, Hs⟩
  isplitl [Ho]
  · iexists _; isplitr
    · ipureintro; intro _; exact send_c m d L _ fc gc hgc
    · iexact Ho
  · iexact Hs

omit [FloatOps F] in
/-- The next row to fetch, as the loop computes it, is the row pending before the next trip. -/
theorem off11_next (k : Fin k0_t1_loop.trips) : k0_off11 L k = k0_off4 L (tr (k.val + 1)) := by
  rw [k0_off11_eq, k0_off4_eq]
  have hk : k.val < 16 := Nat.lt_of_lt_of_le k.isLt (le_of_eq trips16)
  have hv : (tr (k.val + 1)).val = min (k.val + 1) 15 := rfl
  have e : min (32 * (L 1).val + 16 * (L 0).val + k.val + 1) (32 * (L 1).val + 16 * (L 0).val + 15) = 32 * (L 1).val + 16 * (L 0).val + (tr (k.val + 1)).val := by
    rw [hv]; omega
  rw [e]

omit [FloatOps F] in
/-- The first fetch is the fetch pending before trip 0. -/
theorem off1_first : k0_off1 L = k0_off4 L (tr 0) := by
  rw [k0_off1_eq, k0_off4_eq]
  have hv : (tr 0).val = 0 := rfl
  rw [hv, Nat.add_zero]

/-- A priming send's delivery, in the invariant's words (nothing is claimed of what it wrote). -/
theorem prime_flight_z (X : Buf (Elt F) (oLoc d)) (q : PosShare TreeShare) (g : Buf (Elt F) ((thr d L).loc cc0_scratch2)) :
    (iprop(((outRow (k0_off2 L) (k0_off2_inb L)).view.loc (thr d L) ↦[(outRow (k0_off2 L) (k0_off2_inb L)).view.set]{fullShare} X)
        ∗ (sZ).view.loc (thr d L) ↦[(sZ).view.set]{q} g) : sProp 𝕄)
      ⊢ iprop((∃ f, ⌜1 ≤ 0 → ∀ j ∈ (oZ L (pr 0)).view.set, f j = stagedv m d j⌝
            ∗ (oZ L (pr 0)).view.loc (thr d L) ↦[(oZ L (pr 0)).view.set]{fullShare} f)
          ∗ (sZ).view.loc (thr d L) ↦[(sZ).view.set]{q} g) := by
  iintro ⟨Ho, Hs⟩
  isplitl [Ho]
  · iexists X; isplitr
    · ipureintro; intro h; exact absurd h (by decide)
    · iapply (Entails.of_eq (pts_oZ0 (F := F) d L X)); iexact Ho
  · iexact Hs
theorem prime_flight_c (X : Buf (Elt F) (oLoc d)) (q : PosShare TreeShare) (g : Buf (Elt F) ((thr d L).loc cc0_scratch3)) :
    (iprop(((outRow (k0_off3 L) (k0_off3_inb L)).view.loc (thr d L) ↦[(outRow (k0_off3 L) (k0_off3_inb L)).view.set]{fullShare} X)
        ∗ (sC).view.loc (thr d L) ↦[(sC).view.set]{q} g) : sProp 𝕄)
      ⊢ iprop((∃ f, ⌜1 ≤ 0 → ∀ j ∈ (oC L (pr 0)).view.set, f j = stagedv m d j⌝
            ∗ (oC L (pr 0)).view.loc (thr d L) ↦[(oC L (pr 0)).view.set]{fullShare} f)
          ∗ (sC).view.loc (thr d L) ↦[(sC).view.set]{q} g) := by
  iintro ⟨Ho, Hs⟩
  isplitl [Ho]
  · iexists X; isplitr
    · ipureintro; intro h; exact absurd h (by decide)
    · iapply (Entails.of_eq (pts_oC0 (F := F) d L X)); iexact Ho
  · iexact Hs

def tripInv (O : CellTallies nD τ sig (HIx 1)) (W : Waits sig (HIx 1)) (t : Nat) (_ : PUnit) : sProp 𝕄 :=
  iprop(Transfers.MayWaits (thr d L) (none : HIx 1) O
    ∗ ((sI).view.loc (thr d L) ↦{fullShare} idxB m d L)
    ∗ Transfers.Flight countersEmb (thr d L) (SemLoc.dma cc0_scratch4.sem) default 3200000
        iprop(((sB).view.loc (thr d L) ↦{fullShare} rowv d L (zTv m d) (rowNo L (tr t)))
          ∗ (zTW).view.loc (thr d L) ↦[(zRow (k0_off4 L (tr t)) (k0_off4_inb L (tr t))).view.set]{tokQ L} zTv m d)
    ∗ ((zTW).view.loc (thr d L) ↦[Finset.univ \ (zRow (k0_off4 L (tr t)) (k0_off4_inb L (tr t))).view.set]{tokQ L} zTv m d)
    ∗ ((lTW).view.loc (thr d L) ↦{tokQ L} lTv m d)
    ∗ (∃ gZ, ⌜1 ≤ t → gZ = gath d L (idxB m d L) (rowv d L (zTv m d) (rowNo L (pr t)))⌝
        ∗ Transfers.Flight countersEmb (thr d L) (SemLoc.dma cc0_scratch5.sem) default 131072
            iprop((∃ f, ⌜1 ≤ t → ∀ j ∈ (oZ L (pr t)).view.set, f j = stagedv m d j⌝
                ∗ (oZ L (pr t)).view.loc (thr d L) ↦[(oZ L (pr t)).view.set]{fullShare} f)
              ∗ (sZ).view.loc (thr d L) ↦[(sZ).view.set]{(fullShare : PosShare TreeShare).left} gZ)
        ∗ ((sZ).view.loc (thr d L) ↦[Finset.univ \ (sZ).view.set]{(fullShare : PosShare TreeShare).left} gZ)
        ∗ ((sZ).view.loc (thr d L) ↦{(fullShare : PosShare TreeShare).right} gZ))
    ∗ (∃ gC, Transfers.Flight countersEmb (thr d L) (SemLoc.dma cc0_scratch6.sem) default 131072
            iprop((∃ f, ⌜1 ≤ t → ∀ j ∈ (oC L (pr t)).view.set, f j = stagedv m d j⌝
                ∗ (oC L (pr t)).view.loc (thr d L) ↦[(oC L (pr t)).view.set]{fullShare} f)
              ∗ (sC).view.loc (thr d L) ↦[(sC).view.set]{fullShare} gC)
        ∗ ((sC).view.loc (thr d L) ↦[Finset.univ \ (sC).view.set]{fullShare} gC))
    ∗ (bigSep (Finset.univ.filter fun k : Fin k0_t1_loop.trips => k.val + 1 < t) fun k => oLoc d ↦[(oZ L k).view.set]{fullShare} stagedv m d)
    ∗ (bigSep (Finset.univ.filter fun k : Fin k0_t1_loop.trips => max t 1 ≤ k.val) fun k => oLoc d ↦[(oZ L k).view.set]{fullShare} m (oLoc d))
    ∗ (bigSep (Finset.univ.filter fun k : Fin k0_t1_loop.trips => k.val + 1 < t) fun k => oLoc d ↦[(oC L k).view.set]{fullShare} stagedv m d)
    ∗ (bigSep (Finset.univ.filter fun k : Fin k0_t1_loop.trips => max t 1 ≤ k.val) fun k => oLoc d ↦[(oC L k).view.set]{fullShare} m (oLoc d))
    ∗ ∃ W', ⌜∀ p ∈ W', p ∈ W ∨ p.2 = none⌝ ∗ owes (thr d L) O W')

end Tile

end Cert.Proof.KernelIdeal

end
-- ==== Proof.KernelIdeal.TileTrip.lean ====
/-
  One trip of a tile's main loop, from the invariant before it to the invariant after it: wait for the first table's
  row and for the previous slot-0 send, gather, start the second table's fetch and this trip's slot-0 send, wait for
  the fetch and for the previous slot-1 send, gather and add the exponential, start the next row's fetch and this
  trip's slot-1 send.
-/
import proofs.«205357_g36507222016157_cont_8to1_b_501_45_alg».proof.Proof.KernelIdeal.TileBase

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.KernelIdeal.main_v1_scv : Memref Cert.KernelIdeal.sig Kind.scVector Space.hbm Cert.KernelIdeal.S512x100000 EltTy.f32)
local notation "lTW" => (Memref.whole Cert.KernelIdeal.main_v3_scv : Memref Cert.KernelIdeal.sig Kind.scVector Space.hbm Cert.KernelIdeal.S512x100000 EltTy.f32)
local notation "iW" => (Memref.whole Cert.KernelIdeal.main_arg0_scv : Memref Cert.KernelIdeal.sig Kind.scVector Space.hbm Cert.KernelIdeal.S4096 EltTy.i32)
local notation "oW" => (Memref.whole Cert.KernelIdeal.main_v4_scv : Memref Cert.KernelIdeal.sig Kind.scVector Space.hbm Cert.KernelIdeal.S8x2x64x4096 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S100000 EltTy.f32)
local notation "sZ" => (Memref.whole Cert.KernelIdeal.cc0_scratch2 : Memref Cert.KernelIdeal.sig Kind.scVector Space.vmem Cert.KernelIdeal.S4096 EltTy.f32)
local notation "sC" => (Memref.whole Cert.KernelIdeal.cc0_scratch3 : Memref Cert.KernelIdeal.sig Kind.scVector Space.vmem Cert.KernelIdeal.S4096 EltTy.f32)

section Tile

variable (d : Dev nD) (L : grid0.Coords)

variable [FloatOps F]

theorem trip_region (hpre : PreOK m) (O : CellTallies nD τ sig (HIx 1)) (W : Waits sig (HIx 1)) (v2 c64 v65 v70 v75 : BitVec 32)
    (k : Fin k0_t1_loop.trips) (acc : Unit) :
    tripInv m d L O W k.val acc ⊢ wp frame (wpE (defs₀ (F := F)) 𝒱₀ (thr d L) none) Set.univ
      (k0_t1_body L zTW (Memref.isWhole_whole _) lTW (Memref.isWhole_whole _) iW (Memref.isWhole_whole _) oW (Memref.isWhole_whole _)
        sI (Memref.isWhole_whole _) sB (Memref.isWhole_whole _) sZ (Memref.isWhole_whole _) sC (Memref.isWhole_whole _) cc0_scratch4 cc0_scratch5 cc0_scratch6 cc0_scoped0 v2 c64 v65 v70 v75 k acc)
      (tripInv m d L O W (k.val + 1)) := by
  unfold tripInv
  iintro ⟨#Hmw, HsI, HfF, Hz, Hl, ⟨%gZ, %hgZ, HfZ, HsZl, HsZr⟩, ⟨%gC, HfC, HsCr⟩, HZd, HZt, HCd, HCt, %W', %hW', HO⟩
  have hidx : ∀ j, (idxB m d L j).toNat < 100000 := fun j => hpre d j
  unfold k0_t1_body
  sl_exec
  ihave HsZ := (pointsTo_share (PosShare.mem_left_op_right fullShare)).2 $$ [HsZl HsZr]
  · isplitl [HsZl] <;> iassumption
  sl_for (gatherInv d L (idxB m d L) (rowv d L (zTv m d) (rowNo L (tr k.val)))) $$ [HsI HfF_dst HsZ]
  case region => intro k2 acc2; exact gather_trip d L _ _ hidx k 0#32 k2 acc2
  · unfold gatherInv
    isplitl [HsI]; · iexact HsI
    isplitl [HfF_dst]; · iexact HfF_dst
    iexists gZ; isplitr
    · ipureintro; intro b hb; omega
    · iexact HsZ
  iintro %_ HI
  unfold gatherInv
  icases HI with ⟨HsI, HsB, %g, %hg, HsZ⟩
  ihave HsZ := (pointsTo_share (PosShare.mem_left_op_right fullShare)).1 $$ HsZ
  icases HsZ with ⟨HsZl, HsZr⟩
  have hg' : g = gath d L (idxB m d L) (rowv d L (zTv m d) (rowNo L (tr k.val))) := by
    funext b
    have hb : (b 0).val < 4096 := (b 0).isLt
    have h256 : Scf.trips k0_t2_loop.lb k0_t2_loop.ub k0_t2_loop.st = 256 := by decide
    exact hg b (by rw [h256]; omega)
  ihave HZ := (rows_step (F := F) d (fun j => (oZ L j).view.set) (m (oLoc d)) (stagedv m d) k) $$ [HfZ_dst HZd HZt]
  · isplitl [HfZ_dst]; · iexact HfZ_dst
    isplitl [HZd] <;> iassumption
  icases HZ with ⟨⟨%fz, HoZk⟩, HZd, HZt⟩
  ihave HoZk := (Entails.of_eq (pts_oZ (F := F) d L k _).symm) $$ HoZk
  sl_exec
  -- the slot-1 rows
  ihave HC := (rows_step (F := F) d (fun j => (oC L j).view.set) (m (oLoc d)) (stagedv m d) k) $$ [HfC_dst HCd HCt]
  · isplitl [HfC_dst]; · iexact HfC_dst
    isplitl [HCd] <;> iassumption
  icases HC with ⟨⟨%fc, HoCk⟩, HCd, HCt⟩
  ihave HoCk := (Entails.of_eq (pts_oC (F := F) d L k _).symm) $$ HoCk
  -- the row buffer holds the second table's row
  sl_unfold_run_names
  ihave HsB := (Entails.of_eq (congrArg (fun f => ((sB).view.loc (thr d L) ↦{fullShare} f : sProp 𝕄))
    (fetch_l (F := F) d L (lTv m d) (k0_off4 L k) (k0_off4_inb L k) (rowNo L k) (k0_off4_eq L k) (rowv d L (zTv m d) (rowNo L (tr k.val)))))) $$ HsB
  sl_for (capInv d L (fullShare : PosShare TreeShare).right (idxB m d L) (rowv d L (lTv m d) (rowNo L k)) g) $$ [HsI HsB HsZr HsCr]
  case region => intro k3 acc3; exact cap_trip d L _ _ _ _ hidx k _ k3 acc3
  · unfold capInv
    isplitl [HsI]; · iexact HsI
    isplitl [HsB]; · iexact HsB
    isplitl [HsZr]; · iexact HsZr
    iexists gC; isplitr
    · ipureintro; intro b hb; omega
    · iexact HsCr
  iintro %_ HI
  unfold capInv
  icases HI with ⟨HsI, HsB, HsZr, %gc, %hgc, HsC⟩
  sl_exec
  sl_unfold_run_names
  sl_step
  have h256' : Scf.trips k0_t3_loop.lb k0_t3_loop.ub k0_t3_loop.st = 256 := by decide
  have hgc' : gc = capv d L g (idxB m d L) (rowv d L (lTv m d) (rowNo L k)) := by
    funext b
    have hb : (b 0).val < 4096 := (b 0).isLt
    exact hgc b (by rw [h256']; omega)
  have hgz : ∀ b : S4096.Idx, g b = zTv m d (ValueIdx.ix2 (n0 := 512) (n1 := 100000) (rowNo L k) (Cert.Spec.box (idxv m d) ⟨(b 0).val, (b 0).isLt⟩)) := by
    intro b; rw [hg', tr_val]; rfl
  have hgcv : ∀ b : S4096.Idx, gc b = FloatOps.addf (zTv m d (ValueIdx.ix2 (n0 := 512) (n1 := 100000) (rowNo L k) (Cert.Spec.box (idxv m d) ⟨(b 0).val, (b 0).isLt⟩)))
      (FloatOps.exp (lTv m d (ValueIdx.ix2 (n0 := 512) (n1 := 100000) (rowNo L k) (Cert.Spec.box (idxv m d) ⟨(b 0).val, (b 0).isLt⟩)))) := by
    intro b; rw [hgc', hg', tr_val]; rfl
  ihave HfF := (Transfers.Flight_mono countersEmb (thr d L) (fetch_flight_z (F := F) d L (tokQ L) (zTv m d) (k0_off11 L k) (k0_off4 L (tr (k.val + 1))) (k0_off11_inb L k) (k0_off4_inb L (tr (k.val + 1)))
    (off11_next L k) (rowNo L (tr (k.val + 1))) (k0_off4_eq L _) (rowv d L (lTv m d) (rowNo L k)))) $$ HfF
  ihave Hz := (Entails.of_eq (compl_z (F := F) d L (tokQ L) (zTv m d) (k0_off11 L k) (k0_off4 L (tr (k.val + 1))) (k0_off11_inb L k) (k0_off4_inb L (tr (k.val + 1))) (off11_next L k))) $$ Hz
  ihave HfZ := (Transfers.Flight_mono countersEmb (thr d L) (send_flight_z (F := F) m d L k fz g hgz (k.val + 1) (pr_succ k) _)) $$ HfZ
  ihave HfC := (Transfers.Flight_mono countersEmb (thr d L) (send_flight_c (F := F) m d L k fc gc hgcv (k.val + 1) (pr_succ k) _)) $$ HfC
  isplitr; · iexact Hmw
  isplitl [HsI]; · iexact HsI
  isplitl [HfF]; · iexact HfF
  isplitl [Hz]; · iexact Hz
  isplitl [Hl]; · iexact Hl
  isplitl [HfZ HsZl HsZr]
  · iexists g; isplitr
    · ipureintro; intro _; rw [hg', tr_val, pr_succ]
    isplitl [HfZ]; · iexact HfZ
    isplitl [HsZl]; · iexact HsZl
    iexact HsZr
  isplitl [HfC HsC]
  · iexists gc
    isplitl [HfC]; · iexact HfC
    iexact HsC
  isplitl [HZd]; · iexact HZd
  isplitl [HZt]; · iexact HZt
  isplitl [HCd]; · iexact HCd
  isplitl [HCt]; · iexact HCt
  iexists (insert (SemLoc.dma cc0_scratch6.sem, (default : HIx 1)) (insert (SemLoc.dma cc0_scratch4.sem, (default : HIx 1))
    (insert (SemLoc.dma cc0_scratch5.sem, (default : HIx 1)) (insert (SemLoc.dma cc0_scratch4.sem, (default : HIx 1)) W'))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile

end Cert.Proof.KernelIdeal

end
-- ==== Proof.KernelIdeal.Tile.lean ====
/-
  A tile's whole task: the index list's copy, the first fetch and the two priming sends establish the invariant; the
  sixteen trips keep it; after them the last fetch and the last two sends are waited for, and every output row of the
  tile holds the specification. And the task in the words of the launch theorem.
-/
import proofs.«205357_g36507222016157_cont_8to1_b_501_45_alg».proof.Proof.KernelIdeal.TileTrip

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the tile's memrefs, spelt as the body table passes them
local notation "zTW" => (Memref.whole Cert.KernelIdeal.main_v1_scv : Memref Cert.KernelIdeal.sig Kind.scVector Space.hbm Cert.KernelIdeal.S512x100000 EltTy.f32)
local notation "lTW" => (Memref.whole Cert.KernelIdeal.main_v3_scv : Memref Cert.KernelIdeal.sig Kind.scVector Space.hbm Cert.KernelIdeal.S512x100000 EltTy.f32)
local notation "iW" => (Memref.whole Cert.KernelIdeal.main_arg0_scv : Memref Cert.KernelIdeal.sig Kind.scVector Space.hbm Cert.KernelIdeal.S4096 EltTy.i32)
local notation "oW" => (Memref.whole Cert.KernelIdeal.main_v4_scv : Memref Cert.KernelIdeal.sig Kind.scVector Space.hbm Cert.KernelIdeal.S8x2x64x4096 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S100000 EltTy.f32)
local notation "sZ" => (Memref.whole Cert.KernelIdeal.cc0_scratch2 : Memref Cert.KernelIdeal.sig Kind.scVector Space.vmem Cert.KernelIdeal.S4096 EltTy.f32)
local notation "sC" => (Memref.whole Cert.KernelIdeal.cc0_scratch3 : Memref Cert.KernelIdeal.sig Kind.scVector Space.vmem Cert.KernelIdeal.S4096 EltTy.f32)

section Tile

variable (d : Dev nD) (L : grid0.Coords)

variable [FloatOps F]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L zTW (Memref.isWhole_whole _) lTW (Memref.isWhole_whole _) iW (Memref.isWhole_whole _) oW (Memref.isWhole_whole _)
            sI (Memref.isWhole_whole _) sB (Memref.isWhole_whole _) sZ (Memref.isWhole_whole _) sC (Memref.isWhole_whole _) cc0_scratch4 cc0_scratch5 cc0_scratch6 cc0_scoped0)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileGo tileTd oRows
  iintro ⟨#Hlv, -, ⟨Hi, Hz, Hl, HoZ, HoC⟩, ⟨⟨%fI, HsI⟩, ⟨%fB, HsB⟩, ⟨%fZ, HsZ⟩, ⟨%fC, HsC⟩, Hbufs⟩, ⟨HsemF, HsemZ, HsemC, HsemI, Hsems⟩, HO⟩
  ihave Hmw := ((K (F := F)).mayWaits_none (thr := V d (cV L) (jV L)) hO) $$ Hlv
  ihave Hi := (Entails.of_eq (pts_i (F := F) d L _ _).symm) $$ Hi
  ihave Hz := (Entails.of_eq (pts_zT (F := F) d L _ _).symm) $$ Hz
  ihave Hl := (Entails.of_eq (pts_lT (F := F) d L _ _).symm) $$ Hl
  ihave HsI := (Entails.of_eq (pts_sI (F := F) d L _ _).symm) $$ HsI
  ihave HsB := (Entails.of_eq (pts_sB (F := F) d L _ _).symm) $$ HsB
  ihave HsZ := (Entails.of_eq (pts_sZ (F := F) d L _ _).symm) $$ HsZ
  ihave HsC := (Entails.of_eq (pts_sC (F := F) d L _ _).symm) $$ HsC
  ihave HsZ := (pointsTo_share (PosShare.mem_left_op_right fullShare)).1 $$ HsZ
  icases HsZ with ⟨HsZl, HsZr⟩
  ihave HoZ := (Entails.of_eq (SparseCore.bigSep_erase' (Finset.mem_univ (t0 : Fin k0_t1_loop.trips)))) $$ HoZ
  icases HoZ with ⟨HoZ0, HoZr⟩
  ihave HoC := (Entails.of_eq (SparseCore.bigSep_erase' (Finset.mem_univ (t0 : Fin k0_t1_loop.trips)))) $$ HoC
  icases HoC with ⟨HoC0, HoCr⟩
  ihave HoZ0 := (Entails.of_eq (pts_oZ0 (F := F) d L _).symm) $$ HoZ0
  ihave HoC0 := (Entails.of_eq (pts_oC0 (F := F) d L _).symm) $$ HoC0
  sl_exec
  sl_unfold_run_names
  -- what holds before the first trip
  ihave HsI := (Entails.of_eq (congrArg (fun f => ((sI).view.loc (thr d L) ↦{fullShare} f : sProp 𝕄)) (idx_lands (F := F) m d L fI))) $$ HsI
  ihave HsemF := (Transfers.Flight_mono countersEmb (thr d L) (fetch_flight_z (F := F) d L (tokQ L) (zTv m d) (k0_off1 L) (k0_off4 L (tr 0)) (k0_off1_inb L) (k0_off4_inb L (tr 0))
    (off1_first L) (rowNo L (tr 0)) (k0_off4_eq L _) fB)) $$ HsemF
  ihave Hz := (Entails.of_eq (compl_z (F := F) d L (tokQ L) (zTv m d) (k0_off1 L) (k0_off4 L (tr 0)) (k0_off1_inb L) (k0_off4_inb L (tr 0)) (off1_first L))) $$ Hz
  ihave HsemZ := (Transfers.Flight_mono countersEmb (thr d L) (prime_flight_z (F := F) m d L _ _ fZ)) $$ HsemZ
  ihave HsemC := (Transfers.Flight_mono countersEmb (thr d L) (prime_flight_c (F := F) m d L _ _ fC)) $$ HsemC
  ihave HZ := (rows_init (F := F) d (fun j => (oZ L j).view.set) (m (oLoc d)) (stagedv m d)) $$ HoZr
  icases HZ with ⟨HZd, HZt⟩
  ihave HC := (rows_init (F := F) d (fun j => (oC L j).view.set) (m (oLoc d)) (stagedv m d)) $$ HoCr
  icases HC with ⟨HCd, HCt⟩
  sl_for (tripInv m d L O W) $$ [Hmw HsI HsemF Hz Hl HsemZ HsZl HsZr HsemC HsC HZd HZt HCd HCt HO]
  case region => intro k acc; exact trip_region m d L hpre O W _ _ _ _ _ k acc
  · unfold tripInv
    isplitr; · iexact Hmw
    isplitl [HsI]; · iexact HsI
    isplitl [HsemF]; · iexact HsemF
    isplitl [Hz]; · iexact Hz
    isplitl [Hl]; · iexact Hl
    isplitl [HsemZ HsZl HsZr]
    · iexists fZ; isplitr
      · ipureintro; intro h; exact absurd h (by decide)
      isplitl [HsemZ]; · iexact HsemZ
      isplitl [HsZl]; · iexact HsZl
      iexact HsZr
    isplitl [HsemC HsC]
    · iexists fC
      isplitl [HsemC]; · iexact HsemC
      iexact HsC
    isplitl [HZd]; · iexact HZd
    isplitl [HZt]; · iexact HZt
    isplitl [HCd]; · iexact HCd
    isplitl [HCt]; · iexact HCt
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold tripInv
  icases HI with ⟨-, HsI, HfF, Hz, Hl, ⟨%gZ, %hgZ, HfZ, HsZl, HsZr⟩, ⟨%gC, HfC, HsCr⟩, HZd, HZt, HCd, HCt, %W', %hW', HO⟩
  sl_exec
  sl_step
  have h16 : 1 ≤ k0_t1_loop.trips := by rw [trips16]; decide
  -- the last trip's rows come back final: all of the tile's rows hold the specification
  ihave HZ := (rows_final (F := F) d (fun j => (oZ L j).view.set) (m (oLoc d)) (stagedv m d)) $$ [HfZ_dst HZd HZt]
  · isplitl [HfZ_dst]
    · icases HfZ_dst with ⟨%f, %hf, Hf⟩
      iexists f; isplitr
      · ipureintro; exact hf h16
      · iexact Hf
    isplitl [HZd] <;> iassumption
  ihave HC := (rows_final (F := F) d (fun j => (oC L j).view.set) (m (oLoc d)) (stagedv m d)) $$ [HfC_dst HCd HCt]
  · isplitl [HfC_dst]
    · icases HfC_dst with ⟨%f, %hf, Hf⟩
      iexists f; isplitr
      · ipureintro; exact hf h16
      · iexact Hf
    isplitl [HCd] <;> iassumption
  -- the gathered row's two halves
  ihave HsZ := (pointsTo_share (PosShare.mem_left_op_right fullShare)).2 $$ [HsZl HsZr]
  · isplitl [HsZl] <;> iassumption
  isplitl [Hi Hz Hl HZ HC]
  · isplitl [Hi]; · iapply (Entails.of_eq (pts_i (F := F) d L _ _)); iexact Hi
    isplitl [Hz]; · iapply (Entails.of_eq (pts_zT (F := F) d L _ _)); iexact Hz
    isplitl [Hl]; · iapply (Entails.of_eq (pts_lT (F := F) d L _ _)); iexact Hl
    isplitl [HZ]; · iexact HZ
    iexact HC
  isplitl [HsI HfF_dst HsZ HsCr Hbufs]
  · isplitl [HsI]; · iexists _; iexact HsI
    isplitl [HfF_dst]; · iexists _; iexact HfF_dst
    isplitl [HsZ]; · iexists _; iexact HsZ
    isplitl [HsCr]; · iexists _; iexact HsCr
    iexact Hbufs
  isplitl [HfF HfZ HfC HsemI Hsems]
  · isplitl [HfF]; · iexact HfF
    isplitl [HfZ]; · iexact HfZ
    isplitl [HfC]; · iexact HfC
    isplitl [HsemI]; · iexact HsemI
    iexact Hsems
  iexists (insert (SemLoc.dma cc0_scratch6.sem, (default : HIx 1)) (insert (SemLoc.dma cc0_scratch5.sem, (default : HIx 1))
    (insert (SemLoc.dma cc0_scratch4.sem, (default : HIx 1)) W')))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile

/-! ## The launch theorem's obligation -/

variable [FloatOps F]

theorem defs₀_vector (c : Fin τ.nSC) (s : Fin τ.nSub) :
    defs₀ (F := F) (.scVector c s) 0 ()
      = SparseCore.onTile hcore0 hsub0 (fun c s => cc0__sc_body (coordsV c s)
          zTW (Memref.isWhole_whole _) lTW (Memref.isWhole_whole _) iW (Memref.isWhole_whole _) oW (Memref.isWhole_whole _)
          sI (Memref.isWhole_whole _) sB (Memref.isWhole_whole _) sZ (Memref.isWhole_whole _) sC (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KernelIdeal

end
-- ==== Proof.KernelIdeal.LaunchRows.lean ====
/-
  The launch, first part: how the arrays of a device are divided among the 32 tiles of the one SparseCore call.

  The output array is the disjoint union of 1024 rows, two per (SparseCore, tile, trip); the index list and the two staged
  tables go out as 32 read tokens each, token 2 i + c to tile (c, i). Hence the two SparseCores' operands, taken
  together, are the three arrays' tokens and the output array whole, and so are their results.
-/
import proofs.«205357_g36507222016157_cont_8to1_b_501_45_alg».proof.Proof.KernelIdeal.Setup
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-! ## The output array, row by row

Trip `t` of tile `(c, i)` writes table row `r = 32 i + 16 c + t`, that is the two output rows `(r / 64, 0, r % 64, ·)`
and `(r / 64, 1, r % 64, ·)`. As `(c, i, t)` ranges over 2 x 16 x 16 the number `r` takes each value below 512 once, so
these 1024 rows are pairwise disjoint and cover the array. -/

theorem trips_eq : k0_t1_loop.trips = 16 := by decide

/-- A rectangle of one full row of the output array: the first three coordinates fixed. -/
theorem mem_unit4 (off : Fin 4 → ℕ) (inb : ∀ a, off a + S1x1x1x4096.size a ≤ S8x2x64x4096.size a) (j : S8x2x64x4096.Idx) (h3 : off 3 = 0) :
    j ∈ (Rect.unit (s := S8x2x64x4096) off S1x1x1x4096.size inb).set ↔ (j 0).val = off 0 ∧ (j 1).val = off 1 ∧ (j 2).val = off 2 := by
  rw [Rect.mem_set_unit]
  have h3' : (j 3).val < 4096 := (j 3).isLt
  have e0 : S1x1x1x4096.size 0 = 1 := rfl
  have e1 : S1x1x1x4096.size 1 = 1 := rfl
  have e2 : S1x1x1x4096.size 2 = 1 := rfl
  have e3 : S1x1x1x4096.size 3 = 4096 := rfl
  constructor
  · intro h
    have h0 := h 0; have h1 := h 1; have h2 := h 2
    rw [e0] at h0; rw [e1] at h1; rw [e2] at h2
    exact ⟨by omega, by omega, by omega⟩
  · rintro ⟨h0, h1, h2⟩ a
    match a with
    | 0 => rw [e0]; omega
    | 1 => rw [e1]; omega
    | 2 => rw [e2]; omega
    | 3 => rw [e3, h3]; omega

/-- The table row of trip `t` of tile `L`. -/
def rowOf (L : grid0.Coords) (t : Fin k0_t1_loop.trips) : ℕ := 32 * (L 1).val + 16 * (L 0).val + t.val

theorem mem_oZ (L : grid0.Coords) (t : Fin k0_t1_loop.trips) (j : S8x2x64x4096.Idx) :
    j ∈ (oZ L t).view.set ↔ (j 0).val = rowOf L t / 64 ∧ (j 1).val = 0 ∧ (j 2).val = rowOf L t % 64 := by
  show j ∈ (((Memref.whole main_v4_scv : Memref sig .scVector .hbm S8x2x64x4096 .f32).view.slice
      (Rect.unit (s := S8x2x64x4096) (k0_off5 L t) S1x1x1x4096.size (k0_off5_inb L t))).reshape S4096 squeezes_S1x1x1x4096_S4096.numel_eq).set ↔ _
  rw [View.set_reshape]
  show j ∈ ((View.whole (main_v4_scv : Ref sig .scVector)).slice (Rect.unit (s := S8x2x64x4096) (k0_off5 L t) S1x1x1x4096.size (k0_off5_inb L t))).set ↔ _
  rw [View.set_slice_whole, mem_unit4 _ _ _ (by rw [k0_off5_eq]; rfl), k0_off5_eq]
  rfl

theorem mem_oC (L : grid0.Coords) (t : Fin k0_t1_loop.trips) (j : S8x2x64x4096.Idx) :
    j ∈ (oC L t).view.set ↔ (j 0).val = rowOf L t / 64 ∧ (j 1).val = 1 ∧ (j 2).val = rowOf L t % 64 := by
  show j ∈ (((Memref.whole main_v4_scv : Memref sig .scVector .hbm S8x2x64x4096 .f32).view.slice
      (Rect.unit (s := S8x2x64x4096) (k0_off8 L t) S1x1x1x4096.size (k0_off8_inb L t))).reshape S4096 squeezes_S1x1x1x4096_S4096.numel_eq).set ↔ _
  rw [View.set_reshape]
  show j ∈ ((View.whole (main_v4_scv : Ref sig .scVector)).slice (Rect.unit (s := S8x2x64x4096) (k0_off8 L t) S1x1x1x4096.size (k0_off8_inb L t))).set ↔ _
  rw [View.set_slice_whole, mem_unit4 _ _ _ (by rw [k0_off8_eq]; rfl), k0_off8_eq]
  rfl

theorem rowOf_coordsK (c : Fin ((K (F := F)).nCore 0)) (i : Fin ((K (F := F)).nSub 0)) (t : Fin k0_t1_loop.trips) :
    rowOf (coordsK c i) t = 32 * i.val + 16 * c.val + t.val := rfl

/-- An output row's index: SparseCore, tile, trip, slot. -/
abbrev RowIx (F : FTy → Type) : Type := Fin ((K (F := F)).nCore 0) × Fin ((K (F := F)).nSub 0) × Fin k0_t1_loop.trips × Fin 2

/-- The output row, as a set of the array's indices. -/
def rowSet (p : RowIx F) : Finset S8x2x64x4096.Idx :=
  if p.2.2.2 = 0 then (oZ (coordsK p.1 p.2.1) p.2.2.1).view.set else (oC (coordsK p.1 p.2.1) p.2.2.1).view.set

theorem rowSet_zero (c : Fin ((K (F := F)).nCore 0)) (i : Fin ((K (F := F)).nSub 0)) (t : Fin k0_t1_loop.trips) :
    rowSet (F := F) (c, i, t, 0) = (oZ (coordsK c i) t).view.set := if_pos rfl
theorem rowSet_one (c : Fin ((K (F := F)).nCore 0)) (i : Fin ((K (F := F)).nSub 0)) (t : Fin k0_t1_loop.trips) :
    rowSet (F := F) (c, i, t, 1) = (oC (coordsK c i) t).view.set := if_neg (show ¬ ((1 : Fin 2) = 0) by decide)

theorem mem_rowSet (c : Fin ((K (F := F)).nCore 0)) (i : Fin ((K (F := F)).nSub 0)) (t : Fin k0_t1_loop.trips) (s : Fin 2) (j : S8x2x64x4096.Idx) :
    j ∈ rowSet (F := F) (c, i, t, s) ↔ (j 0).val = (32 * i.val + 16 * c.val + t.val) / 64 ∧ (j 1).val = s.val ∧ (j 2).val = (32 * i.val + 16 * c.val + t.val) % 64 := by
  match s with
  | 0 => rw [rowSet_zero, mem_oZ, rowOf_coordsK]; rfl
  | 1 => rw [rowSet_one, mem_oC, rowOf_coordsK]; rfl

theorem rowSet_disjoint : ∀ p ∈ (Finset.univ : Finset (RowIx F)), ∀ p' ∈ (Finset.univ : Finset (RowIx F)), p ≠ p' → Disjoint (rowSet p) (rowSet p') := by
  rintro ⟨c, i, t, s⟩ - ⟨c', i', t', s'⟩ - hne
  refine Finset.disjoint_left.mpr fun j h h' => hne ?_
  rw [mem_rowSet] at h h'
  obtain ⟨a0, a1, a2⟩ := h
  obtain ⟨b0, b1, b2⟩ := h'
  have hc : c.val < 2 := c.isLt
  have hc' : c'.val < 2 := c'.isLt
  have hi : i.val < 16 := i.isLt
  have hi' : i'.val < 16 := i'.isLt
  have ht : t.val < 16 := trips_eq ▸ t.isLt
  have ht' : t'.val < 16 := trips_eq ▸ t'.isLt
  have e1 : c = c' := Fin.ext (by omega)
  have e2 : i = i' := Fin.ext (by omega)
  have e3 : t = t' := Fin.ext (by omega)
  have e4 : s = s' := Fin.ext (by omega)
  rw [e1, e2, e3, e4]

theorem rowSet_cover : (Finset.univ : Finset (RowIx F)).biUnion rowSet = (Finset.univ : Finset S8x2x64x4096.Idx) := by
  ext j
  simp only [Finset.mem_biUnion, Finset.mem_univ, true_and, iff_true]
  have h0 : (j 0).val < 8 := (j 0).isLt
  have h1 : (j 1).val < 2 := (j 1).isLt
  have h2 : (j 2).val < 64 := (j 2).isLt
  refine ⟨(⟨((64 * (j 0).val + (j 2).val) / 16) % 2, by show _ < 2; omega⟩, ⟨(64 * (j 0).val + (j 2).val) / 32, by show _ < 16; omega⟩,
    ⟨(64 * (j 0).val + (j 2).val) % 16, by rw [trips_eq]; omega⟩, ⟨(j 1).val, h1⟩), ?_⟩
  rw [mem_rowSet]
  dsimp only
  omega

/-- The whole output array is its 1024 rows, grouped by SparseCore and tile as the call hands them out. -/
theorem oPts_rows (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => oRows d (coordsK c i) f := by
  rw [show (oLoc d ↦{fullShare} f : sProp 𝕄) = oLoc d ↦[(Finset.univ : Finset (RowIx F)).biUnion rowSet]{fullShare} f from by rw [rowSet_cover],
    pointsTo_biUnion Finset.univ (ℓ := oLoc d) rowSet rowSet_disjoint, bigSep_univ_prod]
  refine bigSep_congr fun c _ => ?_
  rw [bigSep_univ_prod]
  refine bigSep_congr fun i _ => ?_
  unfold oRows
  rw [bigSep_univ_prod, ← bigSep_sep']
  refine bigSep_congr fun t _ => ?_
  rw [bigSep_univ_two, rowSet_zero, rowSet_one]

/-! ## The read shares: 32 tokens, one per tile -/

/-- Tile `(c, i)` has number `2 i + c`: a bijection onto the 32 tokens. -/
def widEquiv : Fin ((K (F := F)).nCore 0) × Fin ((K (F := F)).nSub 0) ≃ Fin 32 where
  toFun p := wid (coordsK p.1 p.2)
  invFun w := (⟨w.val % 2, by show _ < 2; omega⟩, ⟨w.val / 2, by show _ < 16; have := w.isLt; omega⟩)
  left_inv p := by
    obtain ⟨c, i⟩ := p
    have hc : c.val < 2 := c.isLt
    have hw : (wid (coordsK c i)).val = i.val * 2 + c.val := rfl
    refine Prod.ext (Fin.ext ?_) (Fin.ext ?_)
    · show (wid (coordsK c i)).val % 2 = c.val; omega
    · show (wid (coordsK c i)).val / 2 = i.val; omega
  right_inv w := by
    refine Fin.ext ?_
    show (w.val / 2) * 2 + w.val % 2 = w.val
    omega

theorem toks_reindex (Ψ : Fin 32 → sProp 𝕄) :
    (bigSep Finset.univ fun c : Fin ((K (F := F)).nCore 0) => bigSep Finset.univ fun i : Fin ((K (F := F)).nSub 0) => Ψ (wid (coordsK c i)))
      = bigSep Finset.univ Ψ := by
  rw [bigSep_univ_equiv (widEquiv (F := F)) Ψ, bigSep_univ_prod]; rfl

/-- The 32 read tokens of an array. -/
abbrev TOK (ℓ : Loc nD τ sig) (g : Buf (Elt F) ℓ) : sProp 𝕄 := bigSep Finset.univ fun w : Fin 32 => ℓ ↦{shareTok fullShare 32 w} g

/-- What the two SparseCores' 32 tiles hold between them: every token of the index list and of the two staged tables,
    and the output array whole. -/
theorem tiles_eq (d : Dev nD) (f : Buf (Elt F) (oLoc d)) :
    (bigSep Finset.univ fun c : Fin ((K (F := F)).nCore 0) => bigSep Finset.univ fun i : Fin ((K (F := F)).nSub 0) => tileGo m d (coordsK c i) f)
      = iprop(TOK (iLoc d) (m (iLoc d)) ∗ TOK (zTLoc d) (zTv m d) ∗ TOK (lTLoc d) (lTv m d) ∗ oLoc d ↦{fullShare} f) := by
  unfold tileGo
  simp only [bigSep_sep']
  rw [toks_reindex (F := F) (fun w => iLoc d ↦{shareTok fullShare 32 w} m (iLoc d)),
    toks_reindex (F := F) (fun w => zTLoc d ↦{shareTok fullShare 32 w} zTv m d),
    toks_reindex (F := F) (fun w => lTLoc d ↦{shareTok fullShare 32 w} lTv m d), ← oPts_rows]

theorem tileTd_eq (d : Dev nD) (L : grid0.Coords) : tileTd m d L = tileGo m d L (stagedv m d) := rfl

/-- What the call takes and what it hands back, over the payloads. -/
theorem P_st (d : Dev nD) (c : Fin ((K (F := F)).nCore 0)) :
    (P m).st 0 d c = bigSep Finset.univ fun i : Fin ((K (F := F)).nSub 0) => tileGo m d (coordsK c i) (m (oLoc d)) := rfl
theorem P_dn (d : Dev nD) (c : Fin ((K (F := F)).nCore 0)) :
    (P m).dn 0 d c = bigSep Finset.univ fun i : Fin ((K (F := F)).nSub 0) => tileGo m d (coordsK c i) (stagedv m d) := rfl
theorem P_go (d : Dev nD) (c : Fin ((K (F := F)).nCore 0)) (i : Fin ((K (F := F)).nSub 0)) :
    (P m).go 0 d c i = tileGo m d (coordsK c i) (m (oLoc d)) := rfl
theorem P_td (d : Dev nD) (c : Fin ((K (F := F)).nCore 0)) (i : Fin ((K (F := F)).nSub 0)) :
    (P m).td 0 d c i = tileGo m d (coordsK c i) (stagedv m d) := rfl

theorem st0_eq (d : Dev nD) : (bigSep Finset.univ fun c : Fin ((K (F := F)).nCore 0) => (P m).st 0 d c)
    = iprop(TOK (iLoc d) (m (iLoc d)) ∗ TOK (zTLoc d) (zTv m d) ∗ TOK (lTLoc d) (lTv m d) ∗ oLoc d ↦{fullShare} m (oLoc d)) := by
  rw [← tiles_eq]; exact bigSep_congr fun c _ => P_st m d c
theorem dn0_eq (d : Dev nD) : (bigSep Finset.univ fun c : Fin ((K (F := F)).nCore 0) => (P m).dn 0 d c)
    = iprop(TOK (iLoc d) (m (iLoc d)) ∗ TOK (zTLoc d) (zTv m d) ∗ TOK (lTLoc d) (lTv m d) ∗ oLoc d ↦{fullShare} stagedv m d) := by
  rw [← tiles_eq]; exact bigSep_congr fun c _ => P_dn m d c

/-- A SparseCore's operands are its tiles', and its results theirs: nothing to split. -/
theorem vecSplit : (K (F := F)).VecSplit' (P m) 0 := by
  intro d c
  rw [P_st, P_dn, bigSep_congr fun i _ => P_go m d c i, bigSep_congr fun i _ => P_td m d c i]
  iintro H; imodintro
  isplitl [H]; · iexact H
  iintro H; iexact H

end Cert.Proof.KernelIdeal

end
-- ==== Proof.KernelIdeal.Launch.lean ====
/-
  The launch, second part: the launch element of the ghost state, @main on the TensorCore — the two tables staged by
  a transpose and a reshape each, the one SparseCore call over the shares and rows of the first part, the result
  transposed —, how the final memory reads the claim, and the program's run from the tile's obligation.
-/
import proofs.«205357_g36507222016157_cont_8to1_b_501_45_alg».proof.Proof.KernelIdeal.Setup
import proofs.«205357_g36507222016157_cont_8to1_b_501_45_alg».proof.Proof.KernelIdeal.LaunchRows
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element of the ghost state: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P (F := F) m).x q thr = iprop(emp) := rfl

theorem Px_all : (bigSep Finset.univ fun thr : Thread nD τ => bigSep Finset.univ fun q : Fin 1 => (P (F := F) m).x q thr) = (iprop(emp) : sProp 𝕄) := by
  rw [bigSep_congr fun thr _ => (bigSep_congr fun q _ => P_x m q thr).trans (bigSep_emp' _), bigSep_emp']

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [Px_all]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The five host operations: a table's axes exchanged, its first two axes merged, the same for the second table; after
    the call, the output array's last axis moved to second place. -/
abbrev opZ0 : HloOp τ sig (Elt F) :=
  StableHlo.unary main_arg1 main_v0 ((transpose S8x64x100000 [0, 2, 1] · transposes_S8x100000x64_S8x64x100000_0_2_1) : (⟨S8x100000x64, .f32⟩ : BufTy).Contents (Elt F) → (⟨S8x64x100000, .f32⟩ : BufTy).Contents (Elt F))
abbrev opZT : HloOp τ sig (Elt F) := StableHlo.reshape main_v0 main_v1 rfl shapeCasts_S8x64x100000_S512x100000
abbrev opL0 : HloOp τ sig (Elt F) :=
  StableHlo.unary main_arg2 main_v2 ((transpose S8x64x100000 [0, 2, 1] · transposes_S8x100000x64_S8x64x100000_0_2_1) : (⟨S8x100000x64, .f32⟩ : BufTy).Contents (Elt F) → (⟨S8x64x100000, .f32⟩ : BufTy).Contents (Elt F))
abbrev opLT : HloOp τ sig (Elt F) := StableHlo.reshape main_v2 main_v3 rfl shapeCasts_S8x64x100000_S512x100000
abbrev opR : HloOp τ sig (Elt F) :=
  StableHlo.unary main_v4 main_v5 ((transpose S8x4096x2x64 [0, 3, 1, 2] · transposes_S8x2x64x4096_S8x4096x2x64_0_3_1_2) : (⟨S8x2x64x4096, .f32⟩ : BufTy).Contents (Elt F) → (⟨S8x4096x2x64, .f32⟩ : BufTy).Contents (Elt F))

/-- The TensorCore's arrays, all unscoped. -/
abbrev S9 : Finset (DevRef τ sig) := {a0', a1', a2', v0', v1', v2', v3', v4', v5'}
/-- The two arrays of the last operation. -/
abbrev S2 : Finset (DevRef τ sig) := {v4', v5'}

omit [FloatOps F] in
theorem held_S9 (d : Dev nD) (W : Valuation τ sig (Elt F)) :
    (held (T d) S9 W : sProp 𝕄) = iprop((iLoc d ↦{fullShare} W a0') ∗ (zLoc d ↦{fullShare} W a1') ∗ (lLoc d ↦{fullShare} W a2') ∗ (z0Loc d ↦{fullShare} W v0')
      ∗ (zTLoc d ↦{fullShare} W v1') ∗ (l0Loc d ↦{fullShare} W v2') ∗ (lTLoc d ↦{fullShare} W v3') ∗ (oLoc d ↦{fullShare} W v4') ∗ rLoc d ↦{fullShare} W v5') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v4') ∗ rLoc d ↦{fullShare} W v5') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (zLoc d ↦{fullShare} W main_arg1) ∗ (lLoc d ↦{fullShare} W main_arg2) ∗ (z0Loc d ↦{fullShare} W main_v0)
      ∗ (zTLoc d ↦{fullShare} W main_v1) ∗ (l0Loc d ↦{fullShare} W main_v2) ∗ (lTLoc d ↦{fullShare} W main_v3) ∗ (oLoc d ↦{fullShare} W main_v4) ∗ rLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The launch valuation, and the valuation after the four operations before the call. -/
def V0 (d : Dev nD) : Valuation τ sig (Elt F) := fun b => m (d, b)
abbrev V1 (d : Dev nD) : Valuation τ sig (Elt F) := (opZ0 (F := F)).result (V0 m d)
abbrev V2 (d : Dev nD) : Valuation τ sig (Elt F) := (opZT (F := F)).result (V1 m d)
abbrev V3 (d : Dev nD) : Valuation τ sig (Elt F) := (opL0 (F := F)).result (V2 m d)
abbrev V4 (d : Dev nD) : Valuation τ sig (Elt F) := (opLT (F := F)).result (V3 m d)
/-- Before the last operation: the output array at what the call left. -/
def V5 (d : Dev nD) : Valuation τ sig (Elt F) := Function.update (V0 m d) v4' (stagedv m d)

theorem unscoped_held (d : Dev nD) : (unscopedBufs d (fun b => m ((SparseCore.T d).loc b)) : sProp 𝕄) = held (T d) S9 (V0 m d) := by
  rw [unscopedBufs_eq, held_S9]; rfl

/-- The transposed tables, which the call does not read. -/
def z0v (d : Dev nD) : FVec F S8x64x100000 .f32 := transpose S8x64x100000 [0, 2, 1] (m (zLoc d)) transposes_S8x100000x64_S8x64x100000_0_2_1
def l0v (d : Dev nD) : FVec F S8x64x100000 .f32 := transpose S8x64x100000 [0, 2, 1] (m (lLoc d)) transposes_S8x100000x64_S8x64x100000_0_2_1

theorem V4_a0 (d : Dev nD) : V4 m d a0' = m (iLoc d) := by
  unfold V4 V3 V2 V1
  rw [StableHlo.reshape_result_ne (r := main_arg0) (y := main_v3) (h := by decide), StableHlo.unary_result_ne (r := main_arg0) (y := main_v2) (h := by decide), StableHlo.reshape_result_ne (r := main_arg0) (y := main_v1) (h := by decide), StableHlo.unary_result_ne (r := main_arg0) (y := main_v0) (h := by decide)]; rfl
theorem V4_a1 (d : Dev nD) : V4 m d a1' = m (zLoc d) := by
  unfold V4 V3 V2 V1
  rw [StableHlo.reshape_result_ne (r := main_arg1) (y := main_v3) (h := by decide), StableHlo.unary_result_ne (r := main_arg1) (y := main_v2) (h := by decide), StableHlo.reshape_result_ne (r := main_arg1) (y := main_v1) (h := by decide), StableHlo.unary_result_ne (r := main_arg1) (y := main_v0) (h := by decide)]; rfl
theorem V4_a2 (d : Dev nD) : V4 m d a2' = m (lLoc d) := by
  unfold V4 V3 V2 V1
  rw [StableHlo.reshape_result_ne (r := main_arg2) (y := main_v3) (h := by decide), StableHlo.unary_result_ne (r := main_arg2) (y := main_v2) (h := by decide), StableHlo.reshape_result_ne (r := main_arg2) (y := main_v1) (h := by decide), StableHlo.unary_result_ne (r := main_arg2) (y := main_v0) (h := by decide)]; rfl
theorem V4_v4 (d : Dev nD) : V4 m d v4' = m (oLoc d) := by
  unfold V4 V3 V2 V1
  rw [StableHlo.reshape_result_ne (r := main_v4) (y := main_v3) (h := by decide), StableHlo.unary_result_ne (r := main_v4) (y := main_v2) (h := by decide), StableHlo.reshape_result_ne (r := main_v4) (y := main_v1) (h := by decide), StableHlo.unary_result_ne (r := main_v4) (y := main_v0) (h := by decide)]; rfl
theorem V4_v5 (d : Dev nD) : V4 m d v5' = m (rLoc d) := by
  unfold V4 V3 V2 V1
  rw [StableHlo.reshape_result_ne (r := main_v5) (y := main_v3) (h := by decide), StableHlo.unary_result_ne (r := main_v5) (y := main_v2) (h := by decide), StableHlo.reshape_result_ne (r := main_v5) (y := main_v1) (h := by decide), StableHlo.unary_result_ne (r := main_v5) (y := main_v0) (h := by decide)]; rfl
theorem V4_v0 (d : Dev nD) : V4 m d v0' = z0v m d := by
  unfold V4 V3 V2 V1
  rw [StableHlo.reshape_result_ne (r := main_v0) (y := main_v3) (h := by decide), StableHlo.unary_result_ne (r := main_v0) (y := main_v2) (h := by decide), StableHlo.reshape_result_ne (r := main_v0) (y := main_v1) (h := by decide), StableHlo.unary_result]; rfl
theorem V4_v1 (d : Dev nD) : V4 m d v1' = zTv m d := by
  unfold V4 V3 V2 V1
  rw [StableHlo.reshape_result_ne (r := main_v1) (y := main_v3) (h := by decide), StableHlo.unary_result_ne (r := main_v1) (y := main_v2) (h := by decide), StableHlo.reshape_result, StableHlo.unary_result]; rfl
theorem V4_v2 (d : Dev nD) : V4 m d v2' = l0v m d := by
  unfold V4 V3 V2 V1
  rw [StableHlo.reshape_result_ne (r := main_v2) (y := main_v3) (h := by decide), StableHlo.unary_result, StableHlo.reshape_result_ne (r := main_arg2) (y := main_v1) (h := by decide), StableHlo.unary_result_ne (r := main_arg2) (y := main_v0) (h := by decide)]; rfl
theorem V4_v3 (d : Dev nD) : V4 m d v3' = lTv m d := by
  unfold V4 V3 V2 V1
  rw [StableHlo.reshape_result, StableHlo.unary_result, StableHlo.reshape_result_ne (r := main_arg2) (y := main_v1) (h := by decide), StableHlo.unary_result_ne (r := main_arg2) (y := main_v0) (h := by decide)]; rfl

theorem held_V4 (d : Dev nD) :
    (held (T d) S9 (V4 m d) : sProp 𝕄) = iprop((iLoc d ↦{fullShare} m (iLoc d)) ∗ (zLoc d ↦{fullShare} m (zLoc d)) ∗ (lLoc d ↦{fullShare} m (lLoc d)) ∗ (z0Loc d ↦{fullShare} z0v m d)
      ∗ (zTLoc d ↦{fullShare} zTv m d) ∗ (l0Loc d ↦{fullShare} l0v m d) ∗ (lTLoc d ↦{fullShare} lTv m d) ∗ (oLoc d ↦{fullShare} m (oLoc d)) ∗ rLoc d ↦{fullShare} m (rLoc d)) := by
  rw [held_S9, V4_a0, V4_a1, V4_a2, V4_v0, V4_v1, V4_v2, V4_v3, V4_v4, V4_v5]

theorem V5_o (d : Dev nD) : V5 m d v4' = stagedv m d := Function.update_self _ _ _
theorem V5_r (d : Dev nD) : V5 m d v5' = m (rLoc d) := Function.update_of_ne (show v5' ≠ v4' by decide) _ _

theorem held_R (d : Dev nD) :
    (held (T d) S2 ((opR (F := F)).result (V5 m d)) : sProp 𝕄)
      = iprop((oLoc d ↦{fullShare} stagedv m d) ∗ rLoc d ↦{fullShare} transpose S8x4096x2x64 [0, 3, 1, 2] (stagedv m d) transposes_S8x2x64x4096_S8x4096x2x64_0_3_1_2) := by
  rw [held_S2, StableHlo.unary_result, StableHlo.unary_result_ne (r := main_v4) (y := main_v5) (h := by decide), V5_o]

theorem hZ0 : (opZ0 (F := F)).bufs ⊆ S9 := show ({a1', v0'} : Finset (DevRef τ sig)) ⊆ S9 by decide
theorem hZT : (opZT (F := F)).bufs ⊆ S9 := show ({v0', v1'} : Finset (DevRef τ sig)) ⊆ S9 by decide
theorem hL0 : (opL0 (F := F)).bufs ⊆ S9 := show ({a2', v2'} : Finset (DevRef τ sig)) ⊆ S9 by decide
theorem hLT : (opLT (F := F)).bufs ⊆ S9 := show ({v2', v3'} : Finset (DevRef τ sig)) ⊆ S9 by decide
theorem hR : (opR (F := F)).bufs ⊆ S2 := show ({v4', v5'} : Finset (DevRef τ sig)) ⊆ S2 by decide

/-- What @main leaves the claim: the result array at the transposed specification, the three arguments as launched. -/
abbrev FIN (d : Dev nD) : sProp 𝕄 :=
  iprop((rLoc d ↦{fullShare} transpose S8x4096x2x64 [0, 3, 1, 2] (stagedv m d) transposes_S8x2x64x4096_S8x4096x2x64_0_3_1_2)
    ∗ (iLoc d ↦{fullShare} m (iLoc d)) ∗ (zLoc d ↦{fullShare} m (zLoc d)) ∗ lLoc d ↦{fullShare} m (lLoc d))

/-- @main on device `d`'s TensorCore: the two tables staged; the call, handed every token of the index list and of the
    staged tables and the output array whole, which comes back at the specification; the result transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the four operations before the call
  iapply (wp_hlo_within 𝒱 (SparseCore.T d) none Set.univ (op := opZ0) (S := S9) hZ0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opZT) (S := S9) hZT) $$ [Hb Hheld]
  · isplitl [Hb]; · iexact Hb
    iexact Hheld
  iintro ⟨Hb, Hheld⟩
  rw [wp_ret]; imodintro
  iapply (wp_hlo_within 𝒱 (SparseCore.T d) none Set.univ (op := opL0) (S := S9) hL0) $$ [Hb Hheld]
  · isplitl [Hb]; · iexact Hb
    iexact Hheld
  iintro ⟨Hb, Hheld⟩
  rw [wp_ret]; imodintro
  iapply (wp_hlo_within 𝒱 (SparseCore.T d) none Set.univ (op := opLT) (S := S9) hLT) $$ [Hb Hheld]
  · isplitl [Hb]; · iexact Hb
    iexact Hheld
  iintro ⟨Hb, Hheld⟩
  rw [wp_ret]; imodintro
  ihave Hh := (Entails.of_eq (held_V4 m d)) $$ Hheld
  icases Hh with ⟨Hi, Hz, Hl, -, HzT, -, HlT, Ho, Hr⟩
  -- the read shares: 32 tokens of each array read, the remainder of the index list kept aside
  ihave Hi' := (Transfers.pointsTo_toks_split fullShare 32) $$ Hi
  icases Hi' with ⟨Hir, Hit⟩
  ihave HzT' := (Transfers.pointsTo_toks_split fullShare 32) $$ HzT
  icases HzT' with ⟨-, Hzt⟩
  ihave HlT' := (Transfers.pointsTo_toks_split fullShare 32) $$ HlT
  icases HlT' with ⟨-, Hlt⟩
  -- the call
  iapply ((K (F := F)).wp_run (D (F := F)) 𝒱 (EH := EH) (P := P m) κ d 0) $$ [Hst Hit Hzt Hlt Ho Hb Hir Hz Hl Hr]
  isplitr; · iexact Hctx
  isplitl [Hst]; · iexact Hst
  isplitl [Hit Hzt Hlt Ho]
  · rw [st0_eq]
    isplitl [Hit]; · iexact Hit
    isplitl [Hzt]; · iexact Hzt
    isplitl [Hlt]; · iexact Hlt
    iexact Ho
  iintro ⟨Hst, Hdn⟩
  ihave Hdn' := (Entails.of_eq (dn0_eq m d)) $$ Hdn
  icases Hdn' with ⟨Hit, -, -, Ho⟩
  ihave Hi := (Transfers.pointsTo_toks_join fullShare 32) $$ [Hir Hit]
  · isplitl [Hir]; · iexact Hir
    iexact Hit
  -- the transpose after the call
  iapply (wp_hlo_within 𝒱 (SparseCore.T d) none Set.univ (op := opR) (S := S2) hR (V := V5 m d)) $$ [Hb Ho Hr]
  · isplitl [Hb]; · iexact Hb
    rw [held_S2, V5_o, V5_r]
    isplitl [Ho]; · iexact Ho
    iexact Hr
  iintro ⟨Hb, Hheld⟩
  ihave Hh := (Entails.of_eq (held_R m d)) $$ Hheld
  icases Hh with ⟨-, Hr⟩
  rw [wp_ret]; imodintro; imodintro
  isplitl [Hst]; · iexact Hst
  isplitl [Hr]; · iexact Hr
  isplitl [Hi]; · iexact Hi
  isplitl [Hz]; · iexact Hz
  iexact Hl

/-! ## The final memory -/

def fq (d : Dev nD) (s' : Phys nD τ sig (Elt F)) : Prop :=
  s'.mem.mem (rLoc d) = transpose S8x4096x2x64 [0, 3, 1, 2] (stagedv m d) transposes_S8x2x64x4096_S8x4096x2x64_0_3_1_2
    ∧ s'.mem.mem (iLoc d) = m (iLoc d) ∧ s'.mem.mem (zLoc d) = m (zLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hr, Hi, Hz, Hl⟩, HSI⟩
  ihave H := (persistent_entails_right (SI_pointsTo_agree (st := s') (ℓ := rLoc d) (I := Finset.univ) (q := fullShare)
      (f := transpose S8x4096x2x64 [0, 3, 1, 2] (stagedv m d) transposes_S8x2x64x4096_S8x4096x2x64_0_3_1_2))) $$ [HSI Hr]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := zLoc d) (I := Finset.univ) (q := fullShare) (f := m (zLoc d)))) $$ [HSI Hz]
  · isplitl [HSI] <;> iassumption
  icases H with ⟨%h3, HSI, -⟩
  ihave H := (SI_pointsTo_agree (st := s') (ℓ := lLoc d) (I := Finset.univ) (q := fullShare) (f := m (lLoc d))) $$ [HSI Hl]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- What the run leaves: the result array at the transposed specification over the staged tables, the three arguments unchanged. -/
def QC : PUnit × MemSt nD τ sig (Elt F) → Prop := fun r => ∀ c : Dev nD,
  r.2.mem (rLoc c) = transpose S8x4096x2x64 [0, 3, 1, 2] (stagedv m c) transposes_S8x2x64x4096_S8x4096x2x64_0_3_1_2
    ∧ r.2.mem (iLoc c) = m (iLoc c) ∧ r.2.mem (zLoc c) = m (zLoc c) ∧ r.2.mem (lLoc c) = m (lLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdeal

end
-- ==== Proof.RefTerm.lean ====
/-
  The reference program's result as ONE pure term of its three argument arrays.

  jnp.take along axis 1 is, per call: the index wrapped (a negative index has the axis length 100000 added), laid out as a
  column, gathered with (StableHLO's gather clamps the start into range), and masked: a gathered value is kept only
  where the wrapped index lies in [0, 99999], and is otherwise replaced by a fixed not-a-number word. The program
  gathers both tables with the same indices, adds the exponential of the second gather to the first, and lays the first
  gather and that sum side by side along a new axis of length two.
-/
import proofs.«205357_g36507222016157_cont_8to1_b_501_45_alg».proof.Proof.Gen.ReferenceIdeal

noncomputable section

namespace Cert.Proof.RefTerm

open Idealize.ShloMosaic Cert.ReferenceIdeal Cert.ReferenceIdeal.Facts₀

variable {F : FTy → Type} [FloatOps F]

/-- The index array with the axis length added to every negative entry. -/
def wrap (idx : IVec S4096 32) : IVec S4096 32 :=
  select (cmpi .slt idx (broadcastInDim S4096 ![] bcast_S_S4096 (constantI S_ 32 0#32)))
    (addi idx (broadcastInDim S4096 ![] bcast_S_S4096 (constantI S_ 32 100000#32))) idx

/-- The wrapped indices as a column: one start index per batch entry. -/
def col (idx : IVec S4096 32) : IVec S4096x1 32 :=
  broadcastInDim S4096x1 ![0] bcast_S4096_S4096x1_0 (wrap idx)

/-- Per batch entry, whether its wrapped index lies in [0, 99999]: the conjunction over the column's unit axis. -/
def mask (idx : IVec S4096 32) : IVec S4096 1 :=
  Host.reduce IntOp.andi
    (andi (cmpi .sge (col idx) (broadcastInDim S4096x1 ![] bcast_S_S4096x1 (constantI S_ 32 0#32)))
      (cmpi .sle (col idx) (broadcastInDim S4096x1 ![0, 1] bcast_S1x1_S4096x1_0_1
        (broadcastInDim S1x1 ![1] bcast_S1_S1x1_1 (constantI S1 32 99999#32)))))
    (constantI S_ 1 1#1) reducesTo_S4096x1_S4096_d1 h_S_

/-- One gather of a table along its box axis, out-of-range entries replaced by the not-a-number word. -/
def take (tbl : FVec F S8x100000x64 .f32) (idx : IVec S4096 32) : FVec F S8x4096x64 .f32 :=
  select (broadcastInDim S8x4096x64 ![1] bcast_S4096_S8x4096x64_1 (mask idx))
    (Host.gather gather_S8x100000x64_S4096x1_S8x4096x64_02_1_n_n_1_1_8164 tbl (col idx))
    (broadcastInDim S8x4096x64 ![] bcast_S_S8x4096x64 (constant S_ .f32 0x7FC00000#32))

/-- The program's result: the first table's gather beside that gather plus the exponential of the second table's. -/
def out (idx : IVec S4096 32) (z ld : FVec F S8x100000x64 .f32) : FVec F S8x4096x2x64 .f32 :=
  concatenate S8x4096x2x64 2
    [⟨S8x4096x1x64, broadcastInDim S8x4096x1x64 ![0, 1, 3] bcast_S8x4096x64_S8x4096x1x64_0_1_3 (take z idx)⟩,
     ⟨S8x4096x1x64, broadcastInDim S8x4096x1x64 ![0, 1, 3] bcast_S8x4096x64_S8x4096x1x64_0_1_3
        (addf (take z idx) (Host.exp (take ld idx)))⟩]
    concatenates_S8x4096x1x64_S8x4096x1x64_S8x4096x2x64_d2

end Cert.Proof.RefTerm

end
-- ==== Proof.RefSeq.lean ====
/-
  The reference program's run. Its entry function calls the gather helper twice (which calls the select helper once);
  a call means the callee's body on the operands, so with the helpers' bodies substituted at their call sites the
  entry function is a straight line of 51 tensor operations, each writing one buffer of its own. Every weakly fair
  execution of such a line terminates, and each buffer ends at the composition of the operations that feed it: the
  result buffer at the pure term `RefTerm.out` of the three argument arrays, which no operation writes.
-/
import proofs.«205357_g36507222016157_cont_8to1_b_501_45_alg».proof.Proof.RefTerm
import Idealize.ShloMosaic.Lib.StableHlo.Run

noncomputable section

namespace Cert.Proof.RefSeq

open Cert.ReferenceIdeal Cert.ReferenceIdeal.Facts₀ Idealize.ShloMosaic Idealize.ShloMosaic.TcCoe Idealize.SL.Sem
  Idealize.ShloMosaic.StableHlo Cert.Proof.RefTerm

variable {F : FTy → Type} [FloatOps F]

/-- The entry function's operations in program order, each helper's body listed at its call over that call's buffers:
    the gather helper's 23 (its select helper's one among them) for the first table, the same 23 for the second, then
    the exponential, the sum, the two insertions of a unit axis and the concatenation along it. -/
abbrev ops : List (HloOp τ sig (Elt F)) :=
  [
    TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 100000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 99999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S8x100000x64_S4096x1_S8x4096x64_02_1_n_n_1_1_8164 x i),
    TRef.unary main_call0.v12 main_call0.v14 (broadcastInDim S8x4096x64 ![1] bcast_S4096_S8x4096x64_1),
    TRef.nullary main_call0.cst (constant S_ .f32 0x7FC00000#32),
    TRef.unary main_call0.cst main_call0.v15 (broadcastInDim S8x4096x64 ![] bcast_S_S8x4096x64),
    TRef.ternary main_call0.v14 main_call0.v13 main_call0.v15 main_call0.v16 select,
    TRef.nullary main_call1.c (constantI S_ 32 0#32),
    TRef.unary main_call1.c main_call1.v0 (broadcastInDim S4096 ![] bcast_S_S4096),
    TRef.binary (.of main_arg0) main_call1.v0 main_call1.v1 (cmpi .slt),
    TRef.nullary main_call1.c_0 (constantI S_ 32 100000#32),
    TRef.unary main_call1.c_0 main_call1.v2 (broadcastInDim S4096 ![] bcast_S_S4096),
    TRef.binary (.of main_arg0) main_call1.v2 main_call1.v3 addi,
    TRef.ternary main_call1.v1 main_call1.v3 (.of main_arg0) main_call1.call0.v0 select,
    TRef.unary main_call1.call0.v0 main_call1.v5 (broadcastInDim S4096x1 ![0] bcast_S4096_S4096x1_0),
    TRef.nullary main_call1.c_1 (constantI S1 32 99999#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg2) main_call1.v5 main_call1.v13 (fun x i => Host.gather gather_S8x100000x64_S4096x1_S8x4096x64_02_1_n_n_1_1_8164 x i),
    TRef.unary main_call1.v12 main_call1.v14 (broadcastInDim S8x4096x64 ![1] bcast_S4096_S8x4096x64_1),
    TRef.nullary main_call1.cst (constant S_ .f32 0x7FC00000#32),
    TRef.unary main_call1.cst main_call1.v15 (broadcastInDim S8x4096x64 ![] bcast_S_S8x4096x64),
    TRef.ternary main_call1.v14 main_call1.v13 main_call1.v15 main_call1.v16 select,
    unary main_v1 main_v2 (Host.exp : (⟨S8x4096x64, .f32⟩ : BufTy).Contents (Elt F) → (⟨S8x4096x64, .f32⟩ : BufTy).Contents (Elt F)),
    binary main_v0 main_v2 main_v3 (addf : (⟨S8x4096x64, .f32⟩ : BufTy).Contents (Elt F) → (⟨S8x4096x64, .f32⟩ : BufTy).Contents (Elt F) → (⟨S8x4096x64, .f32⟩ : BufTy).Contents (Elt F)),
    unary main_v0 main_v4 (broadcastInDim S8x4096x1x64 ![0, 1, 3] bcast_S8x4096x64_S8x4096x1x64_0_1_3 : (⟨S8x4096x64, .f32⟩ : BufTy).Contents (Elt F) → (⟨S8x4096x1x64, .f32⟩ : BufTy).Contents (Elt F)),
    unary main_v3 main_v5 (broadcastInDim S8x4096x1x64 ![0, 1, 3] bcast_S8x4096x64_S8x4096x1x64_0_1_3 : (⟨S8x4096x64, .f32⟩ : BufTy).Contents (Elt F) → (⟨S8x4096x1x64, .f32⟩ : BufTy).Contents (Elt F)),
    binary main_v4 main_v5 main_v6 ((fun a b => concatenate S8x4096x2x64 2 [⟨S8x4096x1x64, a⟩, ⟨S8x4096x1x64, b⟩] concatenates_S8x4096x1x64_S8x4096x1x64_S8x4096x2x64_d2) : (⟨S8x4096x1x64, .f32⟩ : BufTy).Contents (Elt F) → (⟨S8x4096x1x64, .f32⟩ : BufTy).Contents (Elt F) → (⟨S8x4096x2x64, .f32⟩ : BufTy).Contents (Elt F)) ]

-- fifty-one binds re-associated: the rewrite under the chain recurses once per statement
set_option maxRecDepth 2048 in
/-- The entry function is that straight line: the helpers' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., binary_bufs_sub ..⟩

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- All the operations but the last. -/
abbrev ops0 : List (HloOp τ sig (Elt F)) :=
  [
    TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 100000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 99999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S8x100000x64_S4096x1_S8x4096x64_02_1_n_n_1_1_8164 x i),
    TRef.unary main_call0.v12 main_call0.v14 (broadcastInDim S8x4096x64 ![1] bcast_S4096_S8x4096x64_1),
    TRef.nullary main_call0.cst (constant S_ .f32 0x7FC00000#32),
    TRef.unary main_call0.cst main_call0.v15 (broadcastInDim S8x4096x64 ![] bcast_S_S8x4096x64),
    TRef.ternary main_call0.v14 main_call0.v13 main_call0.v15 main_call0.v16 select,
    TRef.nullary main_call1.c (constantI S_ 32 0#32),
    TRef.unary main_call1.c main_call1.v0 (broadcastInDim S4096 ![] bcast_S_S4096),
    TRef.binary (.of main_arg0) main_call1.v0 main_call1.v1 (cmpi .slt),
    TRef.nullary main_call1.c_0 (constantI S_ 32 100000#32),
    TRef.unary main_call1.c_0 main_call1.v2 (broadcastInDim S4096 ![] bcast_S_S4096),
    TRef.binary (.of main_arg0) main_call1.v2 main_call1.v3 addi,
    TRef.ternary main_call1.v1 main_call1.v3 (.of main_arg0) main_call1.call0.v0 select,
    TRef.unary main_call1.call0.v0 main_call1.v5 (broadcastInDim S4096x1 ![0] bcast_S4096_S4096x1_0),
    TRef.nullary main_call1.c_1 (constantI S1 32 99999#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg2) main_call1.v5 main_call1.v13 (fun x i => Host.gather gather_S8x100000x64_S4096x1_S8x4096x64_02_1_n_n_1_1_8164 x i),
    TRef.unary main_call1.v12 main_call1.v14 (broadcastInDim S8x4096x64 ![1] bcast_S4096_S8x4096x64_1),
    TRef.nullary main_call1.cst (constant S_ .f32 0x7FC00000#32),
    TRef.unary main_call1.cst main_call1.v15 (broadcastInDim S8x4096x64 ![] bcast_S_S8x4096x64),
    TRef.ternary main_call1.v14 main_call1.v13 main_call1.v15 main_call1.v16 select,
    unary main_v1 main_v2 (Host.exp : (⟨S8x4096x64, .f32⟩ : BufTy).Contents (Elt F) → (⟨S8x4096x64, .f32⟩ : BufTy).Contents (Elt F)),
    binary main_v0 main_v2 main_v3 (addf : (⟨S8x4096x64, .f32⟩ : BufTy).Contents (Elt F) → (⟨S8x4096x64, .f32⟩ : BufTy).Contents (Elt F) → (⟨S8x4096x64, .f32⟩ : BufTy).Contents (Elt F)),
    unary main_v0 main_v4 (broadcastInDim S8x4096x1x64 ![0, 1, 3] bcast_S8x4096x64_S8x4096x1x64_0_1_3 : (⟨S8x4096x64, .f32⟩ : BufTy).Contents (Elt F) → (⟨S8x4096x1x64, .f32⟩ : BufTy).Contents (Elt F)),
    unary main_v3 main_v5 (broadcastInDim S8x4096x1x64 ![0, 1, 3] bcast_S8x4096x64_S8x4096x1x64_0_1_3 : (⟨S8x4096x64, .f32⟩ : BufTy).Contents (Elt F) → (⟨S8x4096x1x64, .f32⟩ : BufTy).Contents (Elt F)) ]

/-- The last operation: the concatenation of the two arrays with a unit axis, along that axis. -/
abbrev lastOp : HloOp τ sig (Elt F) :=
  binary main_v4 main_v5 main_v6 ((fun a b => concatenate S8x4096x2x64 2 [⟨S8x4096x1x64, a⟩, ⟨S8x4096x1x64, b⟩] concatenates_S8x4096x1x64_S8x4096x1x64_S8x4096x2x64_d2) : (⟨S8x4096x1x64, .f32⟩ : BufTy).Contents (Elt F) → (⟨S8x4096x1x64, .f32⟩ : BufTy).Contents (Elt F) → (⟨S8x4096x2x64, .f32⟩ : BufTy).Contents (Elt F))

theorem ops_split : (ops : List (HloOp τ sig (Elt F))) = ops0 ++ [lastOp] := rfl

/-- Before the concatenation, its first operand holds the first table's gather with the unit axis inserted: the fold
    over the operations unrolled, each operation's result read at its own buffer and passed over at every other. -/
theorem v4_eq (V : Valuation τ sig (Elt F)) :
    after ops0 V (main_v4 : DevRef τ sig)
      = broadcastInDim S8x4096x1x64 ![0, 1, 3] bcast_S8x4096x64_S8x4096x1x64_0_1_3
          (take (V (main_arg1 : DevRef τ sig)) (V (main_arg0 : DevRef τ sig))) := by
  after_results_simp
  rfl

/-- … and its second operand the sum of that gather and the exponential of the second table's, likewise. -/
theorem v5_eq (V : Valuation τ sig (Elt F)) :
    after ops0 V (main_v5 : DevRef τ sig)
      = broadcastInDim S8x4096x1x64 ![0, 1, 3] bcast_S8x4096x64_S8x4096x1x64_0_1_3
          (addf (take (V (main_arg1 : DevRef τ sig)) (V (main_arg0 : DevRef τ sig)))
            (Host.exp (take (V (main_arg2 : DevRef τ sig)) (V (main_arg0 : DevRef τ sig))))) := by
  after_results_simp
  rfl

/-- What the line leaves in the result buffer is `RefTerm.out` of the argument buffers' contents. -/
theorem out_eq (V : Valuation τ sig (Elt F)) :
    after ops V (main_v6 : DevRef τ sig)
      = out (V (main_arg0 : DevRef τ sig)) (V (main_arg1 : DevRef τ sig)) (V (main_arg2 : DevRef τ sig)) := by
  rw [ops_split, after_append, after_cons, after_nil, binary_result, v4_eq, v5_eq]
  rfl

/-- No operation writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of the entry
    function terminates with the result buffer at `RefTerm.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.Proof.RefSeq

end
-- ==== Proof.RefIdx.lean ====
/-
  The reference's result term read entry by entry, for index arrays whose every word, read signed, lies in [0, 99999].

  For such an array nothing is wrapped (no entry is negative), the range mask is true at every batch entry (each entry
  passes both comparisons, so the conjunction over the column's unit axis is true), and the gather's clamp of the
  start index into [0, 99999] changes nothing. Entry (model, batch, coordinate) of a gather is therefore the table at
  (model, the batch entry's index read as a natural number, coordinate), and the result's two slots hold the first
  table's entry and that entry plus the exponential of the second table's: the specification's `result`.
-/
import proofs.«205357_g36507222016157_cont_8to1_b_501_45_alg».proof.Proof.RefTerm
import proofs.«205357_g36507222016157_cont_8to1_b_501_45_alg».proof.Proof.Spec
import Idealize.ShloMosaic.Lib.ValueIdx
import Idealize.ShloMosaic.Lib.Affine
import Idealize.ShloMosaic.Lib.ReduceAll
import Idealize.ShloMosaic.Lib.Pipeline.Value
import Idealize.ShloMosaic.Lib.StableHlo.Run

noncomputable section

namespace Cert.Proof.RefIdx

open Idealize.ShloMosaic Idealize.ShloMosaic.ValueIdx Cert.ReferenceIdeal Cert.ReferenceIdeal.Facts₀ Cert.Proof.RefTerm

/-! ## Words -/

/-- A left fold by `and` from the true bit over true bits is the true bit. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from the true bit of an array that is true everywhere is true everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun i _ => hx i

/-- A 32-bit word that reads signed in [0, 99999] reads the same unsigned, and is its own clamp and remainder. -/
theorem word_in_range {x : BitVec 32} (h0 : 0 ≤ x.toInt) (h1 : x.toInt ≤ 99999) :
    min x.toInt.toNat (100000 - 1) = x.toNat % 100000 := by
  have hc := BitVec.toInt_eq_toNat_cond x
  have hl := x.isLt
  split at hc <;> omega

/-! ## The gather helper, entry by entry -/

section Take
variable (idx : IVec S4096 32) (hr : ∀ j, 0 ≤ (idx j).toInt ∧ (idx j).toInt ≤ 99999)
include hr

/-- No entry is negative: nothing is wrapped. -/
theorem wrap_eq : wrap idx = idx := by
  funext i
  have h0 : ¬ IntOp.cmpi .slt (idx i) 0#32 = 1#1 := by
    rw [IntOp.cmpi_slt, show (0#32 : BitVec 32).toInt = 0 from by decide]
    exact not_lt.2 (hr i).1
  exact if_neg h0

/-- The column holds batch entry `b`'s index at row `b`. -/
theorem col_apply (i : S4096x1.Idx) : col idx i = idx (ix1 ⟨(i 0).val, (i 0).isLt⟩) := by
  unfold col
  rw [wrap_eq idx hr]
  exact broadcastInDim_apply _ _ _ i (ix1 ⟨(i 0).val, (i 0).isLt⟩) fun a => match a with | ⟨0, _⟩ => rfl

/-- Every batch entry's index is in range. -/
theorem mask_apply (j : S4096.Idx) : mask idx j = 1#1 := by
  unfold mask
  refine reduce_andi_of_all _ _ _ _ (fun _ => rfl) (fun i => ?_) j
  show IntOp.andi (IntOp.cmpi .sge (col idx i) 0#32) (IntOp.cmpi .sle (col idx i) 99999#32) = 1#1
  rw [col_apply idx hr i]
  refine IntOp.andi_eq_one.2 ⟨IntOp.cmpi_sge.2 ?_, IntOp.cmpi_sle.2 ?_⟩
  · rw [show (0#32 : BitVec 32).toInt = 0 from by decide]; exact (hr _).1
  · rw [show (99999#32 : BitVec 32).toInt = 99999 from by decide]; exact (hr _).2

end Take

/-! ## The gather, entry by entry -/

section Gather

local notation "𝔾" => gather_S8x100000x64_S4096x1_S8x4096x64_02_1_n_n_1_1_8164

/-- The gather's dimension numbers read at result entry (model, batch, coordinate): the table at the same model and
    coordinate and, on the box axis, the batch entry's start index read signed and clamped into [0, 99999]. -/
theorem gather_apply {α : Type} (tbl : S8x100000x64.Idx → α) (st : IVec S4096x1 32) (a : Fin 8) (b : Fin 4096) (d : Fin 64) :
    Host.gather 𝔾 tbl st (ix3 a b d)
      = tbl (ix3 a ⟨min (st (ix2 b 0)).toInt.toNat (100000 - 1), by omega⟩ d) := by
  unfold Host.gather
  congr 1
  funext ax
  refine Fin.ext ?_
  match ax with
  | ⟨0, _⟩ =>
    -- the model axis: no start index, no batching, the result's first offset coordinate
    have h1 : GatherDims.start 𝔾 (ix3 a b d) st ⟨0, by decide⟩ = 0 := by
      unfold GatherDims.start
      exact dif_neg (show ¬ (⟨0, by decide⟩ : Fin S8x100000x64.rank) ∈ GatherDims.startIndexMap 𝔾 from by decide)
    have h2 : GatherDims.batchCoord 𝔾 (ix3 a b d) ⟨0, by decide⟩ = 0 :=
      GatherDims.batchCoord_eq_zero 𝔾 _ _ (show ¬ (⟨0, by decide⟩ : Fin S8x100000x64.rank) ∈ GatherDims.operandBatchingDims 𝔾 from by decide)
    have h3 : GatherDims.offCoord 𝔾 (ix3 a b d) ⟨0, by decide⟩ = a.val := by
      unfold GatherDims.offCoord
      rw [dif_pos (show (⟨0, by decide⟩ : Fin S8x100000x64.rank) ∈ GatherDims.sKept 𝔾 from by decide)]
      rfl
    show GatherDims.start 𝔾 _ _ _ + GatherDims.batchCoord 𝔾 _ _ + GatherDims.offCoord 𝔾 _ _ = _
    rw [h1, h2, h3]
    exact Nat.zero_add _
  | ⟨1, _⟩ =>
    -- the box axis: collapsed, so only the clamped start index
    have h1 : GatherDims.start 𝔾 (ix3 a b d) st ⟨1, by decide⟩ = min (st (ix2 b 0)).toInt.toNat (100000 - 1) := by
      unfold GatherDims.start
      rw [dif_pos (show (⟨1, by decide⟩ : Fin S8x100000x64.rank) ∈ GatherDims.startIndexMap 𝔾 from by decide)]
      have hsi : GatherDims.siIdx 𝔾 (ix3 a b d) ⟨List.idxOf (⟨1, by decide⟩ : Fin S8x100000x64.rank) (GatherDims.startIndexMap 𝔾),
          List.idxOf_lt_length_iff.2 (by decide)⟩ = ix2 b 0 := by
        funext c; refine Fin.ext ?_
        match c with
        | ⟨0, _⟩ => rfl
        | ⟨1, _⟩ => rfl
      rw [hsi]
      rfl
    have h2 : GatherDims.batchCoord 𝔾 (ix3 a b d) ⟨1, by decide⟩ = 0 :=
      GatherDims.batchCoord_eq_zero 𝔾 _ _ (show ¬ (⟨1, by decide⟩ : Fin S8x100000x64.rank) ∈ GatherDims.operandBatchingDims 𝔾 from by decide)
    have h3 : GatherDims.offCoord 𝔾 (ix3 a b d) ⟨1, by decide⟩ = 0 :=
      GatherDims.offCoord_eq_zero 𝔾 _ _ (show ¬ (⟨1, by decide⟩ : Fin S8x100000x64.rank) ∈ GatherDims.sKept 𝔾 from by decide)
    show GatherDims.start 𝔾 _ _ _ + GatherDims.batchCoord 𝔾 _ _ + GatherDims.offCoord 𝔾 _ _ = _
    rw [h1, h2, h3]
    rfl
  | ⟨2, _⟩ =>
    -- the coordinate axis: no start index, no batching, the result's second offset coordinate
    have h1 : GatherDims.start 𝔾 (ix3 a b d) st ⟨2, by decide⟩ = 0 := by
      unfold GatherDims.start
      exact dif_neg (show ¬ (⟨2, by decide⟩ : Fin S8x100000x64.rank) ∈ GatherDims.startIndexMap 𝔾 from by decide)
    have h2 : GatherDims.batchCoord 𝔾 (ix3 a b d) ⟨2, by decide⟩ = 0 :=
      GatherDims.batchCoord_eq_zero 𝔾 _ _ (show ¬ (⟨2, by decide⟩ : Fin S8x100000x64.rank) ∈ GatherDims.operandBatchingDims 𝔾 from by decide)
    have h3 : GatherDims.offCoord 𝔾 (ix3 a b d) ⟨2, by decide⟩ = d.val := by
      unfold GatherDims.offCoord
      rw [dif_pos (show (⟨2, by decide⟩ : Fin S8x100000x64.rank) ∈ GatherDims.sKept 𝔾 from by decide)]
      rfl
    show GatherDims.start 𝔾 _ _ _ + GatherDims.batchCoord 𝔾 _ _ + GatherDims.offCoord 𝔾 _ _ = _
    rw [h1, h2, h3]
    exact Nat.zero_add _

end Gather

/-! ## The helper and the program, entry by entry -/

section Result
variable (idx : IVec S4096 32) (hr : ∀ j, 0 ≤ (idx j).toInt ∧ (idx j).toInt ≤ 99999)
include hr

/-- Entry (model, batch, coordinate) of a gather is the table at (model, the batch entry's box, coordinate). -/
theorem take_apply {F : FTy → Type} [FloatOps F] (tbl : FVec F S8x100000x64 .f32) (a : Fin 8) (b : Fin 4096) (d : Fin 64) :
    take tbl idx (ix3 a b d) = tbl (ix3 a (Cert.Spec.box idx b) d) := by
  unfold take
  rw [select_apply]
  have hm : broadcastInDim S8x4096x64 ![1] bcast_S4096_S8x4096x64_1 (mask idx) (ix3 a b d) = 1#1 :=
    (broadcastInDim_apply _ _ _ (ix3 a b d) (ix1 b) fun c => match c with | ⟨0, _⟩ => rfl).trans (mask_apply idx hr _)
  rw [hm, select_one, gather_apply]
  refine congrArg tbl (congrArg (fun k => ix3 a k d) (Fin.ext ?_))
  show min (col idx (ix2 b 0)).toInt.toNat (100000 - 1) = _
  rw [col_apply idx hr]
  exact word_in_range (hr _).1 (hr _).2

/-- The result term is the specification's, at the ideal instance: slot 0 the first table's entry, slot 1 that entry
    plus the exponential of the second table's. -/
theorem out_eq_result (z ld : FVec Ideal S8x100000x64 .f32) :
    out idx z ld = Cert.Spec.result (F := Ideal) idx z ld := by
  funext j
  obtain ⟨a, b, s, d, rfl⟩ : ∃ (a : Fin 8) (b : Fin 4096) (s : Fin 2) (d : Fin 64), j = ix4 a b s d :=
    ⟨j 0, j 1, j 2, j 3, eq_ix4 j⟩
  unfold out
  match s with
  | ⟨0, _⟩ =>
    refine (concatenate_pair_apply_left (t := S8x4096x2x64) (s₁ := S8x4096x1x64) (s₂ := S8x4096x1x64) (2 : Fin S8x4096x2x64.rank) _ _ _ (ix4 a b ⟨0, by decide⟩ d) rfl
      (ix4 a b (0 : Fin 1) d) fun c => match c with | ⟨0, _⟩ => rfl | ⟨1, _⟩ => rfl | ⟨2, _⟩ => rfl | ⟨3, _⟩ => rfl).trans ?_
    refine (broadcastInDim_apply (s := S8x4096x64) (t := S8x4096x1x64) _ _ _ (ix4 a b (0 : Fin 1) d) (ix3 a b d)
      fun c => match c with | ⟨0, _⟩ => rfl | ⟨1, _⟩ => rfl | ⟨2, _⟩ => rfl).trans ?_
    rw [take_apply idx hr]
    rfl
  | ⟨1, _⟩ =>
    refine (concatenate_pair_apply_right (t := S8x4096x2x64) (s₁ := S8x4096x1x64) (s₂ := S8x4096x1x64) (2 : Fin S8x4096x2x64.rank) _ _ _ (ix4 a b ⟨1, by decide⟩ d) rfl rfl
      (ix4 a b (0 : Fin 1) d) (fun c hc => match c, hc with | ⟨0, _⟩, _ => rfl | ⟨1, _⟩, _ => rfl | ⟨2, _⟩, hc => absurd rfl hc | ⟨3, _⟩, _ => rfl) rfl).trans ?_
    refine (broadcastInDim_apply (s := S8x4096x64) (t := S8x4096x1x64) _ _ _ (ix4 a b (0 : Fin 1) d) (ix3 a b d)
      fun c => match c with | ⟨0, _⟩ => rfl | ⟨1, _⟩ => rfl | ⟨2, _⟩ => rfl).trans ?_
    rw [addf_apply, take_apply idx hr]
    show z _ + FloatOps.hostUnary .exp (take ld idx (ix3 a b d)) = _
    rw [take_apply idx hr]
    rfl

end Result

end Cert.Proof.RefIdx

end
-- ==== Proof.RefRun.lean ====
/-
  The reference program's run against the specification: for an index array whose every word, read signed, lies in
  [0, 99999], every weakly fair execution of the reference terminates with its result buffer holding the
  specification's `result` of the three argument arrays, which end unchanged. The run itself (`RefSeq.run`) leaves the
  result as the operations' composed term; read entry by entry under the range hypothesis that term is the
  specification (`RefIdx.out_eq_result`).
-/
import proofs.«205357_g36507222016157_cont_8to1_b_501_45_alg».proof.Proof.RefSeq
import proofs.«205357_g36507222016157_cont_8to1_b_501_45_alg».proof.Proof.RefIdx

noncomputable section

namespace Cert.Proof.RefRun

open Idealize.ShloMosaic Idealize.SL.Sem Cert.ReferenceIdeal

/-- every index word, read signed, lies in [0, 99999] -/
def InRange (idx : IVec Cert.Spec.S4096 32) : Prop := ∀ j, 0 ≤ (idx j).toInt ∧ (idx j).toInt ≤ 99999

theorem run (m : (ℓ : Loc nD τ sig) → Buf (Elt Ideal) ℓ) (g : Dev nD → PrngReg)
    (hr : ∀ c : Dev nD, InRange (m ((c.tc : Thread nD τ).loc main_arg0))) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v6)
            = Cert.Spec.result (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono
    (fun _ h c => ⟨(h c).1.trans (Cert.Proof.RefIdx.out_eq_result _ (hr c) _ _), (h c).2⟩)
    (Cert.Proof.RefSeq.run m g)

end Cert.Proof.RefRun

end
-- ==== Proof.PreRange.lean ====
/-
  The index range, read off the precondition.

  The precondition is the conjunction, as one-bit words, of three "all" tests: every entry of the first table is a
  finite float, every entry of the second is, and every index word i satisfies 0 ≤ i and i ≤ 99999 as signed 32-bit
  integers. Each "all" is a fold by "and" from the word 1, and the three results are joined by "and". When the whole
  is the word 1 its last conjunct is 1; a fold by "and" that came out 1 met only 1s; and the word at position j of the
  folded array is (0 ≤ idx j) and (idx j ≤ 99999), the two bounds being scalars spread over all 4096 positions.
  A signed comparison whose word is 1 is the order of the signed readings, which gives 0 ≤ idx j ≤ 99999; a word whose
  signed reading is nonnegative reads the same unsigned, which gives the bound as a natural number.

  The two float conjuncts are never opened, so the statements hold for every float instance.
-/
import proofs.«205357_g36507222016157_cont_8to1_b_501_45_alg».proof.Pre_input_domain
import proofs.«205357_g36507222016157_cont_8to1_b_501_45_alg».proof.Proof.Gen.Pre_input_domain
import Idealize.ShloMosaic.Lib.ReduceAll
import Idealize.ShloMosaic.Lib.ValueIdx

namespace Cert.Proof.PreRange

open Idealize.ShloMosaic

/-- The word at one position of the range test: both signed comparisons hold there. -/
private theorem range_of_word (v : BitVec 32)
    (e : IntOp.andi (IntOp.cmpi .sge v 0#32) (IntOp.cmpi .sle v 99999#32) = 1#1) :
    0 ≤ v.toInt ∧ v.toInt ≤ 99999 := by
  obtain ⟨h0, h1⟩ := IntOp.andi_eq_one.1 e
  rw [IntOp.cmpi_sge, show (0#32 : BitVec 32).toInt = 0 from by decide] at h0
  rw [IntOp.cmpi_sle, show (99999#32 : BitVec 32).toInt = 99999 from by decide] at h1
  exact ⟨h0, h1⟩

/-- From the precondition (finite floats AND 0 ≤ idx ≤ 99999, all-ones as jax computes it) the index range alone. -/
theorem inRange_of_pre {F : FTy → Type} [FloatOps F] (a0 : IVec Cert.Pre_input_domain.S4096 32)
    (a1 a2 : FVec F Cert.Pre_input_domain.S8x100000x64 .f32)
    (h : Cert.Pre_input_domain.fn (F := F) a0 a1 a2 = (fun _ => 1#1)) :
    ∀ j, 0 ≤ (a0 j).toInt ∧ (a0 j).toInt ≤ 99999 := by
  intro j
  -- the scalar shape has one index
  haveI : Subsingleton Cert.Pre_input_domain.S_.Idx := ⟨fun a b => funext fun d => d.elim0⟩
  have e := congrFun h ValueIdx.ix0
  dsimp only [Cert.Pre_input_domain.fn] at e
  -- the whole is (finite ∧ finite) ∧ range: keep the last conjunct
  have e14 := (IntOp.andi_eq_one.1 e).2
  -- a fold by "and" that is 1 met a 1 at every position
  have ej := Host.reduce_andi_all _ _ _ _ _ e14 j
  -- the word at position j: the two bounds are scalars read everywhere
  exact range_of_word (a0 j) ej

/-- the same as natural numbers -/
theorem toNat_lt_of_pre {F : FTy → Type} [FloatOps F] (a0 : IVec Cert.Pre_input_domain.S4096 32)
    (a1 a2 : FVec F Cert.Pre_input_domain.S8x100000x64 .f32)
    (h : Cert.Pre_input_domain.fn (F := F) a0 a1 a2 = (fun _ => 1#1)) :
    ∀ j, (a0 j).toNat < 100000 := by
  intro j
  obtain ⟨h0, h1⟩ := inRange_of_pre a0 a1 a2 h j
  have hlt := (a0 j).isLt
  rw [BitVec.toInt_eq_toNat_cond] at h0 h1
  split at h0 <;> omega

end Cert.Proof.PreRange
-- ==== Proof.SpecBridge.lean ====
/-
  The specification's two layouts are one array under the transposes and the merge of axes the caller performs.

  The caller lays each table out one row per (model, coordinate) pair: it swaps the box axis and the coordinate axis,
  [8, 100000, 64] to [8, 64, 100000], and merges the first two axes, to [512, 100000]. Row-major, the element at
  (m, d, n) of the swapped array sits at position (m * 64 + d) * 100000 + n, which is position (row, n) of the merged
  array for row = m * 64 + d; so the laid-out table at (m * 64 + d, n) is the original at (m, n, d).

  The staged result is indexed (model, slot, coordinate, batch); the caller moves the batch axis to second place,
  giving (model, batch, slot, coordinate). Entry (m, b, s, d) of the moved array is entry (m, s, d, b) of the staged
  one: the laid-out tables at row m * 64 + d and at the box batch entry b selects, that is the original tables at
  (m, box b, d), under the same choice on the slot s. That is the result's entry (m, b, s, d).
-/
import proofs.«205357_g36507222016157_cont_8to1_b_501_45_alg».proof.Proof.Spec
import Idealize.ShloMosaic.Lib.Pipeline.Value
import Idealize.ShloMosaic.Lib.ValueIdx

noncomputable section

namespace Cert.Proof.SpecBridge

open Idealize.ShloMosaic Idealize.ShloMosaic.ValueIdx Cert.Spec

abbrev S8x64x100000 : Shape := ⟨3, ![8, 64, 100000]⟩

/-- The table one row per (model, coordinate): transpose axes 1 and 2, then merge the first two axes. -/
def table {F : FTy → Type} (x : FVec F S8x100000x64 .f32)
    (h1 : S8x100000x64.Transposes [0, 2, 1] S8x64x100000) (h2 : S8x64x100000.ShapeCasts S512x100000) : FVec F S512x100000 .f32 :=
  shapeCast S512x100000 (transpose S8x64x100000 [0, 2, 1] x h1) h2

/-- Row m * 64 + d of the laid-out table, at box n, is the original table at (m, n, d). -/
theorem table_apply {F : FTy → Type} (x : FVec F S8x100000x64 .f32) (h1) (h2) (m : Fin 8) (d : Fin 64) (n : Fin 100000) :
    table x h1 h2 (ValueIdx.ix2 (n0 := 512) (n1 := 100000) (Cert.Spec.tableRow m d) n) = x (ValueIdx.ix3 (n0 := 8) (n1 := 100000) (n2 := 64) m n d) := by
  unfold table
  -- the merge of the first two axes: (row, n) and (m, d, n) have the same row-major position
  refine (shapeCast_apply _ h2 _ (ix3 (n0 := 8) (n1 := 64) (n2 := 100000) m d n) ?_).trans ?_
  · rw [Shape.rowMajor_val_three, Shape.rowMajor_val_two]
    show (m.val * 64 + d.val) * 100000 + n.val = (m.val * 64 + d.val) * 100000 + n.val
    rfl
  -- the swap of axes 1 and 2: (m, d, n) reads (m, n, d)
  · exact transpose_apply _ _ h1 _ _ (fun b => match b with | ⟨0, _⟩ => rfl | ⟨1, _⟩ => rfl | ⟨2, _⟩ => rfl)

/-- The staged layout at (model, slot, coordinate, batch), over explicit coordinates. -/
private theorem staged_apply {F : FTy → Type} [FloatOps F] (idx : IVec Cert.Spec.S4096 32) (zT ldT : FVec F S512x100000 .f32)
    (m : Fin 8) (s : Fin 2) (d : Fin 64) (b : Fin 4096) :
    Cert.Spec.staged idx zT ldT (ix4 (n0 := 8) (n1 := 2) (n2 := 64) (n3 := 4096) m s d b)
      = if s.val = 0 then zT (ix2 (n0 := 512) (n1 := 100000) (tableRow m d) (box idx b))
        else FloatOps.addf (zT (ix2 (n0 := 512) (n1 := 100000) (tableRow m d) (box idx b)))
          (FloatOps.exp (ldT (ix2 (n0 := 512) (n1 := 100000) (tableRow m d) (box idx b)))) := rfl

/-- The result layout at (model, batch, slot, coordinate), over explicit coordinates. -/
private theorem result_apply {F : FTy → Type} [FloatOps F] (idx : IVec Cert.Spec.S4096 32) (z ld : FVec F S8x100000x64 .f32)
    (m : Fin 8) (b : Fin 4096) (s : Fin 2) (d : Fin 64) :
    Cert.Spec.result idx z ld (ix4 (n0 := 8) (n1 := 4096) (n2 := 2) (n3 := 64) m b s d)
      = if s.val = 0 then z (ix3 (n0 := 8) (n1 := 100000) (n2 := 64) m (box idx b) d)
        else FloatOps.addf (z (ix3 (n0 := 8) (n1 := 100000) (n2 := 64) m (box idx b) d))
          (FloatOps.exp (ld (ix3 (n0 := 8) (n1 := 100000) (n2 := 64) m (box idx b) d))) := rfl

/-- Staging the tables, computing the staged result and transposing it to (model, batch, slot, coordinate) is the result. -/
theorem staged_transposed {F : FTy → Type} [FloatOps F] (idx : IVec Cert.Spec.S4096 32) (z ld : FVec F S8x100000x64 .f32)
    (h1 : S8x100000x64.Transposes [0, 2, 1] S8x64x100000) (h2 : S8x64x100000.ShapeCasts S512x100000)
    (h3 : S8x2x64x4096.Transposes [0, 3, 1, 2] S8x4096x2x64) :
    transpose S8x4096x2x64 [0, 3, 1, 2] (Cert.Spec.staged idx (table z h1 h2) (table ld h1 h2)) h3 = Cert.Spec.result idx z ld := by
  funext j
  obtain ⟨m, b, s, d, rfl⟩ : ∃ (m : Fin 8) (b : Fin 4096) (s : Fin 2) (d : Fin 64), j = ix4 m b s d :=
    ⟨j 0, j 1, j 2, j 3, eq_ix4 j⟩
  -- moving the batch axis to second place: (m, b, s, d) reads (m, s, d, b)
  refine (transpose_apply _ _ h3 _ (ix4 (n0 := 8) (n1 := 2) (n2 := 64) (n3 := 4096) m s d b)
    (fun c => match c with | ⟨0, _⟩ => rfl | ⟨1, _⟩ => rfl | ⟨2, _⟩ => rfl | ⟨3, _⟩ => rfl)).trans ?_
  rw [staged_apply, result_apply, table_apply, table_apply]

end Cert.Proof.SpecBridge

end
-- ==== Proof.lean ====
/-
  The claim: the kernel and its idealization run to the end, faulting nowhere, with their three arguments unchanged;
  the reference does; and at the ideal instance the kernel's result and the reference's are equal, entry by entry.

  Both programs compute, for a model m, a batch entry b and a coordinate c, the selected box's minimum coordinate
  z[m, idx[b], c] (slot 0) and its maximum coordinate z[m, idx[b], c] + exp(logdelta[m, idx[b], c]) (slot 1):
  Cert.Spec.result. The reference gathers the two tables at the index list, takes the exponential, adds and stacks.
  The kernel transposes each table to one row per (model, coordinate), hands 16 rows to each of 32 tiles, which gather
  each row at the index list on their own and write the two output rows, and transposes the rows back. Gathering a
  transposed row is reading the table at the transposed index, the sum and the exponential are taken entry by entry
  on both sides, so the two results are one function of the arguments; no law of arithmetic is used and the
  finiteness of the inputs is never opened. The index range (every index word names a box) is what makes every
  tile's indexed load defined and the reference's out-of-range mask all true.
-/
import proofs.«205357_g36507222016157_cont_8to1_b_501_45_alg».proof.Defs
import proofs.«205357_g36507222016157_cont_8to1_b_501_45_alg».proof.Proof.Gen.Kernel
import proofs.«205357_g36507222016157_cont_8to1_b_501_45_alg».proof.Proof.Gen.Kernel.Skeleton
import proofs.«205357_g36507222016157_cont_8to1_b_501_45_alg».proof.Proof.Gen.KernelIdeal
import proofs.«205357_g36507222016157_cont_8to1_b_501_45_alg».proof.Proof.Gen.KernelIdeal.Skeleton
import proofs.«205357_g36507222016157_cont_8to1_b_501_45_alg».proof.Proof.Gen.ReferenceIdeal
import proofs.«205357_g36507222016157_cont_8to1_b_501_45_alg».proof.Proof.Gen.Pre_input_domain
import proofs.«205357_g36507222016157_cont_8to1_b_501_45_alg».proof.Proof.Kernel.Tile
import proofs.«205357_g36507222016157_cont_8to1_b_501_45_alg».proof.Proof.Kernel.Launch
import proofs.«205357_g36507222016157_cont_8to1_b_501_45_alg».proof.Proof.KernelIdeal.Tile
import proofs.«205357_g36507222016157_cont_8to1_b_501_45_alg».proof.Proof.KernelIdeal.Launch
import proofs.«205357_g36507222016157_cont_8to1_b_501_45_alg».proof.Proof.RefRun
import proofs.«205357_g36507222016157_cont_8to1_b_501_45_alg».proof.Proof.PreRange
import proofs.«205357_g36507222016157_cont_8to1_b_501_45_alg».proof.Proof.SpecBridge
import Idealize.ShloMosaic.Adequacy
import Idealize.ShloMosaic.Init

noncomputable section

namespace Cert.Proof

open Idealize.ShloMosaic Idealize.SL.Sem

/-- Under the precondition every index word names a box: what each tile's indexed loads need. -/
theorem preOK_word (m : (ℓ : Loc Cert.Kernel.nD Cert.Kernel.τ Cert.Kernel.sig) → Buf (Elt Bits) ℓ) (h : Cert.Pre_Kernel m) :
    Cert.Proof.Kernel.PreOK (F := Bits) m :=
  fun d j => Cert.Proof.PreRange.toNat_lt_of_pre _ _ _ (h d) j
theorem preOK_ideal (m : (ℓ : Loc Cert.KernelIdeal.nD Cert.KernelIdeal.τ Cert.KernelIdeal.sig) → Buf (Elt Ideal) ℓ) (h : Cert.Pre_KernelIdeal m) :
    Cert.Proof.KernelIdeal.PreOK (F := Ideal) m :=
  fun d j => Cert.Proof.PreRange.toNat_lt_of_pre _ _ _ (h d) j

/-- The kernel's run: its whole run with the result's value dropped. -/
theorem frame_word : Cert.frame_Kernel := fun m g hpre =>
  (θ_run Cert.Kernel.defs _ _).mono (fun _ h c => (h c).2)
    (Cert.Proof.Kernel.run_main (F := Bits) m g (Cert.Proof.Kernel.tileObl m Cert.Proof.Kernel.facts (preOK_word m hpre)))
theorem frame_ideal : Cert.frame_KernelIdeal := fun m g hpre =>
  (θ_run Cert.KernelIdeal.defs _ _).mono (fun _ h c => (h c).2)
    (Cert.Proof.KernelIdeal.run_main (F := Ideal) m g (Cert.Proof.KernelIdeal.tileObl m Cert.Proof.KernelIdeal.facts (preOK_ideal m hpre)))

/-- The reference's run with the result's value dropped. -/
theorem frame_ref : Cert.frame_ReferenceIdeal := fun m g hpre =>
  (θ_run Cert.ReferenceIdeal.defs _ _).mono (fun _ h c => (h c).2)
    (Cert.Proof.RefRun.run m g (fun c => Cert.Proof.PreRange.inRange_of_pre _ _ _ (hpre c)))

/-- At the ideal instance both runs end at the specification of arguments that agree. -/
theorem algebraic : Cert.algebraic_KernelIdeal_ReferenceIdeal := by
  intro m g m' g' hpre hagree
  refine ⟨fun c => Cert.Spec.result (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.Proof.KernelIdeal.run_main (F := Ideal) m g (Cert.Proof.KernelIdeal.tileObl m Cert.Proof.KernelIdeal.facts (preOK_ideal m hpre)))
    exact Cert.Proof.SpecBridge.staged_transposed (F := Ideal) _ _ _ _ _ _
  · have hr : ∀ c : Dev Cert.ReferenceIdeal.nD, Cert.Proof.RefRun.InRange (m' ((c.tc : Thread Cert.ReferenceIdeal.nD Cert.ReferenceIdeal.τ).loc Cert.ReferenceIdeal.main_arg0)) := by
      intro c; rw [(hagree c).1]; exact Cert.Proof.PreRange.inRange_of_pre _ _ _ (hpre c)
    refine (θ_run Cert.ReferenceIdeal.defs _ _).mono (fun _ h c => ⟨(h c).1.trans ?_, (h c).2⟩) (Cert.Proof.RefRun.run m' g' hr)
    rw [(hagree c).1, (hagree c).2.1, (hagree c).2.2]

theorem claim : Cert.Claim := ⟨Cert.Kernel.Gen.facts, Cert.KernelIdeal.Gen.facts, Cert.ReferenceIdeal.Gen.facts, Cert.Pre_input_domain.Gen.facts,
  frame_word, frame_ideal, frame_ref, trivial, algebraic⟩

end Cert.Proof

end
